-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v300)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v300) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v310) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x6485 : Shape := ⟨2, ![30000, 6485]⟩
abbrev S2x300000 : Shape := ⟨2, ![2, 300000]⟩
abbrev S30000 : Shape := ⟨1, ![30000]⟩
abbrev S6464x128 : Shape := ⟨2, ![6464, 128]⟩
abbrev S128 : Shape := ⟨1, ![128]⟩
abbrev S21x21 : Shape := ⟨2, ![21, 21]⟩
abbrev S21 : Shape := ⟨1, ![21]⟩
abbrev S149x149 : Shape := ⟨2, ![149, 149]⟩
abbrev S149 : Shape := ⟨1, ![149]⟩
abbrev S149x298 : Shape := ⟨2, ![149, 298]⟩
abbrev S298 : Shape := ⟨1, ![298]⟩
abbrev S596x596 : Shape := ⟨2, ![596, 596]⟩
abbrev S596 : Shape := ⟨1, ![596]⟩
abbrev S596x1024 : Shape := ⟨2, ![596, 1024]⟩
abbrev S1024 : Shape := ⟨1, ![1024]⟩
abbrev S1024x486 : Shape := ⟨2, ![1024, 486]⟩
abbrev S486 : Shape := ⟨1, ![486]⟩
abbrev S_ : Shape := ⟨0, ![]⟩

class Facts : Prop where
  bcast_S_S30000x6485 : S_.BroadcastsInDim S30000x6485 (![] : Fin 0 → Fin S30000x6485.rank)
  reducesTo_S30000x6485_S_d0_1 : S30000x6485.ReducesTo [0, 1] S_
  h_S_ : 0 < S_.numel
  bcast_S_S6464x128 : S_.BroadcastsInDim S6464x128 (![] : Fin 0 → Fin S6464x128.rank)
  reducesTo_S6464x128_S_d0_1 : S6464x128.ReducesTo [0, 1] S_
  bcast_S_S128 : S_.BroadcastsInDim S128 (![] : Fin 0 → Fin S128.rank)
  reducesTo_S128_S_d0 : S128.ReducesTo [0] S_
  bcast_S_S21x21 : S_.BroadcastsInDim S21x21 (![] : Fin 0 → Fin S21x21.rank)
  reducesTo_S21x21_S_d0_1 : S21x21.ReducesTo [0, 1] S_
  bcast_S_S21 : S_.BroadcastsInDim S21 (![] : Fin 0 → Fin S21.rank)
  reducesTo_S21_S_d0 : S21.ReducesTo [0] S_
  bcast_S_S149x149 : S_.BroadcastsInDim S149x149 (![] : Fin 0 → Fin S149x149.rank)
  reducesTo_S149x149_S_d0_1 : S149x149.ReducesTo [0, 1] S_
  bcast_S_S149 : S_.BroadcastsInDim S149 (![] : Fin 0 → Fin S149.rank)
  reducesTo_S149_S_d0 : S149.ReducesTo [0] S_
  bcast_S_S149x298 : S_.BroadcastsInDim S149x298 (![] : Fin 0 → Fin S149x298.rank)
  reducesTo_S149x298_S_d0_1 : S149x298.ReducesTo [0, 1] S_
  bcast_S_S298 : S_.BroadcastsInDim S298 (![] : Fin 0 → Fin S298.rank)
  reducesTo_S298_S_d0 : S298.ReducesTo [0] S_
  bcast_S_S596x596 : S_.BroadcastsInDim S596x596 (![] : Fin 0 → Fin S596x596.rank)
  reducesTo_S596x596_S_d0_1 : S596x596.ReducesTo [0, 1] S_
  bcast_S_S596 : S_.BroadcastsInDim S596 (![] : Fin 0 → Fin S596.rank)
  reducesTo_S596_S_d0 : S596.ReducesTo [0] S_
  bcast_S_S596x1024 : S_.BroadcastsInDim S596x1024 (![] : Fin 0 → Fin S596x1024.rank)
  reducesTo_S596x1024_S_d0_1 : S596x1024.ReducesTo [0, 1] S_
  bcast_S_S1024 : S_.BroadcastsInDim S1024 (![] : Fin 0 → Fin S1024.rank)
  reducesTo_S1024_S_d0 : S1024.ReducesTo [0] S_
  bcast_S_S1024x486 : S_.BroadcastsInDim S1024x486 (![] : Fin 0 → Fin S1024x486.rank)
  reducesTo_S1024x486_S_d0_1 : S1024x486.ReducesTo [0, 1] S_
  bcast_S_S486 : S_.BroadcastsInDim S486 (![] : Fin 0 → Fin S486.rank)
  reducesTo_S486_S_d0 : S486.ReducesTo [0] S_

variable [Facts]

def fn_part6 {F : FTy → Type} [FloatOps F] (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  main_v103

def fn_part5 {F : FTy → Type} [FloatOps F] (main_arg21 : FVec F S486 .f32) (main_arg22 : FVec F S1024 .f32) (main_arg23 : FVec F S1024 .f32) (main_v83 : IVec S_ 1) (main_v84 : FVec F S1024x486 .f32) (main_cst_32 : FVec F S_ .f32) : IVec S_ 1 :=
  let main_v85 : FVec F S1024x486 .f32 := broadcastInDim S1024x486 ![] bcast_S_S1024x486 main_cst_32
  let main_v86 : IVec S1024x486 1 := cmpf .olt main_v84 main_v85
  let main_c_33 : IVec S_ 1 := constantI S_ 1 1#1
  let main_v87 : IVec S_ 1 := (fun x v => Host.reduce IntOp.andi x v reducesTo_S1024x486_S_d0_1 h_S_) main_v86 main_c_33
  let main_v88 : IVec S_ 1 := andi main_v83 main_v87
  let main_v89 : FVec F S486 .f32 := Host.absf main_arg21
  let main_cst_34 : FVec F S_ .f32 := constant S_ .f32 0x7F800000#32
  let main_v90 : FVec F S486 .f32 := broadcastInDim S486 ![] bcast_S_S486 main_cst_34
  let main_v91 : IVec S486 1 := cmpf .olt main_v89 main_v90
  let main_c_35 : IVec S_ 1 := constantI S_ 1 1#1
  let main_v92 : IVec S_ 1 := (fun x v => Host.reduce IntOp.andi x v reducesTo_S486_S_d0 h_S_) main_v91 main_c_35
  let main_v93 : IVec S_ 1 := andi main_v88 main_v92
  let main_v94 : FVec F S1024 .f32 := Host.absf main_arg22
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S1024 .f32 := Host.absf main_arg23
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_v98 main_v101 main_c_39

def fn_part4 {F : FTy → Type} [FloatOps F] (main_arg17 : FVec F S596 .f32) (main_arg18 : FVec F S596x1024 .f32) (main_arg19 : FVec F S1024 .f32) (main_arg20 : FVec F S1024x486 .f32) (main_arg21 : FVec F S486 .f32) (main_arg22 : FVec F S1024 .f32) (main_arg23 : FVec F S1024 .f32) (main_v63 : IVec S_ 1) (main_v67 : IVec S_ 1) : IVec S_ 1 :=
  let main_v68 : IVec S_ 1 := andi main_v63 main_v67
  let main_v69 : FVec F S596 .f32 := Host.absf main_arg17
  let main_cst_26 : FVec F S_ .f32 := constant S_ .f32 0x7F800000#32
  let main_v70 : FVec F S596 .f32 := broadcastInDim S596 ![] bcast_S_S596 main_cst_26
  let main_v71 : IVec S596 1 := cmpf .olt main_v69 main_v70
  let main_c_27 : IVec S_ 1 := constantI S_ 1 1#1
  let main_v72 : IVec S_ 1 := (fun x v => Host.reduce IntOp.andi x v reducesTo_S596_S_d0 h_S_) main_v71 main_c_27
  let main_v73 : IVec S_ 1 := andi main_v68 main_v72
  let main_v74 : FVec F S596x1024 .f32 := Host.absf main_arg18
  let main_cst_28 : FVec F S_ .f32 := constant S_ .f32 0x7F800000#32
  let main_v75 : FVec F S596x1024 .f32 := broadcastInDim S596x1024 ![] bcast_S_S596x1024 main_cst_28
  let main_v76 : IVec S596x1024 1 := cmpf .olt main_v74 main_v75
  let main_c_29 : IVec S_ 1 := constantI S_ 1 1#1
  let main_v77 : IVec S_ 1 := (fun x v => Host.reduce IntOp.andi x v reducesTo_S596x1024_S_d0_1 h_S_) main_v76 main_c_29
  let main_v78 : IVec S_ 1 := andi main_v73 main_v77
  let main_v79 : FVec F S1024 .f32 := Host.absf main_arg19
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x486 .f32 := Host.absf main_arg20
  let main_cst_32 : FVec F S_ .f32 := constant S_ .f32 0x7F800000#32
  fn_part5 (F := F) main_arg21 main_arg22 main_arg23 main_v83 main_v84 main_cst_32

def fn_part3 {F : FTy → Type} [FloatOps F] (main_arg14 : FVec F S149x298 .f32) (main_arg15 : FVec F S298 .f32) (main_arg16 : FVec F S596x596 .f32) (main_arg17 : FVec F S596 .f32) (main_arg18 : FVec F S596x1024 .f32) (main_arg19 : FVec F S1024 .f32) (main_arg20 : FVec F S1024x486 .f32) (main_arg21 : FVec F S486 .f32) (main_arg22 : FVec F S1024 .f32) (main_arg23 : FVec F S1024 .f32) (main_v48 : IVec S_ 1) (main_v49 : FVec F S149 .f32) (main_v50 : FVec F S149 .f32) : IVec S_ 1 :=
  let main_v51 : IVec S149 1 := cmpf .olt main_v49 main_v50
  let main_c_19 : IVec S_ 1 := constantI S_ 1 1#1
  let main_v52 : IVec S_ 1 := (fun x v => Host.reduce IntOp.andi x v reducesTo_S149_S_d0 h_S_) main_v51 main_c_19
  let main_v53 : IVec S_ 1 := andi main_v48 main_v52
  let main_v54 : FVec F S149x298 .f32 := Host.absf main_arg14
  let main_cst_20 : FVec F S_ .f32 := constant S_ .f32 0x7F800000#32
  let main_v55 : FVec F S149x298 .f32 := broadcastInDim S149x298 ![] bcast_S_S149x298 main_cst_20
  let main_v56 : IVec S149x298 1 := cmpf .olt main_v54 main_v55
  let main_c_21 : IVec S_ 1 := constantI S_ 1 1#1
  let main_v57 : IVec S_ 1 := (fun x v => Host.reduce IntOp.andi x v reducesTo_S149x298_S_d0_1 h_S_) main_v56 main_c_21
  let main_v58 : IVec S_ 1 := andi main_v53 main_v57
  let main_v59 : FVec F S298 .f32 := Host.absf main_arg15
  let main_cst_22 : FVec F S_ .f32 := constant S_ .f32 0x7F800000#32
  let main_v60 : FVec F S298 .f32 := broadcastInDim S298 ![] bcast_S_S298 main_cst_22
  let main_v61 : IVec S298 1 := cmpf .olt main_v59 main_v60
  let main_c_23 : IVec S_ 1 := constantI S_ 1 1#1
  let main_v62 : IVec S_ 1 := (fun x v => Host.reduce IntOp.andi x v reducesTo_S298_S_d0 h_S_) main_v61 main_c_23
  let main_v63 : IVec S_ 1 := andi main_v58 main_v62
  let main_v64 : FVec F S596x596 .f32 := Host.absf main_arg16
  let main_cst_24 : FVec F S_ .f32 := constant S_ .f32 0x7F800000#32
  let main_v65 : FVec F S596x596 .f32 := broadcastInDim S596x596 ![] bcast_S_S596x596 main_cst_24
  let main_v66 : IVec S596x596 1 := cmpf .olt main_v64 main_v65
  let main_c_25 : IVec S_ 1 := constantI S_ 1 1#1
  let main_v67 : IVec S_ 1 := (fun x v => Host.reduce IntOp.andi x v reducesTo_S596x596_S_d0_1 h_S_) main_v66 main_c_25
  fn_part4 (F := F) main_arg17 main_arg18 main_arg19 main_arg20 main_arg21 main_arg22 main_arg23 main_v63 main_v67

def fn_part2 {F : FTy → Type} [FloatOps F] (main_arg10 : FVec F S149x298 .f32) (main_arg11 : FVec F S298 .f32) (main_arg12 : FVec F S149x149 .f32) (main_arg13 : FVec F S149 .f32) (main_arg14 : FVec F S149x298 .f32) (main_arg15 : FVec F S298 .f32) (main_arg16 : FVec F S596x596 .f32) (main_arg17 : FVec F S596 .f32) (main_arg18 : FVec F S596x1024 .f32) (main_arg19 : FVec F S1024 .f32) (main_arg20 : FVec F S1024x486 .f32) (main_arg21 : FVec F S486 .f32) (main_arg22 : FVec F S1024 .f32) (main_arg23 : FVec F S1024 .f32) (main_v33 : IVec S_ 1) : IVec S_ 1 :=
  let main_v34 : FVec F S149x298 .f32 := Host.absf main_arg10
  let main_cst_12 : FVec F S_ .f32 := constant S_ .f32 0x7F800000#32
  let main_v35 : FVec F S149x298 .f32 := broadcastInDim S149x298 ![] bcast_S_S149x298 main_cst_12
  let main_v36 : IVec S149x298 1 := cmpf .olt main_v34 main_v35
  let main_c_13 : IVec S_ 1 := constantI S_ 1 1#1
  let main_v37 : IVec S_ 1 := (fun x v => Host.reduce IntOp.andi x v reducesTo_S149x298_S_d0_1 h_S_) main_v36 main_c_13
  let main_v38 : IVec S_ 1 := andi main_v33 main_v37
  let main_v39 : FVec F S298 .f32 := Host.absf main_arg11
  let main_cst_14 : FVec F S_ .f32 := constant S_ .f32 0x7F800000#32
  let main_v40 : FVec F S298 .f32 := broadcastInDim S298 ![] bcast_S_S298 main_cst_14
  let main_v41 : IVec S298 1 := cmpf .olt main_v39 main_v40
  let main_c_15 : IVec S_ 1 := constantI S_ 1 1#1
  let main_v42 : IVec S_ 1 := (fun x v => Host.reduce IntOp.andi x v reducesTo_S298_S_d0 h_S_) main_v41 main_c_15
  let main_v43 : IVec S_ 1 := andi main_v38 main_v42
  let main_v44 : FVec F S149x149 .f32 := Host.absf main_arg12
  let main_cst_16 : FVec F S_ .f32 := constant S_ .f32 0x7F800000#32
  let main_v45 : FVec F S149x149 .f32 := broadcastInDim S149x149 ![] bcast_S_S149x149 main_cst_16
  let main_v46 : IVec S149x149 1 := cmpf .olt main_v44 main_v45
  let main_c_17 : IVec S_ 1 := constantI S_ 1 1#1
  let main_v47 : IVec S_ 1 := (fun x v => Host.reduce IntOp.andi x v reducesTo_S149x149_S_d0_1 h_S_) main_v46 main_c_17
  let main_v48 : IVec S_ 1 := andi main_v43 main_v47
  let main_v49 : FVec F S149 .f32 := Host.absf main_arg13
  let main_cst_18 : FVec F S_ .f32 := constant S_ .f32 0x7F800000#32
  let main_v50 : FVec F S149 .f32 := broadcastInDim S149 ![] bcast_S_S149 main_cst_18
  fn_part3 (F := F) main_arg14 main_arg15 main_arg16 main_arg17 main_arg18 main_arg19 main_arg20 main_arg21 main_arg22 main_arg23 main_v48 main_v49 main_v50

def fn_part1 {F : FTy → Type} [FloatOps F] (main_arg7 : FVec F S21 .f32) (main_arg8 : FVec F S149x149 .f32) (main_arg9 : FVec F S149 .f32) (main_arg10 : FVec F S149x298 .f32) (main_arg11 : FVec F S298 .f32) (main_arg12 : FVec F S149x149 .f32) (main_arg13 : FVec F S149 .f32) (main_arg14 : FVec F S149x298 .f32) (main_arg15 : FVec F S298 .f32) (main_arg16 : FVec F S596x596 .f32) (main_arg17 : FVec F S596 .f32) (main_arg18 : FVec F S596x1024 .f32) (main_arg19 : FVec F S1024 .f32) (main_arg20 : FVec F S1024x486 .f32) (main_arg21 : FVec F S486 .f32) (main_arg22 : FVec F S1024 .f32) (main_arg23 : FVec F S1024 .f32) (main_v13 : IVec S_ 1) (main_v16 : IVec S21x21 1) : IVec S_ 1 :=
  let main_c_5 : IVec S_ 1 := constantI S_ 1 1#1
  let main_v17 : IVec S_ 1 := (fun x v => Host.reduce IntOp.andi x v reducesTo_S21x21_S_d0_1 h_S_) main_v16 main_c_5
  let main_v18 : IVec S_ 1 := andi main_v13 main_v17
  let main_v19 : FVec F S21 .f32 := Host.absf main_arg7
  let main_cst_6 : FVec F S_ .f32 := constant S_ .f32 0x7F800000#32
  let main_v20 : FVec F S21 .f32 := broadcastInDim S21 ![] bcast_S_S21 main_cst_6
  let main_v21 : IVec S21 1 := cmpf .olt main_v19 main_v20
  let main_c_7 : IVec S_ 1 := constantI S_ 1 1#1
  let main_v22 : IVec S_ 1 := (fun x v => Host.reduce IntOp.andi x v reducesTo_S21_S_d0 h_S_) main_v21 main_c_7
  let main_v23 : IVec S_ 1 := andi main_v18 main_v22
  let main_v24 : FVec F S149x149 .f32 := Host.absf main_arg8
  let main_cst_8 : FVec F S_ .f32 := constant S_ .f32 0x7F800000#32
  let main_v25 : FVec F S149x149 .f32 := broadcastInDim S149x149 ![] bcast_S_S149x149 main_cst_8
  let main_v26 : IVec S149x149 1 := cmpf .olt main_v24 main_v25
  let main_c_9 : IVec S_ 1 := constantI S_ 1 1#1
  let main_v27 : IVec S_ 1 := (fun x v => Host.reduce IntOp.andi x v reducesTo_S149x149_S_d0_1 h_S_) main_v26 main_c_9
  let main_v28 : IVec S_ 1 := andi main_v23 main_v27
  let main_v29 : FVec F S149 .f32 := Host.absf main_arg9
  let main_cst_10 : FVec F S_ .f32 := constant S_ .f32 0x7F800000#32
  let main_v30 : FVec F S149 .f32 := broadcastInDim S149 ![] bcast_S_S149 main_cst_10
  let main_v31 : IVec S149 1 := cmpf .olt main_v29 main_v30
  let main_c_11 : IVec S_ 1 := constantI S_ 1 1#1
  let main_v32 : IVec S_ 1 := (fun x v => Host.reduce IntOp.andi x v reducesTo_S149_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_v33

def fn {F : FTy → Type} [FloatOps F] (main_arg0 : FVec F S30000x6485 .f32) (main_arg1 : IVec S2x300000 32) (main_arg2 : IVec S2x300000 32) (main_arg3 : IVec S30000 32) (main_arg4 : FVec F S6464x128 .f32) (main_arg5 : FVec F S128 .f32) (main_arg6 : FVec F S21x21 .f32) (main_arg7 : FVec F S21 .f32) (main_arg8 : FVec F S149x149 .f32) (main_arg9 : FVec F S149 .f32) (main_arg10 : FVec F S149x298 .f32) (main_arg11 : FVec F S298 .f32) (main_arg12 : FVec F S149x149 .f32) (main_arg13 : FVec F S149 .f32) (main_arg14 : FVec F S149x298 .f32) (main_arg15 : FVec F S298 .f32) (main_arg16 : FVec F S596x596 .f32) (main_arg17 : FVec F S596 .f32) (main_arg18 : FVec F S596x1024 .f32) (main_arg19 : FVec F S1024 .f32) (main_arg20 : FVec F S1024x486 .f32) (main_arg21 : FVec F S486 .f32) (main_arg22 : FVec F S1024 .f32) (main_arg23 : FVec F S1024 .f32) : IVec S_ 1 :=
  let main_v0 : FVec F S30000x6485 .f32 := Host.absf main_arg0
  let main_cst : FVec F S_ .f32 := constant S_ .f32 0x7F800000#32
  let main_v1 : FVec F S30000x6485 .f32 := broadcastInDim S30000x6485 ![] bcast_S_S30000x6485 main_cst
  let main_v2 : IVec S30000x6485 1 := cmpf .olt main_v0 main_v1
  let main_c : IVec S_ 1 := constantI S_ 1 1#1
  let main_v3 : IVec S_ 1 := (fun x v => Host.reduce IntOp.andi x v reducesTo_S30000x6485_S_d0_1 h_S_) main_v2 main_c
  let main_v4 : FVec F S6464x128 .f32 := Host.absf main_arg4
  let main_cst_0 : FVec F S_ .f32 := constant S_ .f32 0x7F800000#32
  let main_v5 : FVec F S6464x128 .f32 := broadcastInDim S6464x128 ![] bcast_S_S6464x128 main_cst_0
  let main_v6 : IVec S6464x128 1 := cmpf .olt main_v4 main_v5
  let main_c_1 : IVec S_ 1 := constantI S_ 1 1#1
  let main_v7 : IVec S_ 1 := (fun x v => Host.reduce IntOp.andi x v reducesTo_S6464x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S21x21 .f32 := Host.absf main_arg6
  let main_cst_4 : FVec F S_ .f32 := constant S_ .f32 0x7F800000#32
  let main_v15 : FVec F S21x21 .f32 := broadcastInDim S21x21 ![] bcast_S_S21x21 main_cst_4
  let main_v16 : IVec S21x21 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S30000x6485 : Shape := ⟨2, ![30000, 6485]⟩
abbrev S2x300000 : Shape := ⟨2, ![2, 300000]⟩
abbrev S30000 : Shape := ⟨1, ![30000]⟩
abbrev S6464x128 : Shape := ⟨2, ![6464, 128]⟩
abbrev S128 : Shape := ⟨1, ![128]⟩
abbrev S21x21 : Shape := ⟨2, ![21, 21]⟩
abbrev S21 : Shape := ⟨1, ![21]⟩
abbrev S149x149 : Shape := ⟨2, ![149, 149]⟩
abbrev S149 : Shape := ⟨1, ![149]⟩
abbrev S149x298 : Shape := ⟨2, ![149, 298]⟩
abbrev S298 : Shape := ⟨1, ![298]⟩
abbrev S596x596 : Shape := ⟨2, ![596, 596]⟩
abbrev S596 : Shape := ⟨1, ![596]⟩
abbrev S596x1024 : Shape := ⟨2, ![596, 1024]⟩
abbrev S1024 : Shape := ⟨1, ![1024]⟩
abbrev S1024x486 : Shape := ⟨2, ![1024, 486]⟩
abbrev S486 : Shape := ⟨1, ![486]⟩
abbrev S1x128 : Shape := ⟨2, ![1, 128]⟩
abbrev S1x21 : Shape := ⟨2, ![1, 21]⟩
abbrev S30000x149 : Shape := ⟨2, ![30000, 149]⟩
abbrev S200x6485 : Shape := ⟨2, ![200, 6485]⟩
abbrev S200x149 : Shape := ⟨2, ![200, 149]⟩
abbrev S200x6464 : Shape := ⟨2, ![200, 6464]⟩
abbrev S200x21 : Shape := ⟨2, ![200, 21]⟩
abbrev S200x128 : Shape := ⟨2, ![200, 128]⟩
abbrev S1x300000 : Shape := ⟨2, ![1, 300000]⟩
abbrev S300000 : Shape := ⟨1, ![300000]⟩
abbrev S1200x149 : Shape := ⟨2, ![1200, 149]⟩
abbrev S_ : Shape := ⟨0, ![]⟩
abbrev S300000x1 : Shape := ⟨2, ![300000, 1]⟩
abbrev S300000x149 : Shape := ⟨2, ![300000, 149]⟩
abbrev S30000x1 : Shape := ⟨2, ![30000, 1]⟩
abbrev S1x149 : Shape := ⟨2, ![1, 149]⟩
abbrev S30000x298 : Shape := ⟨2, ![30000, 298]⟩
abbrev S1200x298 : Shape := ⟨2, ![1200, 298]⟩
abbrev S300000x298 : Shape := ⟨2, ![300000, 298]⟩
abbrev S1x298 : Shape := ⟨2, ![1, 298]⟩
abbrev S30000x596 : Shape := ⟨2, ![30000, 596]⟩
abbrev S1200x596 : Shape := ⟨2, ![1200, 596]⟩
abbrev S300000x596 : Shape := ⟨2, ![300000, 596]⟩
abbrev S1x596 : Shape := ⟨2, ![1, 596]⟩
abbrev S32 : Shape := ⟨1, ![32]⟩
abbrev S32x596 : Shape := ⟨2, ![32, 596]⟩
abbrev S32x1 : Shape := ⟨2, ![32, 1]⟩
abbrev S32x1024 : Shape := ⟨2, ![32, 1024]⟩
abbrev S1x1024 : Shape := ⟨2, ![1, 1024]⟩
abbrev S32x486 : Shape := ⟨2, ![32, 486]⟩
abbrev S1x486 : Shape := ⟨2, ![1, 486]⟩

abbrev nBuf : Space → Nat
  | .hbm => 398
  | .vmem => 33
  | .smem => 0
  | _ => 0

abbrev hbmTy0_0 (i : Nat) : BufTy := match i % 128 with
  | 0 => ⟨S30000x6485, .f32⟩
  | 1 => ⟨S2x300000, .i32⟩
  | 2 => ⟨S2x300000, .i32⟩
  | 3 => ⟨S30000, .i32⟩
  | 4 => ⟨S6464x128, .f32⟩
  | 5 => ⟨S128, .f32⟩
  | 6 => ⟨S21x21, .f32⟩
  | 7 => ⟨S21, .f32⟩
  | 8 => ⟨S149x149, .f32⟩
  | 9 => ⟨S149, .f32⟩
  | 10 => ⟨S149x298, .f32⟩
  | 11 => ⟨S298, .f32⟩
  | 12 => ⟨S149x149, .f32⟩
  | 13 => ⟨S149, .f32⟩
  | 14 => ⟨S149x298, .f32⟩
  | 15 => ⟨S298, .f32⟩
  | 16 => ⟨S596x596, .f32⟩
  | 17 => ⟨S596, .f32⟩
  | 18 => ⟨S596x1024, .f32⟩
  | 19 => ⟨S1024, .f32⟩
  | 20 => ⟨S1024x486, .f32⟩
  | 21 => ⟨S486, .f32⟩
  | 22 => ⟨S1024, .f32⟩
  | 23 => ⟨S1024, .f32⟩
  | 24 => ⟨S1x128, .f32⟩
  | 25 => ⟨S1x21, .f32⟩
  | 26 => ⟨S30000x149, .f32⟩
  | 27 => ⟨S1x300000, .i32⟩
  | 28 => ⟨S300000, .i32⟩
  | 29 => ⟨S1x300000, .i32⟩
  | 30 => ⟨S300000, .i32⟩
  | 31 => ⟨S30000x149, .f32⟩
  | 32 => ⟨S_, .f32⟩
  | 33 => ⟨S300000, .f32⟩
  | 34 => ⟨S_, .f32⟩
  | 35 => ⟨S30000, .f32⟩
  | 36 => ⟨S300000x1, .i32⟩
  | 37 => ⟨S30000, .f32⟩
  | 38 => ⟨S_, .f32⟩
  | 39 => ⟨S30000, .f32⟩
  | 40 => ⟨S30000, .f32⟩
  | 41 => ⟨S30000, .f32⟩
  | 42 => ⟨S_, .i32⟩
  | 43 => ⟨S300000, .i32⟩
  | 44 => ⟨S300000, .i1⟩
  | 45 => ⟨S_, .i32⟩
  | 46 => ⟨S300000, .i32⟩
  | 47 => ⟨S300000, .i32⟩
  | 48 => ⟨S300000, .i32⟩
  | 49 => ⟨S300000x1, .i32⟩
  | 50 => ⟨S300000, .f32⟩
  | 51 => ⟨S_, .i32⟩
  | 52 => ⟨S300000, .i32⟩
  | 53 => ⟨S300000, .i1⟩
  | 54 => ⟨S_, .i32⟩
  | 55 => ⟨S300000, .i32⟩
  | 56 => ⟨S300000, .i32⟩
  | 57 => ⟨S300000, .i32⟩
  | 58 => ⟨S300000x1, .i32⟩
  | 59 => ⟨S300000, .f32⟩
  | 60 => ⟨S300000, .f32⟩
  | 61 => ⟨S_, .i32⟩
  | 62 => ⟨S300000, .i32⟩
  | 63 => ⟨S300000, .i1⟩
  | 64 => ⟨S_, .i32⟩
  | 65 => ⟨S300000, .i32⟩
  | 66 => ⟨S300000, .i32⟩
  | 67 => ⟨S300000, .i32⟩
  | 68 => ⟨S300000x1, .i32⟩
  | 69 => ⟨S300000x149, .f32⟩
  | 70 => ⟨S300000x1, .f32⟩
  | 71 => ⟨S300000x149, .f32⟩
  | 72 => ⟨S300000x149, .f32⟩
  | 73 => ⟨S_, .f32⟩
  | 74 => ⟨S30000x149, .f32⟩
  | 75 => ⟨S300000x1, .i32⟩
  | 76 => ⟨S30000x149, .f32⟩
  | 77 => ⟨S30000, .f32⟩
  | 78 => ⟨S30000x1, .f32⟩
  | 79 => ⟨S30000x149, .f32⟩
  | 80 => ⟨S30000x149, .f32⟩
  | 81 => ⟨S30000x149, .f32⟩
  | 82 => ⟨S1x149, .f32⟩
  | 83 => ⟨S30000x149, .f32⟩
  | 84 => ⟨S30000x149, .f32⟩
  | 85 => ⟨S_, .f32⟩
  | 86 => ⟨S30000x149, .f32⟩
  | 87 => ⟨S30000x149, .f32⟩
  | 88 => ⟨S1x300000, .i32⟩
  | 89 => ⟨S300000, .i32⟩
  | 90 => ⟨S1x300000, .i32⟩
  | 91 => ⟨S300000, .i32⟩
  | 92 => ⟨S30000x298, .f32⟩
  | 93 => ⟨S_, .f32⟩
  | 94 => ⟨S300000, .f32⟩
  | 95 => ⟨S_, .f32⟩
  | 96 => ⟨S30000, .f32⟩
  | 97 => ⟨S300000x1, .i32⟩
  | 98 => ⟨S30000, .f32⟩
  | 99 => ⟨S_, .f32⟩
  | 100 => ⟨S30000, .f32⟩
  | 101 => ⟨S30000, .f32⟩
  | 102 => ⟨S30000, .f32⟩
  | 103 => ⟨S_, .i32⟩
  | 104 => ⟨S300000, .i32⟩
  | 105 => ⟨S300000, .i1⟩
  | 106 => ⟨S_, .i32⟩
  | 107 => ⟨S300000, .i32⟩
  | 108 => ⟨S300000, .i32⟩
  | 109 => ⟨S300000, .i32⟩
  | 110 => ⟨S300000x1, .i32⟩
  | 111 => ⟨S300000, .f32⟩
  | 112 => ⟨S_, .i32⟩
  | 113 => ⟨S300000, .i32⟩
  | 114 => ⟨S300000, .i1⟩
  | 115 => ⟨S_, .i32⟩
  | 116 => ⟨S300000, .i32⟩
  | 117 => ⟨S300000, .i32⟩
  | 118 => ⟨S300000, .i32⟩
  | 119 => ⟨S300000x1, .i32⟩
  | 120 => ⟨S300000, .f32⟩
  | 121 => ⟨S300000, .f32⟩
  | 122 => ⟨S_, .i32⟩
  | 123 => ⟨S300000, .i32⟩
  | 124 => ⟨S300000, .i1⟩
  | 125 => ⟨S_, .i32⟩
  | 126 => ⟨S300000, .i32⟩
  | 127 => ⟨S300000, .i32⟩
  | _ => ⟨S30000x6485, .f32⟩

abbrev hbmTy0_1 (i : Nat) : BufTy := match i % 128 with
  | 0 => ⟨S300000, .i32⟩
  | 1 => ⟨S300000x1, .i32⟩
  | 2 => ⟨S300000x298, .f32⟩
  | 3 => ⟨S300000x1, .f32⟩
  | 4 => ⟨S300000x298, .f32⟩
  | 5 => ⟨S300000x298, .f32⟩
  | 6 => ⟨S_, .f32⟩
  | 7 => ⟨S30000x298, .f32⟩
  | 8 => ⟨S300000x1, .i32⟩
  | 9 => ⟨S30000x298, .f32⟩
  | 10 => ⟨S30000, .f32⟩
  | 11 => ⟨S30000x1, .f32⟩
  | 12 => ⟨S30000x298, .f32⟩
  | 13 => ⟨S30000x298, .f32⟩
  | 14 => ⟨S30000x298, .f32⟩
  | 15 => ⟨S1x298, .f32⟩
  | 16 => ⟨S30000x298, .f32⟩
  | 17 => ⟨S30000x298, .f32⟩
  | 18 => ⟨S_, .f32⟩
  | 19 => ⟨S30000x298, .f32⟩
  | 20 => ⟨S30000x298, .f32⟩
  | 21 => ⟨S1x300000, .i32⟩
  | 22 => ⟨S300000, .i32⟩
  | 23 => ⟨S1x300000, .i32⟩
  | 24 => ⟨S300000, .i32⟩
  | 25 => ⟨S30000x149, .f32⟩
  | 26 => ⟨S_, .f32⟩
  | 27 => ⟨S300000, .f32⟩
  | 28 => ⟨S_, .f32⟩
  | 29 => ⟨S30000, .f32⟩
  | 30 => ⟨S300000x1, .i32⟩
  | 31 => ⟨S30000, .f32⟩
  | 32 => ⟨S_, .f32⟩
  | 33 => ⟨S30000, .f32⟩
  | 34 => ⟨S30000, .f32⟩
  | 35 => ⟨S30000, .f32⟩
  | 36 => ⟨S_, .i32⟩
  | 37 => ⟨S300000, .i32⟩
  | 38 => ⟨S300000, .i1⟩
  | 39 => ⟨S_, .i32⟩
  | 40 => ⟨S300000, .i32⟩
  | 41 => ⟨S300000, .i32⟩
  | 42 => ⟨S300000, .i32⟩
  | 43 => ⟨S300000x1, .i32⟩
  | 44 => ⟨S300000, .f32⟩
  | 45 => ⟨S_, .i32⟩
  | 46 => ⟨S300000, .i32⟩
  | 47 => ⟨S300000, .i1⟩
  | 48 => ⟨S_, .i32⟩
  | 49 => ⟨S300000, .i32⟩
  | 50 => ⟨S300000, .i32⟩
  | 51 => ⟨S300000, .i32⟩
  | 52 => ⟨S300000x1, .i32⟩
  | 53 => ⟨S300000, .f32⟩
  | 54 => ⟨S300000, .f32⟩
  | 55 => ⟨S_, .i32⟩
  | 56 => ⟨S300000, .i32⟩
  | 57 => ⟨S300000, .i1⟩
  | 58 => ⟨S_, .i32⟩
  | 59 => ⟨S300000, .i32⟩
  | 60 => ⟨S300000, .i32⟩
  | 61 => ⟨S300000, .i32⟩
  | 62 => ⟨S300000x1, .i32⟩
  | 63 => ⟨S300000x149, .f32⟩
  | 64 => ⟨S300000x1, .f32⟩
  | 65 => ⟨S300000x149, .f32⟩
  | 66 => ⟨S300000x149, .f32⟩
  | 67 => ⟨S_, .f32⟩
  | 68 => ⟨S30000x149, .f32⟩
  | 69 => ⟨S300000x1, .i32⟩
  | 70 => ⟨S30000x149, .f32⟩
  | 71 => ⟨S30000, .f32⟩
  | 72 => ⟨S30000x1, .f32⟩
  | 73 => ⟨S30000x149, .f32⟩
  | 74 => ⟨S30000x149, .f32⟩
  | 75 => ⟨S30000x149, .f32⟩
  | 76 => ⟨S1x149, .f32⟩
  | 77 => ⟨S30000x149, .f32⟩
  | 78 => ⟨S30000x149, .f32⟩
  | 79 => ⟨S_, .f32⟩
  | 80 => ⟨S30000x149, .f32⟩
  | 81 => ⟨S30000x149, .f32⟩
  | 82 => ⟨S1x300000, .i32⟩
  | 83 => ⟨S300000, .i32⟩
  | 84 => ⟨S1x300000, .i32⟩
  | 85 => ⟨S300000, .i32⟩
  | 86 => ⟨S30000x298, .f32⟩
  | 87 => ⟨S_, .f32⟩
  | 88 => ⟨S300000, .f32⟩
  | 89 => ⟨S_, .f32⟩
  | 90 => ⟨S30000, .f32⟩
  | 91 => ⟨S300000x1, .i32⟩
  | 92 => ⟨S30000, .f32⟩
  | 93 => ⟨S_, .f32⟩
  | 94 => ⟨S30000, .f32⟩
  | 95 => ⟨S30000, .f32⟩
  | 96 => ⟨S30000, .f32⟩
  | 97 => ⟨S_, .i32⟩
  | 98 => ⟨S300000, .i32⟩
  | 99 => ⟨S300000, .i1⟩
  | 100 => ⟨S_, .i32⟩
  | 101 => ⟨S300000, .i32⟩
  | 102 => ⟨S300000, .i32⟩
  | 103 => ⟨S300000, .i32⟩
  | 104 => ⟨S300000x1, .i32⟩
  | 105 => ⟨S300000, .f32⟩
  | 106 => ⟨S_, .i32⟩
  | 107 => ⟨S300000, .i32⟩
  | 108 => ⟨S300000, .i1⟩
  | 109 => ⟨S_, .i32⟩
  | 110 => ⟨S300000, .i32⟩
  | 111 => ⟨S300000, .i32⟩
  | 112 => ⟨S300000, .i32⟩
  | 113 => ⟨S300000x1, .i32⟩
  | 114 => ⟨S300000, .f32⟩
  | 115 => ⟨S300000, .f32⟩
  | 116 => ⟨S_, .i32⟩
  | 117 => ⟨S300000, .i32⟩
  | 118 => ⟨S300000, .i1⟩
  | 119 => ⟨S_, .i32⟩
  | 120 => ⟨S300000, .i32⟩
  | 121 => ⟨S300000, .i32⟩
  | 122 => ⟨S300000, .i32⟩
  | 123 => ⟨S300000x1, .i32⟩
  | 124 => ⟨S300000x298, .f32⟩
  | 125 => ⟨S300000x1, .f32⟩
  | 126 => ⟨S300000x298, .f32⟩
  | 127 => ⟨S300000x298, .f32⟩
  | _ => ⟨S30000x6485, .f32⟩

abbrev hbmTy0_2 (i : Nat) : BufTy := match i % 128 with
  | 0 => ⟨S_, .f32⟩
  | 1 => ⟨S30000x298, .f32⟩
  | 2 => ⟨S300000x1, .i32⟩
  | 3 => ⟨S30000x298, .f32⟩
  | 4 => ⟨S30000, .f32⟩
  | 5 => ⟨S30000x1, .f32⟩
  | 6 => ⟨S30000x298, .f32⟩
  | 7 => ⟨S30000x298, .f32⟩
  | 8 => ⟨S30000x298, .f32⟩
  | 9 => ⟨S1x298, .f32⟩
  | 10 => ⟨S30000x298, .f32⟩
  | 11 => ⟨S30000x298, .f32⟩
  | 12 => ⟨S_, .f32⟩
  | 13 => ⟨S30000x298, .f32⟩
  | 14 => ⟨S30000x298, .f32⟩
  | 15 => ⟨S30000x596, .f32⟩
  | 16 => ⟨S1x300000, .i32⟩
  | 17 => ⟨S300000, .i32⟩
  | 18 => ⟨S1x300000, .i32⟩
  | 19 => ⟨S300000, .i32⟩
  | 20 => ⟨S30000x596, .f32⟩
  | 21 => ⟨S_, .f32⟩
  | 22 => ⟨S300000, .f32⟩
  | 23 => ⟨S_, .f32⟩
  | 24 => ⟨S30000, .f32⟩
  | 25 => ⟨S300000x1, .i32⟩
  | 26 => ⟨S30000, .f32⟩
  | 27 => ⟨S_, .f32⟩
  | 28 => ⟨S30000, .f32⟩
  | 29 => ⟨S30000, .f32⟩
  | 30 => ⟨S30000, .f32⟩
  | 31 => ⟨S_, .i32⟩
  | 32 => ⟨S300000, .i32⟩
  | 33 => ⟨S300000, .i1⟩
  | 34 => ⟨S_, .i32⟩
  | 35 => ⟨S300000, .i32⟩
  | 36 => ⟨S300000, .i32⟩
  | 37 => ⟨S300000, .i32⟩
  | 38 => ⟨S300000x1, .i32⟩
  | 39 => ⟨S300000, .f32⟩
  | 40 => ⟨S_, .i32⟩
  | 41 => ⟨S300000, .i32⟩
  | 42 => ⟨S300000, .i1⟩
  | 43 => ⟨S_, .i32⟩
  | 44 => ⟨S300000, .i32⟩
  | 45 => ⟨S300000, .i32⟩
  | 46 => ⟨S300000, .i32⟩
  | 47 => ⟨S300000x1, .i32⟩
  | 48 => ⟨S300000, .f32⟩
  | 49 => ⟨S300000, .f32⟩
  | 50 => ⟨S_, .i32⟩
  | 51 => ⟨S300000, .i32⟩
  | 52 => ⟨S300000, .i1⟩
  | 53 => ⟨S_, .i32⟩
  | 54 => ⟨S300000, .i32⟩
  | 55 => ⟨S300000, .i32⟩
  | 56 => ⟨S300000, .i32⟩
  | 57 => ⟨S300000x1, .i32⟩
  | 58 => ⟨S300000x596, .f32⟩
  | 59 => ⟨S300000x1, .f32⟩
  | 60 => ⟨S300000x596, .f32⟩
  | 61 => ⟨S300000x596, .f32⟩
  | 62 => ⟨S_, .f32⟩
  | 63 => ⟨S30000x596, .f32⟩
  | 64 => ⟨S300000x1, .i32⟩
  | 65 => ⟨S30000x596, .f32⟩
  | 66 => ⟨S30000, .f32⟩
  | 67 => ⟨S30000x1, .f32⟩
  | 68 => ⟨S30000x596, .f32⟩
  | 69 => ⟨S30000x596, .f32⟩
  | 70 => ⟨S30000x596, .f32⟩
  | 71 => ⟨S1x596, .f32⟩
  | 72 => ⟨S30000x596, .f32⟩
  | 73 => ⟨S30000x596, .f32⟩
  | 74 => ⟨S_, .f32⟩
  | 75 => ⟨S30000x596, .f32⟩
  | 76 => ⟨S30000x596, .f32⟩
  | 77 => ⟨S_, .f32⟩
  | 78 => ⟨S30000, .f32⟩
  | 79 => ⟨S_, .f32⟩
  | 80 => ⟨S32, .f32⟩
  | 81 => ⟨S30000x1, .i32⟩
  | 82 => ⟨S32, .f32⟩
  | 83 => ⟨S_, .f32⟩
  | 84 => ⟨S32x596, .f32⟩
  | 85 => ⟨S30000x1, .i32⟩
  | 86 => ⟨S32x596, .f32⟩
  | 87 => ⟨S_, .f32⟩
  | 88 => ⟨S32, .f32⟩
  | 89 => ⟨S32, .f32⟩
  | 90 => ⟨S32x1, .f32⟩
  | 91 => ⟨S32x596, .f32⟩
  | 92 => ⟨S32x596, .f32⟩
  | 93 => ⟨S32x1024, .f32⟩
  | 94 => ⟨S1x1024, .f32⟩
  | 95 => ⟨S32x1024, .f32⟩
  | 96 => ⟨S32x1024, .f32⟩
  | 97 => ⟨S_, .f32⟩
  | 98 => ⟨S1024, .f32⟩
  | 99 => ⟨S_, .f32⟩
  | 100 => ⟨S1024, .f32⟩
  | 101 => ⟨S1024, .f32⟩
  | 102 => ⟨S1x1024, .f32⟩
  | 103 => ⟨S32x1024, .f32⟩
  | 104 => ⟨S32x1024, .f32⟩
  | 105 => ⟨S32x1024, .f32⟩
  | 106 => ⟨S_, .f32⟩
  | 107 => ⟨S1024, .f32⟩
  | 108 => ⟨S_, .f32⟩
  | 109 => ⟨S1024, .f32⟩
  | 110 => ⟨S1024, .f32⟩
  | 111 => ⟨S1x1024, .f32⟩
  | 112 => ⟨S32x1024, .f32⟩
  | 113 => ⟨S32x1024, .f32⟩
  | 114 => ⟨S_, .f32⟩
  | 115 => ⟨S1024, .f32⟩
  | 116 => ⟨S1024, .f32⟩
  | 117 => ⟨S1024, .f32⟩
  | 118 => ⟨S1x1024, .f32⟩
  | 119 => ⟨S32x1024, .f32⟩
  | 120 => ⟨S32x1024, .f32⟩
  | 121 => ⟨S1x1024, .f32⟩
  | 122 => ⟨S32x1024, .f32⟩
  | 123 => ⟨S32x1024, .f32⟩
  | 124 => ⟨S1x1024, .f32⟩
  | 125 => ⟨S32x1024, .f32⟩
  | 126 => ⟨S32x1024, .f32⟩
  | 127 => ⟨S_, .f32⟩
  | _ => ⟨S30000x6485, .f32⟩

abbrev hbmTy0_3 (i : Nat) : BufTy := match i % 128 with
  | 0 => ⟨S32x1024, .f32⟩
  | 1 => ⟨S32x1024, .f32⟩
  | 2 => ⟨S32x486, .f32⟩
  | 3 => ⟨S1x486, .f32⟩
  | 4 => ⟨S32x486, .f32⟩
  | 5 => ⟨S32x486, .f32⟩
  | 6 => ⟨S32x486, .f32⟩
  | 7 => ⟨S32x486, .f32⟩
  | 8 => ⟨S_, .f32⟩
  | 9 => ⟨S32x486, .f32⟩
  | 10 => ⟨S32x486, .f32⟩
  | 11 => ⟨S_, .f32⟩
  | 12 => ⟨S32x486, .f32⟩
  | 13 => ⟨S32x486, .f32⟩
  | _ => ⟨S30000x6485, .f32⟩

abbrev hbmTy (i : Nat) : BufTy := match i / 128 with
  | 0 => hbmTy0_0 i
  | 1 => hbmTy0_1 i
  | 2 => hbmTy0_2 i
  | 3 => hbmTy0_3 i
  | _ => ⟨S30000x6485, .f32⟩

abbrev bufTy : (tb : Table) → Fin (tcTables nBuf tb) → BufTy
  | .hbm, ⟨i, _⟩ => hbmTy i
  | .local _ .vmem, ⟨0, _⟩ => ⟨S200x6485, .f32⟩
  | .local _ .vmem, ⟨1, _⟩ => ⟨S200x6485, .f32⟩
  | .local _ .vmem, ⟨2, _⟩ => ⟨S6464x128, .f32⟩
  | .local _ .vmem, ⟨3, _⟩ => ⟨S1x128, .f32⟩
  | .local _ .vmem, ⟨4, _⟩ => ⟨S21x21, .f32⟩
  | .local _ .vmem, ⟨5, _⟩ => ⟨S1x21, .f32⟩
  | .local _ .vmem, ⟨6, _⟩ => ⟨S200x149, .f32⟩
  | .local _ .vmem, ⟨7, _⟩ => ⟨S200x149, .f32⟩
  | .local _ .vmem, ⟨8, _⟩ => ⟨S1200x149, .f32⟩
  | .local _ .vmem, ⟨9, _⟩ => ⟨S1200x149, .f32⟩
  | .local _ .vmem, ⟨10, _⟩ => ⟨S149x149, .f32⟩
  | .local _ .vmem, ⟨11, _⟩ => ⟨S1200x149, .f32⟩
  | .local _ .vmem, ⟨12, _⟩ => ⟨S1200x149, .f32⟩
  | .local _ .vmem, ⟨13, _⟩ => ⟨S1200x149, .f32⟩
  | .local _ .vmem, ⟨14, _⟩ => ⟨S1200x149, .f32⟩
  | .local _ .vmem, ⟨15, _⟩ => ⟨S149x298, .f32⟩
  | .local _ .vmem, ⟨16, _⟩ => ⟨S1200x298, .f32⟩
  | .local _ .vmem, ⟨17, _⟩ => ⟨S1200x298, .f32⟩
  | .local _ .vmem, ⟨18, _⟩ => ⟨S1200x149, .f32⟩
  | .local _ .vmem, ⟨19, _⟩ => ⟨S1200x149, .f32⟩
  | .local _ .vmem, ⟨20, _⟩ => ⟨S149x149, .f32⟩
  | .local _ .vmem, ⟨21, _⟩ => ⟨S1200x149, .f32⟩
  | .local _ .vmem, ⟨22, _⟩ => ⟨S1200x149, .f32⟩
  | .local _ .vmem, ⟨23, _⟩ => ⟨S1200x149, .f32⟩
  | .local _ .vmem, ⟨24, _⟩ => ⟨S1200x149, .f32⟩
  | .local _ .vmem, ⟨25, _⟩ => ⟨S149x298, .f32⟩
  | .local _ .vmem, ⟨26, _⟩ => ⟨S1200x298, .f32⟩
  | .local _ .vmem, ⟨27, _⟩ => ⟨S1200x298, .f32⟩
  | .local _ .vmem, ⟨28, _⟩ => ⟨S1200x596, .f32⟩
  | .local _ .vmem, ⟨29, _⟩ => ⟨S1200x596, .f32⟩
  | .local _ .vmem, ⟨30, _⟩ => ⟨S596x596, .f32⟩
  | .local _ .vmem, ⟨31, _⟩ => ⟨S1200x596, .f32⟩
  | .local _ .vmem, ⟨32, _⟩ => ⟨S1200x596, .f32⟩
  | _, _ => ⟨S30000x6485, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_cst_0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c : Ref sig .tc := ⟨.hbm, 42, rfl⟩
abbrev main_v15 : Ref sig .tc := ⟨.hbm, 43, rfl⟩
abbrev main_v16 : Ref sig .tc := ⟨.hbm, 44, rfl⟩
abbrev main_c_2 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_3 : Ref sig .tc := ⟨.hbm, 51, rfl⟩
abbrev main_v22 : Ref sig .tc := ⟨.hbm, 52, rfl⟩
abbrev main_v23 : Ref sig .tc := ⟨.hbm, 53, rfl⟩
abbrev main_c_4 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_5 : Ref sig .tc := ⟨.hbm, 61, rfl⟩
abbrev main_v30 : Ref sig .tc := ⟨.hbm, 62, rfl⟩
abbrev main_v31 : Ref sig .tc := ⟨.hbm, 63, rfl⟩
abbrev main_c_6 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_7 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_call0_cst : Ref sig .tc := ⟨.hbm, 85, rfl⟩
abbrev main_call0_v0 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_8 : Ref sig .tc := ⟨.hbm, 93, rfl⟩
abbrev main_v57 : Ref sig .tc := ⟨.hbm, 94, rfl⟩
abbrev main_cst_9 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_10 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_c_11 : Ref sig .tc := ⟨.hbm, 103, rfl⟩
abbrev main_v64 : Ref sig .tc := ⟨.hbm, 104, rfl⟩
abbrev main_v65 : Ref sig .tc := ⟨.hbm, 105, rfl⟩
abbrev main_c_12 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_c_13 : Ref sig .tc := ⟨.hbm, 112, rfl⟩
abbrev main_v71 : Ref sig .tc := ⟨.hbm, 113, rfl⟩
abbrev main_v72 : Ref sig .tc := ⟨.hbm, 114, rfl⟩
abbrev main_c_14 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_c_15 : Ref sig .tc := ⟨.hbm, 122, rfl⟩
abbrev main_v79 : Ref sig .tc := ⟨.hbm, 123, rfl⟩
abbrev main_v80 : Ref sig .tc := ⟨.hbm, 124, rfl⟩
abbrev main_c_16 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_17 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_call1_cst : Ref sig .tc := ⟨.hbm, 146, rfl⟩
abbrev main_call1_v0 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_18 : Ref sig .tc := ⟨.hbm, 154, rfl⟩
abbrev main_v106 : Ref sig .tc := ⟨.hbm, 155, rfl⟩
abbrev main_cst_19 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_20 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_c_21 : Ref sig .tc := ⟨.hbm, 164, rfl⟩
abbrev main_v113 : Ref sig .tc := ⟨.hbm, 165, rfl⟩
abbrev main_v114 : Ref sig .tc := ⟨.hbm, 166, rfl⟩
abbrev main_c_22 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_c_23 : Ref sig .tc := ⟨.hbm, 173, rfl⟩
abbrev main_v120 : Ref sig .tc := ⟨.hbm, 174, rfl⟩
abbrev main_v121 : Ref sig .tc := ⟨.hbm, 175, rfl⟩
abbrev main_c_24 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_c_25 : Ref sig .tc := ⟨.hbm, 183, rfl⟩
abbrev main_v128 : Ref sig .tc := ⟨.hbm, 184, rfl⟩
abbrev main_v129 : Ref sig .tc := ⟨.hbm, 185, rfl⟩
abbrev main_c_26 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_27 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_call2_cst : Ref sig .tc := ⟨.hbm, 207, rfl⟩
abbrev main_call2_v0 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_cst_28 : Ref sig .tc := ⟨.hbm, 215, rfl⟩
abbrev main_v155 : Ref sig .tc := ⟨.hbm, 216, rfl⟩
abbrev main_cst_29 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_cst_30 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_c_31 : Ref sig .tc := ⟨.hbm, 225, rfl⟩
abbrev main_v162 : Ref sig .tc := ⟨.hbm, 226, rfl⟩
abbrev main_v163 : Ref sig .tc := ⟨.hbm, 227, rfl⟩
abbrev main_c_32 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_c_33 : Ref sig .tc := ⟨.hbm, 234, rfl⟩
abbrev main_v169 : Ref sig .tc := ⟨.hbm, 235, rfl⟩
abbrev main_v170 : Ref sig .tc := ⟨.hbm, 236, rfl⟩
abbrev main_c_34 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_c_35 : Ref sig .tc := ⟨.hbm, 244, rfl⟩
abbrev main_v177 : Ref sig .tc := ⟨.hbm, 245, rfl⟩
abbrev main_v178 : Ref sig .tc := ⟨.hbm, 246, rfl⟩
abbrev main_c_36 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_cst_37 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_call3_cst : Ref sig .tc := ⟨.hbm, 268, rfl⟩
abbrev main_call3_v0 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_cst_38 : Ref sig .tc := ⟨.hbm, 277, rfl⟩
abbrev main_v205 : Ref sig .tc := ⟨.hbm, 278, rfl⟩
abbrev main_cst_39 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_cst_40 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_c_41 : Ref sig .tc := ⟨.hbm, 287, rfl⟩
abbrev main_v212 : Ref sig .tc := ⟨.hbm, 288, rfl⟩
abbrev main_v213 : Ref sig .tc := ⟨.hbm, 289, rfl⟩
abbrev main_c_42 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_c_43 : Ref sig .tc := ⟨.hbm, 296, rfl⟩
abbrev main_v219 : Ref sig .tc := ⟨.hbm, 297, rfl⟩
abbrev main_v220 : Ref sig .tc := ⟨.hbm, 298, rfl⟩
abbrev main_c_44 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_c_45 : Ref sig .tc := ⟨.hbm, 306, rfl⟩
abbrev main_v227 : Ref sig .tc := ⟨.hbm, 307, rfl⟩
abbrev main_v228 : Ref sig .tc := ⟨.hbm, 308, rfl⟩
abbrev main_c_46 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_cst_47 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_call4_cst : Ref sig .tc := ⟨.hbm, 330, rfl⟩
abbrev main_call4_v0 : Ref sig .tc := ⟨.hbm, 331, rfl⟩
abbrev main_v248 : Ref sig .tc := ⟨.hbm, 332, rfl⟩
abbrev main_cst_48 : Ref sig .tc := ⟨.hbm, 333, rfl⟩
abbrev main_v249 : Ref sig .tc := ⟨.hbm, 334, rfl⟩
abbrev main_cst_49 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_cst_50 : Ref sig .tc := ⟨.hbm, 339, rfl⟩
abbrev main_v253 : Ref sig .tc := ⟨.hbm, 340, rfl⟩
abbrev main_v254 : Ref sig .tc := ⟨.hbm, 341, rfl⟩
abbrev main_v255 : Ref sig .tc := ⟨.hbm, 342, rfl⟩
abbrev main_cst_51 : Ref sig .tc := ⟨.hbm, 343, rfl⟩
abbrev main_v256 : Ref sig .tc := ⟨.hbm, 344, rfl⟩
abbrev main_v257 : Ref sig .tc := ⟨.hbm, 345, rfl⟩
abbrev main_v258 : Ref sig .tc := ⟨.hbm, 346, rfl⟩
abbrev main_v259 : Ref sig .tc := ⟨.hbm, 347, rfl⟩
abbrev main_v260 : Ref sig .tc := ⟨.hbm, 348, rfl⟩
abbrev main_v261 : Ref sig .tc := ⟨.hbm, 349, rfl⟩
abbrev main_v262 : Ref sig .tc := ⟨.hbm, 350, rfl⟩
abbrev main_v263 : Ref sig .tc := ⟨.hbm, 351, rfl⟩
abbrev main_v264 : Ref sig .tc := ⟨.hbm, 352, rfl⟩
abbrev main_cst_52 : Ref sig .tc := ⟨.hbm, 353, rfl⟩
abbrev main_v265 : Ref sig .tc := ⟨.hbm, 354, rfl⟩
abbrev main_cst_53 : Ref sig .tc := ⟨.hbm, 355, rfl⟩
abbrev main_v266 : Ref sig .tc := ⟨.hbm, 356, rfl⟩
abbrev main_v267 : Ref sig .tc := ⟨.hbm, 357, rfl⟩
abbrev main_v268 : Ref sig .tc := ⟨.hbm, 358, rfl⟩
abbrev main_v269 : Ref sig .tc := ⟨.hbm, 359, rfl⟩
abbrev main_v270 : Ref sig .tc := ⟨.hbm, 360, rfl⟩
abbrev main_v271 : Ref sig .tc := ⟨.hbm, 361, rfl⟩
abbrev main_cst_54 : Ref sig .tc := ⟨.hbm, 362, rfl⟩
abbrev main_v272 : Ref sig .tc := ⟨.hbm, 363, rfl⟩
abbrev main_cst_55 : Ref sig .tc := ⟨.hbm, 364, rfl⟩
abbrev main_v273 : Ref sig .tc := ⟨.hbm, 365, rfl⟩
abbrev main_v274 : Ref sig .tc := ⟨.hbm, 366, rfl⟩
abbrev main_v275 : Ref sig .tc := ⟨.hbm, 367, rfl⟩
abbrev main_v276 : Ref sig .tc := ⟨.hbm, 368, rfl⟩
abbrev main_v277 : Ref sig .tc := ⟨.hbm, 369, rfl⟩
abbrev main_cst_56 : Ref sig .tc := ⟨.hbm, 370, rfl⟩
abbrev main_v278 : Ref sig .tc := ⟨.hbm, 371, rfl⟩
abbrev main_v279 : Ref sig .tc := ⟨.hbm, 372, rfl⟩
abbrev main_v280 : Ref sig .tc := ⟨.hbm, 373, rfl⟩
abbrev main_v281 : Ref sig .tc := ⟨.hbm, 374, rfl⟩
abbrev main_v282 : Ref sig .tc := ⟨.hbm, 375, rfl⟩
abbrev main_v283 : Ref sig .tc := ⟨.hbm, 376, rfl⟩
abbrev main_v284 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_v288 : Ref sig .tc := ⟨.hbm, 381, rfl⟩
abbrev main_v289 : Ref sig .tc := ⟨.hbm, 382, rfl⟩
abbrev main_call5_cst : Ref sig .tc := ⟨.hbm, 383, rfl⟩
abbrev main_call5_v0 : Ref sig .tc := ⟨.hbm, 384, rfl⟩
abbrev main_v290 : Ref sig .tc := ⟨.hbm, 385, rfl⟩
abbrev main_v291 : Ref sig .tc := ⟨.hbm, 386, rfl⟩
abbrev main_v292 : Ref sig .tc := ⟨.hbm, 387, rfl⟩
abbrev main_v293 : Ref sig .tc := ⟨.hbm, 388, rfl⟩
abbrev main_v294 : Ref sig .tc := ⟨.hbm, 389, rfl⟩
abbrev main_v295 : Ref sig .tc := ⟨.hbm, 390, rfl⟩
abbrev main_v296 : Ref sig .tc := ⟨.hbm, 391, rfl⟩
abbrev main_cst_57 : Ref sig .tc := ⟨.hbm, 392, rfl⟩
abbrev main_v297 : Ref sig .tc := ⟨.hbm, 393, rfl⟩
abbrev main_v298 : Ref sig .tc := ⟨.hbm, 394, rfl⟩
abbrev main_cst_58 : Ref sig .tc := ⟨.hbm, 395, rfl⟩
abbrev main_v299 : Ref sig .tc := ⟨.hbm, 396, rfl⟩
abbrev main_v300 : Ref sig .tc := ⟨.hbm, 397, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x6485 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6464x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S21x21 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x21 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x149 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1200x149 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S149x149 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1200x149 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1200x149 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S149x298 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1200x298 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1200x149 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S149x149 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1200x149 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1200x149 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S149x298 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1200x298 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1200x596 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S596x596 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1200x596 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  shapeCasts_S128_S1x128 : S128.ShapeCasts S1x128
  shapeCasts_S21_S1x21 : S21.ShapeCasts S1x21
  inb_S200x6485_S200x6485_0_0 : ∀ a, (![0, 0] : Fin 2 → Nat) a + S200x6485.size a ≤ S200x6485.size a
  h_S200x6485 : 0 < S200x6485.numel
  slices_S200x6485_o0_21_S200x6464 : S200x6485.Slices ![0, 21] S200x6464
  bitsLt_bf16_f32 : FTy.bits .bf16 < FTy.bits .f32
  slices_S200x6485_o0_0_S200x21 : S200x6485.Slices ![0, 0] S200x21
  inb_S6464x128_S6464x128_0_0 : ∀ a, (![0, 0] : Fin 2 → Nat) a + S6464x128.size a ≤ S6464x128.size a
  h_S6464x128 : 0 < S6464x128.numel
  inb_S21x21_S21x21_0_0 : ∀ a, (![0, 0] : Fin 2 → Nat) a + S21x21.size a ≤ S21x21.size a
  h_S21x21 : 0 < S21x21.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S1x21_S200x21 : S1x21.Broadcasts S200x21
  concatenates_S200x21_S200x128_S200x149_d1 : Shape.Concatenates [S200x21, S200x128] S200x149 1
  inb_S200x149_S200x149_0_0 : ∀ a, (![0, 0] : Fin 2 → Nat) a + S200x149.size a ≤ S200x149.size a
  h_S200x149 : 0 < S200x149.numel
  slices_S2x300000_S1x300000_0_0 : S2x300000.Slices ![0, 0] S1x300000
  shapeCasts_S1x300000_S300000 : S1x300000.ShapeCasts S300000
  slices_S2x300000_S1x300000_1_0 : S2x300000.Slices ![1, 0] S1x300000
  inb_S1200x149_S1200x149_0_0 : ∀ a, (![0, 0] : Fin 2 → Nat) a + S1200x149.size a ≤ S1200x149.size a
  h_S1200x149 : 0 < S1200x149.numel
  shapeCasts_S1200x149_S1200x149 : S1200x149.ShapeCasts S1200x149
  inb_S149x149_S149x149_0_0 : ∀ a, (![0, 0] : Fin 2 → Nat) a + S149x149.size a ≤ S149x149.size a
  h_S149x149 : 0 < S149x149.numel
  bcast_S_S300000 : S_.BroadcastsInDim S300000 (![] : Fin 0 → Fin S300000.rank)
  bcast_S_S30000 : S_.BroadcastsInDim S30000 (![] : Fin 0 → Fin S30000.rank)
  bcast_S300000_S300000x1_0 : S300000.BroadcastsInDim S300000x1 (![0] : Fin 1 → Fin S300000x1.rank)
  bcast_S300000x1_S300000x149_0_1 : S300000x1.BroadcastsInDim S300000x149 (![0, 1] : Fin 2 → Fin S300000x149.rank)
  bcast_S_S30000x149 : S_.BroadcastsInDim S30000x149 (![] : Fin 0 → Fin S30000x149.rank)
  bcast_S30000_S30000x1_0 : S30000.BroadcastsInDim S30000x1 (![0] : Fin 1 → Fin S30000x1.rank)
  bcast_S30000x1_S30000x149_0_1 : S30000x1.BroadcastsInDim S30000x149 (![0, 1] : Fin 2 → Fin S30000x149.rank)
  bcast_S149_S1x149_1 : S149.BroadcastsInDim S1x149 (![1] : Fin 1 → Fin S1x149.rank)
  bcast_S1x149_S30000x149_0_1 : S1x149.BroadcastsInDim S30000x149 (![0, 1] : Fin 2 → Fin S30000x149.rank)
  inb_S149x298_S149x298_0_0 : ∀ a, (![0, 0] : Fin 2 → Nat) a + S149x298.size a ≤ S149x298.size a
  h_S149x298 : 0 < S149x298.numel
  inb_S1200x298_S1200x298_0_0 : ∀ a, (![0, 0] : Fin 2 → Nat) a + S1200x298.size a ≤ S1200x298.size a
  h_S1200x298 : 0 < S1200x298.numel
  bcast_S300000x1_S300000x298_0_1 : S300000x1.BroadcastsInDim S300000x298 (![0, 1] : Fin 2 → Fin S300000x298.rank)
  bcast_S_S30000x298 : S_.BroadcastsInDim S30000x298 (![] : Fin 0 → Fin S30000x298.rank)
  bcast_S30000x1_S30000x298_0_1 : S30000x1.BroadcastsInDim S30000x298 (![0, 1] : Fin 2 → Fin S30000x298.rank)
  bcast_S298_S1x298_1 : S298.BroadcastsInDim S1x298 (![1] : Fin 1 → Fin S1x298.rank)
  bcast_S1x298_S30000x298_0_1 : S1x298.BroadcastsInDim S30000x298 (![0, 1] : Fin 2 → Fin S30000x298.rank)
  concatenates_S30000x298_S30000x298_S30000x596_d1 : Shape.Concatenates [S30000x298, S30000x298] S30000x596 1
  inb_S1200x596_S1200x596_0_0 : ∀ a, (![0, 0] : Fin 2 → Nat) a + S1200x596.size a ≤ S1200x596.size a
  h_S1200x596 : 0 < S1200x596.numel
  shapeCasts_S1200x596_S1200x596 : S1200x596.ShapeCasts S1200x596
  inb_S596x596_S596x596_0_0 : ∀ a, (![0, 0] : Fin 2 → Nat) a + S596x596.size a ≤ S596x596.size a
  h_S596x596 : 0 < S596x596.numel
  bcast_S300000x1_S300000x596_0_1 : S300000x1.BroadcastsInDim S300000x596 (![0, 1] : Fin 2 → Fin S300000x596.rank)
  bcast_S_S30000x596 : S_.BroadcastsInDim S30000x596 (![] : Fin 0 → Fin S30000x596.rank)
  bcast_S30000x1_S30000x596_0_1 : S30000x1.BroadcastsInDim S30000x596 (![0, 1] : Fin 2 → Fin S30000x596.rank)
  bcast_S596_S1x596_1 : S596.BroadcastsInDim S1x596 (![1] : Fin 1 → Fin S1x596.rank)
  bcast_S1x596_S30000x596_0_1 : S1x596.BroadcastsInDim S30000x596 (![0, 1] : Fin 2 → Fin S30000x596.rank)
  bcast_S_S32 : S_.BroadcastsInDim S32 (![] : Fin 0 → Fin S32.rank)
  bcast_S_S32x596 : S_.BroadcastsInDim S32x596 (![] : Fin 0 → Fin S32x596.rank)
  bcast_S32_S32x1_0 : S32.BroadcastsInDim S32x1 (![0] : Fin 1 → Fin S32x1.rank)
  bcast_S32x1_S32x596_0_1 : S32x1.BroadcastsInDim S32x596 (![0, 1] : Fin 2 → Fin S32x596.rank)
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  reducesTo_S32x1024_S1024_d0 : S32x1024.ReducesTo [0] S1024
  h_S_ : 0 < S_.numel
  bcast_S_S1024 : S_.BroadcastsInDim S1024 (![] : Fin 0 → Fin S1024.rank)
  bcast_S_S32x1024 : S_.BroadcastsInDim S32x1024 (![] : Fin 0 → Fin S32x1024.rank)
  bcast_S486_S1x486_1 : S486.BroadcastsInDim S1x486 (![1] : Fin 1 → Fin S1x486.rank)
  bcast_S1x486_S32x486_0_1 : S1x486.BroadcastsInDim S32x486 (![0, 1] : Fin 2 → Fin S32x486.rank)
  bcast_S_S32x486 : S_.BroadcastsInDim S32x486 (![] : Fin 0 → Fin S32x486.rank)
  dot_S200x6464_S6464x128_S200x128_1_0_0_1_n_n_wf : DotDims.WF S200x6464 S6464x128 S200x128 [1] [0] [0] [1] [] []
  dot_S200x21_S21x21_S200x21_1_0_0_1_n_n_wf : DotDims.WF S200x21 S21x21 S200x21 [1] [0] [0] [1] [] []
  dot_S1200x149_S149x149_S1200x149_1_0_0_1_n_n_wf : DotDims.WF S1200x149 S149x149 S1200x149 [1] [0] [0] [1] [] []
  scatter_S30000_S300000x1_S300000_n_0_0_1_wf : ScatterDims.WF S30000 S300000x1 S300000 [] [0] [0] 1
  gather_S30000_S300000x1_S300000_n_0_n_n_0_1_1_wf : GatherDims.WF S30000 S300000x1 S300000 [] [0] [] [0] [] 1 ![1]
  gather_S30000x149_S300000x1_S300000x149_1_0_n_n_0_1_1149_wf : GatherDims.WF S30000x149 S300000x1 S300000x149 [1] [0] [] [0] [] 1 ![1, 149]
  scatter_S30000x149_S300000x1_S300000x149_1_0_0_1_wf : ScatterDims.WF S30000x149 S300000x1 S300000x149 [1] [0] [0] 1
  dot_S1200x149_S149x298_S1200x298_1_0_0_1_n_n_wf : DotDims.WF S1200x149 S149x298 S1200x298 [1] [0] [0] [1] [] []
  gather_S30000x298_S300000x1_S300000x298_1_0_n_n_0_1_1298_wf : GatherDims.WF S30000x298 S300000x1 S300000x298 [1] [0] [] [0] [] 1 ![1, 298]
  scatter_S30000x298_S300000x1_S300000x298_1_0_0_1_wf : ScatterDims.WF S30000x298 S300000x1 S300000x298 [1] [0] [0] 1
  dot_S1200x596_S596x596_S1200x596_1_0_0_1_n_n_wf : DotDims.WF S1200x596 S596x596 S1200x596 [1] [0] [0] [1] [] []
  gather_S30000x596_S300000x1_S300000x596_1_0_n_n_0_1_1596_wf : GatherDims.WF S30000x596 S300000x1 S300000x596 [1] [0] [] [0] [] 1 ![1, 596]
  scatter_S30000x596_S300000x1_S300000x596_1_0_0_1_wf : ScatterDims.WF S30000x596 S300000x1 S300000x596 [1] [0] [0] 1
  scatter_S32_S30000x1_S30000_n_0_0_1_wf : ScatterDims.WF S32 S30000x1 S30000 [] [0] [0] 1
  scatter_S32x596_S30000x1_S30000x596_1_0_0_1_wf : ScatterDims.WF S32x596 S30000x1 S30000x596 [1] [0] [0] 1
  dot_S32x596_S596x1024_S32x1024_1_0_0_1_n_n_wf : DotDims.WF S32x596 S596x1024 S32x1024 [1] [0] [0] [1] [] []
  dot_S32x1024_S1024x486_S32x486_1_0_0_1_n_n_wf : DotDims.WF S32x1024 S1024x486 S32x486 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x6485.size a ≤ S30000x6485.size a
  hwx0_0 : ∀ i : grid0.Coords, EltTy.bits .f32 = 32 ∨ (Rect.block (s := S30000x6485) S200x6485.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6464x128.size a ≤ S6464x128.size a
  hwx0_1 : ∀ i : grid0.Coords, EltTy.bits .f32 = 32 ∨ (Rect.block (s := S6464x128) S6464x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S21x21.size a ≤ S21x21.size a
  hwx0_3 : ∀ i : grid0.Coords, EltTy.bits .f32 = 32 ∨ (Rect.block (s := S21x21) S21x21.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x21.size a ≤ S1x21.size a
  hwx0_4 : ∀ i : grid0.Coords, EltTy.bits .f32 = 32 ∨ (Rect.block (s := S1x21) S1x21.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x149.size a ≤ S30000x149.size a
  hwx0_5 : ∀ i : grid0.Coords, EltTy.bits .f32 = 32 ∨ (Rect.block (s := S30000x149) S200x149.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1200x149.size a ≤ S30000x149.size a
  hwx1_0 : ∀ i : grid1.Coords, EltTy.bits .f32 = 32 ∨ (Rect.block (s := S30000x149) S1200x149.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S149x149.size a ≤ S149x149.size a
  hwx1_1 : ∀ i : grid1.Coords, EltTy.bits .f32 = 32 ∨ (Rect.block (s := S149x149) S149x149.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1200x149.size a ≤ S30000x149.size a
  hwx1_2 : ∀ i : grid1.Coords, EltTy.bits .f32 = 32 ∨ (Rect.block (s := S30000x149) S1200x149.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1200x149.size a ≤ S30000x149.size a
  hwx2_0 : ∀ i : grid2.Coords, EltTy.bits .f32 = 32 ∨ (Rect.block (s := S30000x149) S1200x149.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S149x298.size a ≤ S149x298.size a
  hwx2_1 : ∀ i : grid2.Coords, EltTy.bits .f32 = 32 ∨ (Rect.block (s := S149x298) S149x298.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1200x298.size a ≤ S30000x298.size a
  hwx2_2 : ∀ i : grid2.Coords, EltTy.bits .f32 = 32 ∨ (Rect.block (s := S30000x298) S1200x298.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1200x149.size a ≤ S30000x149.size a
  hwx3_0 : ∀ i : grid3.Coords, EltTy.bits .f32 = 32 ∨ (Rect.block (s := S30000x149) S1200x149.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S149x149.size a ≤ S149x149.size a
  hwx3_1 : ∀ i : grid3.Coords, EltTy.bits .f32 = 32 ∨ (Rect.block (s := S149x149) S149x149.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1200x149.size a ≤ S30000x149.size a
  hwx3_2 : ∀ i : grid3.Coords, EltTy.bits .f32 = 32 ∨ (Rect.block (s := S30000x149) S1200x149.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1200x149.size a ≤ S30000x149.size a
  hwx4_0 : ∀ i : grid4.Coords, EltTy.bits .f32 = 32 ∨ (Rect.block (s := S30000x149) S1200x149.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S149x298.size a ≤ S149x298.size a
  hwx4_1 : ∀ i : grid4.Coords, EltTy.bits .f32 = 32 ∨ (Rect.block (s := S149x298) S149x298.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1200x298.size a ≤ S30000x298.size a
  hwx4_2 : ∀ i : grid4.Coords, EltTy.bits .f32 = 32 ∨ (Rect.block (s := S30000x298) S1200x298.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1200x596.size a ≤ S30000x596.size a
  hwx5_0 : ∀ i : grid5.Coords, EltTy.bits .f32 = 32 ∨ (Rect.block (s := S30000x596) S1200x596.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S596x596.size a ≤ S596x596.size a
  hwx5_1 : ∀ i : grid5.Coords, EltTy.bits .f32 = 32 ∨ (Rect.block (s := S596x596) S596x596.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1200x596.size a ≤ S30000x596.size a
  hwx5_2 : ∀ i : grid5.Coords, EltTy.bits .f32 = 32 ∨ (Rect.block (s := S30000x596) S1200x596.size (cc5_transform_2 i) (hinb5_2 i)).WholeWords (EltTy.packing .f32)

variable [Facts₀]

def dot_S200x6464_S6464x128_S200x128_1_0_0_1_n_n : DotDims S200x6464 S6464x128 S200x128 where
  lhsContracting := [1]
  rhsContracting := [0]
  lhsNonContracting := [0]
  rhsNonContracting := [1]
  lhsBatch := []
  rhsBatch := []
  wf := dot_S200x6464_S6464x128_S200x128_1_0_0_1_n_n_wf
def dot_S200x21_S21x21_S200x21_1_0_0_1_n_n : DotDims S200x21 S21x21 S200x21 where
  lhsContracting := [1]
  rhsContracting := [0]
  lhsNonContracting := [0]
  rhsNonContracting := [1]
  lhsBatch := []
  rhsBatch := []
  wf := dot_S200x21_S21x21_S200x21_1_0_0_1_n_n_wf
def dot_S1200x149_S149x149_S1200x149_1_0_0_1_n_n : DotDims S1200x149 S149x149 S1200x149 where
  lhsContracting := [1]
  rhsContracting := [0]
  lhsNonContracting := [0]
  rhsNonContracting := [1]
  lhsBatch := []
  rhsBatch := []
  wf := dot_S1200x149_S149x149_S1200x149_1_0_0_1_n_n_wf
def scatter_S30000_S300000x1_S300000_n_0_0_1 : ScatterDims S30000 S300000x1 S300000 where
  updateWindowDims := []
  insertedWindowDims := [0]
  scatterDimsToOperandDims := [0]
  indexVectorDim := 1
  wf := scatter_S30000_S300000x1_S300000_n_0_0_1_wf
def gather_S30000_S300000x1_S300000_n_0_n_n_0_1_1 : GatherDims S30000 S300000x1 S300000 where
  offsetDims := []
  collapsedSliceDims := [0]
  operandBatchingDims := []
  startIndicesBatchingDims := []
  startIndexMap := [0]
  indexVectorDim := 1
  sliceSizes := ![1]
  wf := gather_S30000_S300000x1_S300000_n_0_n_n_0_1_1_wf
def gather_S30000x149_S300000x1_S300000x149_1_0_n_n_0_1_1149 : GatherDims S30000x149 S300000x1 S300000x149 where
  offsetDims := [1]
  collapsedSliceDims := [0]
  operandBatchingDims := []
  startIndicesBatchingDims := []
  startIndexMap := [0]
  indexVectorDim := 1
  sliceSizes := ![1, 149]
  wf := gather_S30000x149_S300000x1_S300000x149_1_0_n_n_0_1_1149_wf
def scatter_S30000x149_S300000x1_S300000x149_1_0_0_1 : ScatterDims S30000x149 S300000x1 S300000x149 where
  updateWindowDims := [1]
  insertedWindowDims := [0]
  scatterDimsToOperandDims := [0]
  indexVectorDim := 1
  wf := scatter_S30000x149_S300000x1_S300000x149_1_0_0_1_wf
def dot_S1200x149_S149x298_S1200x298_1_0_0_1_n_n : DotDims S1200x149 S149x298 S1200x298 where
  lhsContracting := [1]
  rhsContracting := [0]
  lhsNonContracting := [0]
  rhsNonContracting := [1]
  lhsBatch := []
  rhsBatch := []
  wf := dot_S1200x149_S149x298_S1200x298_1_0_0_1_n_n_wf
def gather_S30000x298_S300000x1_S300000x298_1_0_n_n_0_1_1298 : GatherDims S30000x298 S300000x1 S300000x298 where
  offsetDims := [1]
  collapsedSliceDims := [0]
  operandBatchingDims := []
  startIndicesBatchingDims := []
  startIndexMap := [0]
  indexVectorDim := 1
  sliceSizes := ![1, 298]
  wf := gather_S30000x298_S300000x1_S300000x298_1_0_n_n_0_1_1298_wf
def scatter_S30000x298_S300000x1_S300000x298_1_0_0_1 : ScatterDims S30000x298 S300000x1 S300000x298 where
  updateWindowDims := [1]
  insertedWindowDims := [0]
  scatterDimsToOperandDims := [0]
  indexVectorDim := 1
  wf := scatter_S30000x298_S300000x1_S300000x298_1_0_0_1_wf
def dot_S1200x596_S596x596_S1200x596_1_0_0_1_n_n : DotDims S1200x596 S596x596 S1200x596 where
  lhsContracting := [1]
  rhsContracting := [0]
  lhsNonContracting := [0]
  rhsNonContracting := [1]
  lhsBatch := []
  rhsBatch := []
  wf := dot_S1200x596_S596x596_S1200x596_1_0_0_1_n_n_wf
def gather_S30000x596_S300000x1_S300000x596_1_0_n_n_0_1_1596 : GatherDims S30000x596 S300000x1 S300000x596 where
  offsetDims := [1]
  collapsedSliceDims := [0]
  operandBatchingDims := []
  startIndicesBatchingDims := []
  startIndexMap := [0]
  indexVectorDim := 1
  sliceSizes := ![1, 596]
  wf := gather_S30000x596_S300000x1_S300000x596_1_0_n_n_0_1_1596_wf
def scatter_S30000x596_S300000x1_S300000x596_1_0_0_1 : ScatterDims S30000x596 S300000x1 S300000x596 where
  updateWindowDims := [1]
  insertedWindowDims := [0]
  scatterDimsToOperandDims := [0]
  indexVectorDim := 1
  wf := scatter_S30000x596_S300000x1_S300000x596_1_0_0_1_wf
def scatter_S32_S30000x1_S30000_n_0_0_1 : ScatterDims S32 S30000x1 S30000 where
  updateWindowDims := []
  insertedWindowDims := [0]
  scatterDimsToOperandDims := [0]
  indexVectorDim := 1
  wf := scatter_S32_S30000x1_S30000_n_0_0_1_wf
def scatter_S32x596_S30000x1_S30000x596_1_0_0_1 : ScatterDims S32x596 S30000x1 S30000x596 where
  updateWindowDims := [1]
  insertedWindowDims := [0]
  scatterDimsToOperandDims := [0]
  indexVectorDim := 1
  wf := scatter_S32x596_S30000x1_S30000x596_1_0_0_1_wf
def dot_S32x596_S596x1024_S32x1024_1_0_0_1_n_n : DotDims S32x596 S596x1024 S32x1024 where
  lhsContracting := [1]
  rhsContracting := [0]
  lhsNonContracting := [0]
  rhsNonContracting := [1]
  lhsBatch := []
  rhsBatch := []
  wf := dot_S32x596_S596x1024_S32x1024_1_0_0_1_n_n_wf
def dot_S32x1024_S1024x486_S32x486_1_0_0_1_n_n : DotDims S32x1024 S1024x486 S32x486 where
  lhsContracting := [1]
  rhsContracting := [0]
  lhsNonContracting := [0]
  rhsNonContracting := [1]
  lhsBatch := []
  rhsBatch := []
  wf := dot_S32x1024_S1024x486_S32x486_1_0_0_1_n_n_wf

abbrev win0_0 : Pipeline.Window sig grid0 :=
  Pipeline.Window.ofSpec (Memref.whole main_arg0) S200x6485.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S6464x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S21x21.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x21.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S200x149.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S1200x149.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S149x149.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1200x149.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S1200x149.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S149x298.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1200x298.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v2) S1200x149.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S149x149.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v105) S1200x149.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v149) S1200x149.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S149x298.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v154) S1200x298.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v199) S1200x596.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg16) S596x596.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v204) S1200x596.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S30000x6485 : Shape := ⟨2, ![30000, 6485]⟩
abbrev S2x300000 : Shape := ⟨2, ![2, 300000]⟩
abbrev S30000 : Shape := ⟨1, ![30000]⟩
abbrev S6464x128 : Shape := ⟨2, ![6464, 128]⟩
abbrev S128 : Shape := ⟨1, ![128]⟩
abbrev S21x21 : Shape := ⟨2, ![21, 21]⟩
abbrev S21 : Shape := ⟨1, ![21]⟩
abbrev S149x149 : Shape := ⟨2, ![149, 149]⟩
abbrev S149 : Shape := ⟨1, ![149]⟩
abbrev S149x298 : Shape := ⟨2, ![149, 298]⟩
abbrev S298 : Shape := ⟨1, ![298]⟩
abbrev S596x596 : Shape := ⟨2, ![596, 596]⟩
abbrev S596 : Shape := ⟨1, ![596]⟩
abbrev S596x1024 : Shape := ⟨2, ![596, 1024]⟩
abbrev S1024 : Shape := ⟨1, ![1024]⟩
abbrev S1024x486 : Shape := ⟨2, ![1024, 486]⟩
abbrev S486 : Shape := ⟨1, ![486]⟩
abbrev S30000x6464 : Shape := ⟨2, ![30000, 6464]⟩
abbrev S30000x128 : Shape := ⟨2, ![30000, 128]⟩
abbrev S1x128 : Shape := ⟨2, ![1, 128]⟩
abbrev S_ : Shape := ⟨0, ![]⟩
abbrev S30000x21 : Shape := ⟨2, ![30000, 21]⟩
abbrev S1x21 : Shape := ⟨2, ![1, 21]⟩
abbrev S30000x149 : Shape := ⟨2, ![30000, 149]⟩
abbrev S1x300000 : Shape := ⟨2, ![1, 300000]⟩
abbrev S300000 : Shape := ⟨1, ![300000]⟩
abbrev S300000x1 : Shape := ⟨2, ![300000, 1]⟩
abbrev S300000x149 : Shape := ⟨2, ![300000, 149]⟩
abbrev S30000x1 : Shape := ⟨2, ![30000, 1]⟩
abbrev S1x149 : Shape := ⟨2, ![1, 149]⟩
abbrev S30000x298 : Shape := ⟨2, ![30000, 298]⟩
abbrev S300000x298 : Shape := ⟨2, ![300000, 298]⟩
abbrev S1x298 : Shape := ⟨2, ![1, 298]⟩
abbrev S30000x596 : Shape := ⟨2, ![30000, 596]⟩
abbrev S300000x596 : Shape := ⟨2, ![300000, 596]⟩
abbrev S1x596 : Shape := ⟨2, ![1, 596]⟩
abbrev S32 : Shape := ⟨1, ![32]⟩
abbrev S32x596 : Shape := ⟨2, ![32, 596]⟩
abbrev S32x1 : Shape := ⟨2, ![32, 1]⟩
abbrev S32x1024 : Shape := ⟨2, ![32, 1024]⟩
abbrev S1x1024 : Shape := ⟨2, ![1, 1024]⟩
abbrev S32x486 : Shape := ⟨2, ![32, 486]⟩
abbrev S1x486 : Shape := ⟨2, ![1, 486]⟩

abbrev nBuf : Space → Nat
  | .hbm => 412
  | .vmem => 0
  | .smem => 0
  | _ => 0

abbrev hbmTy0_0 (i : Nat) : BufTy := match i % 128 with
  | 0 => ⟨S30000x6485, .f32⟩
  | 1 => ⟨S2x300000, .i32⟩
  | 2 => ⟨S2x300000, .i32⟩
  | 3 => ⟨S30000, .i32⟩
  | 4 => ⟨S6464x128, .f32⟩
  | 5 => ⟨S128, .f32⟩
  | 6 => ⟨S21x21, .f32⟩
  | 7 => ⟨S21, .f32⟩
  | 8 => ⟨S149x149, .f32⟩
  | 9 => ⟨S149, .f32⟩
  | 10 => ⟨S149x298, .f32⟩
  | 11 => ⟨S298, .f32⟩
  | 12 => ⟨S149x149, .f32⟩
  | 13 => ⟨S149, .f32⟩
  | 14 => ⟨S149x298, .f32⟩
  | 15 => ⟨S298, .f32⟩
  | 16 => ⟨S596x596, .f32⟩
  | 17 => ⟨S596, .f32⟩
  | 18 => ⟨S596x1024, .f32⟩
  | 19 => ⟨S1024, .f32⟩
  | 20 => ⟨S1024x486, .f32⟩
  | 21 => ⟨S486, .f32⟩
  | 22 => ⟨S1024, .f32⟩
  | 23 => ⟨S1024, .f32⟩
  | 24 => ⟨S30000x6464, .f32⟩
  | 25 => ⟨S30000x128, .f32⟩
  | 26 => ⟨S1x128, .f32⟩
  | 27 => ⟨S30000x128, .f32⟩
  | 28 => ⟨S30000x128, .f32⟩
  | 29 => ⟨S_, .f32⟩
  | 30 => ⟨S30000x128, .f32⟩
  | 31 => ⟨S30000x128, .f32⟩
  | 32 => ⟨S30000x21, .f32⟩
  | 33 => ⟨S30000x21, .f32⟩
  | 34 => ⟨S1x21, .f32⟩
  | 35 => ⟨S30000x21, .f32⟩
  | 36 => ⟨S30000x21, .f32⟩
  | 37 => ⟨S_, .f32⟩
  | 38 => ⟨S30000x21, .f32⟩
  | 39 => ⟨S30000x21, .f32⟩
  | 40 => ⟨S30000x149, .f32⟩
  | 41 => ⟨S1x300000, .i32⟩
  | 42 => ⟨S300000, .i32⟩
  | 43 => ⟨S1x300000, .i32⟩
  | 44 => ⟨S300000, .i32⟩
  | 45 => ⟨S30000x149, .f32⟩
  | 46 => ⟨S_, .f32⟩
  | 47 => ⟨S300000, .f32⟩
  | 48 => ⟨S_, .f32⟩
  | 49 => ⟨S30000, .f32⟩
  | 50 => ⟨S300000x1, .i32⟩
  | 51 => ⟨S30000, .f32⟩
  | 52 => ⟨S_, .f32⟩
  | 53 => ⟨S30000, .f32⟩
  | 54 => ⟨S30000, .f32⟩
  | 55 => ⟨S30000, .f32⟩
  | 56 => ⟨S_, .i32⟩
  | 57 => ⟨S300000, .i32⟩
  | 58 => ⟨S300000, .i1⟩
  | 59 => ⟨S_, .i32⟩
  | 60 => ⟨S300000, .i32⟩
  | 61 => ⟨S300000, .i32⟩
  | 62 => ⟨S300000, .i32⟩
  | 63 => ⟨S300000x1, .i32⟩
  | 64 => ⟨S300000, .f32⟩
  | 65 => ⟨S_, .i32⟩
  | 66 => ⟨S300000, .i32⟩
  | 67 => ⟨S300000, .i1⟩
  | 68 => ⟨S_, .i32⟩
  | 69 => ⟨S300000, .i32⟩
  | 70 => ⟨S300000, .i32⟩
  | 71 => ⟨S300000, .i32⟩
  | 72 => ⟨S300000x1, .i32⟩
  | 73 => ⟨S300000, .f32⟩
  | 74 => ⟨S300000, .f32⟩
  | 75 => ⟨S_, .i32⟩
  | 76 => ⟨S300000, .i32⟩
  | 77 => ⟨S300000, .i1⟩
  | 78 => ⟨S_, .i32⟩
  | 79 => ⟨S300000, .i32⟩
  | 80 => ⟨S300000, .i32⟩
  | 81 => ⟨S300000, .i32⟩
  | 82 => ⟨S300000x1, .i32⟩
  | 83 => ⟨S300000x149, .f32⟩
  | 84 => ⟨S300000x1, .f32⟩
  | 85 => ⟨S300000x149, .f32⟩
  | 86 => ⟨S300000x149, .f32⟩
  | 87 => ⟨S_, .f32⟩
  | 88 => ⟨S30000x149, .f32⟩
  | 89 => ⟨S300000x1, .i32⟩
  | 90 => ⟨S30000x149, .f32⟩
  | 91 => ⟨S30000, .f32⟩
  | 92 => ⟨S30000x1, .f32⟩
  | 93 => ⟨S30000x149, .f32⟩
  | 94 => ⟨S30000x149, .f32⟩
  | 95 => ⟨S30000x149, .f32⟩
  | 96 => ⟨S1x149, .f32⟩
  | 97 => ⟨S30000x149, .f32⟩
  | 98 => ⟨S30000x149, .f32⟩
  | 99 => ⟨S_, .f32⟩
  | 100 => ⟨S30000x149, .f32⟩
  | 101 => ⟨S30000x149, .f32⟩
  | 102 => ⟨S1x300000, .i32⟩
  | 103 => ⟨S300000, .i32⟩
  | 104 => ⟨S1x300000, .i32⟩
  | 105 => ⟨S300000, .i32⟩
  | 106 => ⟨S30000x298, .f32⟩
  | 107 => ⟨S_, .f32⟩
  | 108 => ⟨S300000, .f32⟩
  | 109 => ⟨S_, .f32⟩
  | 110 => ⟨S30000, .f32⟩
  | 111 => ⟨S300000x1, .i32⟩
  | 112 => ⟨S30000, .f32⟩
  | 113 => ⟨S_, .f32⟩
  | 114 => ⟨S30000, .f32⟩
  | 115 => ⟨S30000, .f32⟩
  | 116 => ⟨S30000, .f32⟩
  | 117 => ⟨S_, .i32⟩
  | 118 => ⟨S300000, .i32⟩
  | 119 => ⟨S300000, .i1⟩
  | 120 => ⟨S_, .i32⟩
  | 121 => ⟨S300000, .i32⟩
  | 122 => ⟨S300000, .i32⟩
  | 123 => ⟨S300000, .i32⟩
  | 124 => ⟨S300000x1, .i32⟩
  | 125 => ⟨S300000, .f32⟩
  | 126 => ⟨S_, .i32⟩
  | 127 => ⟨S300000, .i32⟩
  | _ => ⟨S30000x6485, .f32⟩

abbrev hbmTy0_1 (i : Nat) : BufTy := match i % 128 with
  | 0 => ⟨S300000, .i1⟩
  | 1 => ⟨S_, .i32⟩
  | 2 => ⟨S300000, .i32⟩
  | 3 => ⟨S300000, .i32⟩
  | 4 => ⟨S300000, .i32⟩
  | 5 => ⟨S300000x1, .i32⟩
  | 6 => ⟨S300000, .f32⟩
  | 7 => ⟨S300000, .f32⟩
  | 8 => ⟨S_, .i32⟩
  | 9 => ⟨S300000, .i32⟩
  | 10 => ⟨S300000, .i1⟩
  | 11 => ⟨S_, .i32⟩
  | 12 => ⟨S300000, .i32⟩
  | 13 => ⟨S300000, .i32⟩
  | 14 => ⟨S300000, .i32⟩
  | 15 => ⟨S300000x1, .i32⟩
  | 16 => ⟨S300000x298, .f32⟩
  | 17 => ⟨S300000x1, .f32⟩
  | 18 => ⟨S300000x298, .f32⟩
  | 19 => ⟨S300000x298, .f32⟩
  | 20 => ⟨S_, .f32⟩
  | 21 => ⟨S30000x298, .f32⟩
  | 22 => ⟨S300000x1, .i32⟩
  | 23 => ⟨S30000x298, .f32⟩
  | 24 => ⟨S30000, .f32⟩
  | 25 => ⟨S30000x1, .f32⟩
  | 26 => ⟨S30000x298, .f32⟩
  | 27 => ⟨S30000x298, .f32⟩
  | 28 => ⟨S30000x298, .f32⟩
  | 29 => ⟨S1x298, .f32⟩
  | 30 => ⟨S30000x298, .f32⟩
  | 31 => ⟨S30000x298, .f32⟩
  | 32 => ⟨S_, .f32⟩
  | 33 => ⟨S30000x298, .f32⟩
  | 34 => ⟨S30000x298, .f32⟩
  | 35 => ⟨S1x300000, .i32⟩
  | 36 => ⟨S300000, .i32⟩
  | 37 => ⟨S1x300000, .i32⟩
  | 38 => ⟨S300000, .i32⟩
  | 39 => ⟨S30000x149, .f32⟩
  | 40 => ⟨S_, .f32⟩
  | 41 => ⟨S300000, .f32⟩
  | 42 => ⟨S_, .f32⟩
  | 43 => ⟨S30000, .f32⟩
  | 44 => ⟨S300000x1, .i32⟩
  | 45 => ⟨S30000, .f32⟩
  | 46 => ⟨S_, .f32⟩
  | 47 => ⟨S30000, .f32⟩
  | 48 => ⟨S30000, .f32⟩
  | 49 => ⟨S30000, .f32⟩
  | 50 => ⟨S_, .i32⟩
  | 51 => ⟨S300000, .i32⟩
  | 52 => ⟨S300000, .i1⟩
  | 53 => ⟨S_, .i32⟩
  | 54 => ⟨S300000, .i32⟩
  | 55 => ⟨S300000, .i32⟩
  | 56 => ⟨S300000, .i32⟩
  | 57 => ⟨S300000x1, .i32⟩
  | 58 => ⟨S300000, .f32⟩
  | 59 => ⟨S_, .i32⟩
  | 60 => ⟨S300000, .i32⟩
  | 61 => ⟨S300000, .i1⟩
  | 62 => ⟨S_, .i32⟩
  | 63 => ⟨S300000, .i32⟩
  | 64 => ⟨S300000, .i32⟩
  | 65 => ⟨S300000, .i32⟩
  | 66 => ⟨S300000x1, .i32⟩
  | 67 => ⟨S300000, .f32⟩
  | 68 => ⟨S300000, .f32⟩
  | 69 => ⟨S_, .i32⟩
  | 70 => ⟨S300000, .i32⟩
  | 71 => ⟨S300000, .i1⟩
  | 72 => ⟨S_, .i32⟩
  | 73 => ⟨S300000, .i32⟩
  | 74 => ⟨S300000, .i32⟩
  | 75 => ⟨S300000, .i32⟩
  | 76 => ⟨S300000x1, .i32⟩
  | 77 => ⟨S300000x149, .f32⟩
  | 78 => ⟨S300000x1, .f32⟩
  | 79 => ⟨S300000x149, .f32⟩
  | 80 => ⟨S300000x149, .f32⟩
  | 81 => ⟨S_, .f32⟩
  | 82 => ⟨S30000x149, .f32⟩
  | 83 => ⟨S300000x1, .i32⟩
  | 84 => ⟨S30000x149, .f32⟩
  | 85 => ⟨S30000, .f32⟩
  | 86 => ⟨S30000x1, .f32⟩
  | 87 => ⟨S30000x149, .f32⟩
  | 88 => ⟨S30000x149, .f32⟩
  | 89 => ⟨S30000x149, .f32⟩
  | 90 => ⟨S1x149, .f32⟩
  | 91 => ⟨S30000x149, .f32⟩
  | 92 => ⟨S30000x149, .f32⟩
  | 93 => ⟨S_, .f32⟩
  | 94 => ⟨S30000x149, .f32⟩
  | 95 => ⟨S30000x149, .f32⟩
  | 96 => ⟨S1x300000, .i32⟩
  | 97 => ⟨S300000, .i32⟩
  | 98 => ⟨S1x300000, .i32⟩
  | 99 => ⟨S300000, .i32⟩
  | 100 => ⟨S30000x298, .f32⟩
  | 101 => ⟨S_, .f32⟩
  | 102 => ⟨S300000, .f32⟩
  | 103 => ⟨S_, .f32⟩
  | 104 => ⟨S30000, .f32⟩
  | 105 => ⟨S300000x1, .i32⟩
  | 106 => ⟨S30000, .f32⟩
  | 107 => ⟨S_, .f32⟩
  | 108 => ⟨S30000, .f32⟩
  | 109 => ⟨S30000, .f32⟩
  | 110 => ⟨S30000, .f32⟩
  | 111 => ⟨S_, .i32⟩
  | 112 => ⟨S300000, .i32⟩
  | 113 => ⟨S300000, .i1⟩
  | 114 => ⟨S_, .i32⟩
  | 115 => ⟨S300000, .i32⟩
  | 116 => ⟨S300000, .i32⟩
  | 117 => ⟨S300000, .i32⟩
  | 118 => ⟨S300000x1, .i32⟩
  | 119 => ⟨S300000, .f32⟩
  | 120 => ⟨S_, .i32⟩
  | 121 => ⟨S300000, .i32⟩
  | 122 => ⟨S300000, .i1⟩
  | 123 => ⟨S_, .i32⟩
  | 124 => ⟨S300000, .i32⟩
  | 125 => ⟨S300000, .i32⟩
  | 126 => ⟨S300000, .i32⟩
  | 127 => ⟨S300000x1, .i32⟩
  | _ => ⟨S30000x6485, .f32⟩

abbrev hbmTy0_2 (i : Nat) : BufTy := match i % 128 with
  | 0 => ⟨S300000, .f32⟩
  | 1 => ⟨S300000, .f32⟩
  | 2 => ⟨S_, .i32⟩
  | 3 => ⟨S300000, .i32⟩
  | 4 => ⟨S300000, .i1⟩
  | 5 => ⟨S_, .i32⟩
  | 6 => ⟨S300000, .i32⟩
  | 7 => ⟨S300000, .i32⟩
  | 8 => ⟨S300000, .i32⟩
  | 9 => ⟨S300000x1, .i32⟩
  | 10 => ⟨S300000x298, .f32⟩
  | 11 => ⟨S300000x1, .f32⟩
  | 12 => ⟨S300000x298, .f32⟩
  | 13 => ⟨S300000x298, .f32⟩
  | 14 => ⟨S_, .f32⟩
  | 15 => ⟨S30000x298, .f32⟩
  | 16 => ⟨S300000x1, .i32⟩
  | 17 => ⟨S30000x298, .f32⟩
  | 18 => ⟨S30000, .f32⟩
  | 19 => ⟨S30000x1, .f32⟩
  | 20 => ⟨S30000x298, .f32⟩
  | 21 => ⟨S30000x298, .f32⟩
  | 22 => ⟨S30000x298, .f32⟩
  | 23 => ⟨S1x298, .f32⟩
  | 24 => ⟨S30000x298, .f32⟩
  | 25 => ⟨S30000x298, .f32⟩
  | 26 => ⟨S_, .f32⟩
  | 27 => ⟨S30000x298, .f32⟩
  | 28 => ⟨S30000x298, .f32⟩
  | 29 => ⟨S30000x596, .f32⟩
  | 30 => ⟨S1x300000, .i32⟩
  | 31 => ⟨S300000, .i32⟩
  | 32 => ⟨S1x300000, .i32⟩
  | 33 => ⟨S300000, .i32⟩
  | 34 => ⟨S30000x596, .f32⟩
  | 35 => ⟨S_, .f32⟩
  | 36 => ⟨S300000, .f32⟩
  | 37 => ⟨S_, .f32⟩
  | 38 => ⟨S30000, .f32⟩
  | 39 => ⟨S300000x1, .i32⟩
  | 40 => ⟨S30000, .f32⟩
  | 41 => ⟨S_, .f32⟩
  | 42 => ⟨S30000, .f32⟩
  | 43 => ⟨S30000, .f32⟩
  | 44 => ⟨S30000, .f32⟩
  | 45 => ⟨S_, .i32⟩
  | 46 => ⟨S300000, .i32⟩
  | 47 => ⟨S300000, .i1⟩
  | 48 => ⟨S_, .i32⟩
  | 49 => ⟨S300000, .i32⟩
  | 50 => ⟨S300000, .i32⟩
  | 51 => ⟨S300000, .i32⟩
  | 52 => ⟨S300000x1, .i32⟩
  | 53 => ⟨S300000, .f32⟩
  | 54 => ⟨S_, .i32⟩
  | 55 => ⟨S300000, .i32⟩
  | 56 => ⟨S300000, .i1⟩
  | 57 => ⟨S_, .i32⟩
  | 58 => ⟨S300000, .i32⟩
  | 59 => ⟨S300000, .i32⟩
  | 60 => ⟨S300000, .i32⟩
  | 61 => ⟨S300000x1, .i32⟩
  | 62 => ⟨S300000, .f32⟩
  | 63 => ⟨S300000, .f32⟩
  | 64 => ⟨S_, .i32⟩
  | 65 => ⟨S300000, .i32⟩
  | 66 => ⟨S300000, .i1⟩
  | 67 => ⟨S_, .i32⟩
  | 68 => ⟨S300000, .i32⟩
  | 69 => ⟨S300000, .i32⟩
  | 70 => ⟨S300000, .i32⟩
  | 71 => ⟨S300000x1, .i32⟩
  | 72 => ⟨S300000x596, .f32⟩
  | 73 => ⟨S300000x1, .f32⟩
  | 74 => ⟨S300000x596, .f32⟩
  | 75 => ⟨S300000x596, .f32⟩
  | 76 => ⟨S_, .f32⟩
  | 77 => ⟨S30000x596, .f32⟩
  | 78 => ⟨S300000x1, .i32⟩
  | 79 => ⟨S30000x596, .f32⟩
  | 80 => ⟨S30000, .f32⟩
  | 81 => ⟨S30000x1, .f32⟩
  | 82 => ⟨S30000x596, .f32⟩
  | 83 => ⟨S30000x596, .f32⟩
  | 84 => ⟨S30000x596, .f32⟩
  | 85 => ⟨S1x596, .f32⟩
  | 86 => ⟨S30000x596, .f32⟩
  | 87 => ⟨S30000x596, .f32⟩
  | 88 => ⟨S_, .f32⟩
  | 89 => ⟨S30000x596, .f32⟩
  | 90 => ⟨S30000x596, .f32⟩
  | 91 => ⟨S_, .f32⟩
  | 92 => ⟨S30000, .f32⟩
  | 93 => ⟨S_, .f32⟩
  | 94 => ⟨S32, .f32⟩
  | 95 => ⟨S30000x1, .i32⟩
  | 96 => ⟨S32, .f32⟩
  | 97 => ⟨S_, .f32⟩
  | 98 => ⟨S32x596, .f32⟩
  | 99 => ⟨S30000x1, .i32⟩
  | 100 => ⟨S32x596, .f32⟩
  | 101 => ⟨S_, .f32⟩
  | 102 => ⟨S32, .f32⟩
  | 103 => ⟨S32, .f32⟩
  | 104 => ⟨S32x1, .f32⟩
  | 105 => ⟨S32x596, .f32⟩
  | 106 => ⟨S32x596, .f32⟩
  | 107 => ⟨S32x1024, .f32⟩
  | 108 => ⟨S1x1024, .f32⟩
  | 109 => ⟨S32x1024, .f32⟩
  | 110 => ⟨S32x1024, .f32⟩
  | 111 => ⟨S_, .f32⟩
  | 112 => ⟨S1024, .f32⟩
  | 113 => ⟨S_, .f32⟩
  | 114 => ⟨S1024, .f32⟩
  | 115 => ⟨S1024, .f32⟩
  | 116 => ⟨S1x1024, .f32⟩
  | 117 => ⟨S32x1024, .f32⟩
  | 118 => ⟨S32x1024, .f32⟩
  | 119 => ⟨S32x1024, .f32⟩
  | 120 => ⟨S_, .f32⟩
  | 121 => ⟨S1024, .f32⟩
  | 122 => ⟨S_, .f32⟩
  | 123 => ⟨S1024, .f32⟩
  | 124 => ⟨S1024, .f32⟩
  | 125 => ⟨S1x1024, .f32⟩
  | 126 => ⟨S32x1024, .f32⟩
  | 127 => ⟨S32x1024, .f32⟩
  | _ => ⟨S30000x6485, .f32⟩

abbrev hbmTy0_3 (i : Nat) : BufTy := match i % 128 with
  | 0 => ⟨S_, .f32⟩
  | 1 => ⟨S1024, .f32⟩
  | 2 => ⟨S1024, .f32⟩
  | 3 => ⟨S1024, .f32⟩
  | 4 => ⟨S1x1024, .f32⟩
  | 5 => ⟨S32x1024, .f32⟩
  | 6 => ⟨S32x1024, .f32⟩
  | 7 => ⟨S1x1024, .f32⟩
  | 8 => ⟨S32x1024, .f32⟩
  | 9 => ⟨S32x1024, .f32⟩
  | 10 => ⟨S1x1024, .f32⟩
  | 11 => ⟨S32x1024, .f32⟩
  | 12 => ⟨S32x1024, .f32⟩
  | 13 => ⟨S_, .f32⟩
  | 14 => ⟨S32x1024, .f32⟩
  | 15 => ⟨S32x1024, .f32⟩
  | 16 => ⟨S32x486, .f32⟩
  | 17 => ⟨S1x486, .f32⟩
  | 18 => ⟨S32x486, .f32⟩
  | 19 => ⟨S32x486, .f32⟩
  | 20 => ⟨S32x486, .f32⟩
  | 21 => ⟨S32x486, .f32⟩
  | 22 => ⟨S_, .f32⟩
  | 23 => ⟨S32x486, .f32⟩
  | 24 => ⟨S32x486, .f32⟩
  | 25 => ⟨S_, .f32⟩
  | 26 => ⟨S32x486, .f32⟩
  | 27 => ⟨S32x486, .f32⟩
  | _ => ⟨S30000x6485, .f32⟩

abbrev hbmTy (i : Nat) : BufTy := match i / 128 with
  | 0 => hbmTy0_0 i
  | 1 => hbmTy0_1 i
  | 2 => hbmTy0_2 i
  | 3 => hbmTy0_3 i
  | _ => ⟨S30000x6485, .f32⟩

abbrev bufTy : (tb : Table) → Fin (tcTables nBuf tb) → BufTy
  | .hbm, ⟨i, _⟩ => hbmTy i
  | _, _ => ⟨S30000x6485, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_call0_cst : Ref sig .tc := ⟨.hbm, 29, rfl⟩
abbrev main_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_call1_cst : Ref sig .tc := ⟨.hbm, 37, rfl⟩
abbrev main_call1_v0 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst : Ref sig .tc := ⟨.hbm, 46, rfl⟩
abbrev main_v18 : Ref sig .tc := ⟨.hbm, 47, rfl⟩
abbrev main_cst_0 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_1 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c : Ref sig .tc := ⟨.hbm, 56, rfl⟩
abbrev main_v25 : Ref sig .tc := ⟨.hbm, 57, rfl⟩
abbrev main_v26 : Ref sig .tc := ⟨.hbm, 58, rfl⟩
abbrev main_c_2 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_3 : Ref sig .tc := ⟨.hbm, 65, rfl⟩
abbrev main_v32 : Ref sig .tc := ⟨.hbm, 66, rfl⟩
abbrev main_v33 : Ref sig .tc := ⟨.hbm, 67, rfl⟩
abbrev main_c_4 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_c_5 : Ref sig .tc := ⟨.hbm, 75, rfl⟩
abbrev main_v40 : Ref sig .tc := ⟨.hbm, 76, rfl⟩
abbrev main_v41 : Ref sig .tc := ⟨.hbm, 77, rfl⟩
abbrev main_c_6 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_7 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_call2_cst : Ref sig .tc := ⟨.hbm, 99, rfl⟩
abbrev main_call2_v0 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_8 : Ref sig .tc := ⟨.hbm, 107, rfl⟩
abbrev main_v67 : Ref sig .tc := ⟨.hbm, 108, rfl⟩
abbrev main_cst_9 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_10 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c_11 : Ref sig .tc := ⟨.hbm, 117, rfl⟩
abbrev main_v74 : Ref sig .tc := ⟨.hbm, 118, rfl⟩
abbrev main_v75 : Ref sig .tc := ⟨.hbm, 119, rfl⟩
abbrev main_c_12 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_c_13 : Ref sig .tc := ⟨.hbm, 126, rfl⟩
abbrev main_v81 : Ref sig .tc := ⟨.hbm, 127, rfl⟩
abbrev main_v82 : Ref sig .tc := ⟨.hbm, 128, rfl⟩
abbrev main_c_14 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_c_15 : Ref sig .tc := ⟨.hbm, 136, rfl⟩
abbrev main_v89 : Ref sig .tc := ⟨.hbm, 137, rfl⟩
abbrev main_v90 : Ref sig .tc := ⟨.hbm, 138, rfl⟩
abbrev main_c_16 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_17 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_call3_cst : Ref sig .tc := ⟨.hbm, 160, rfl⟩
abbrev main_call3_v0 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_18 : Ref sig .tc := ⟨.hbm, 168, rfl⟩
abbrev main_v116 : Ref sig .tc := ⟨.hbm, 169, rfl⟩
abbrev main_cst_19 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_cst_20 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_c_21 : Ref sig .tc := ⟨.hbm, 178, rfl⟩
abbrev main_v123 : Ref sig .tc := ⟨.hbm, 179, rfl⟩
abbrev main_v124 : Ref sig .tc := ⟨.hbm, 180, rfl⟩
abbrev main_c_22 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_c_23 : Ref sig .tc := ⟨.hbm, 187, rfl⟩
abbrev main_v130 : Ref sig .tc := ⟨.hbm, 188, rfl⟩
abbrev main_v131 : Ref sig .tc := ⟨.hbm, 189, rfl⟩
abbrev main_c_24 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_c_25 : Ref sig .tc := ⟨.hbm, 197, rfl⟩
abbrev main_v138 : Ref sig .tc := ⟨.hbm, 198, rfl⟩
abbrev main_v139 : Ref sig .tc := ⟨.hbm, 199, rfl⟩
abbrev main_c_26 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_cst_27 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_call4_cst : Ref sig .tc := ⟨.hbm, 221, rfl⟩
abbrev main_call4_v0 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_cst_28 : Ref sig .tc := ⟨.hbm, 229, rfl⟩
abbrev main_v165 : Ref sig .tc := ⟨.hbm, 230, rfl⟩
abbrev main_cst_29 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_cst_30 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_c_31 : Ref sig .tc := ⟨.hbm, 239, rfl⟩
abbrev main_v172 : Ref sig .tc := ⟨.hbm, 240, rfl⟩
abbrev main_v173 : Ref sig .tc := ⟨.hbm, 241, rfl⟩
abbrev main_c_32 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_c_33 : Ref sig .tc := ⟨.hbm, 248, rfl⟩
abbrev main_v179 : Ref sig .tc := ⟨.hbm, 249, rfl⟩
abbrev main_v180 : Ref sig .tc := ⟨.hbm, 250, rfl⟩
abbrev main_c_34 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_c_35 : Ref sig .tc := ⟨.hbm, 258, rfl⟩
abbrev main_v187 : Ref sig .tc := ⟨.hbm, 259, rfl⟩
abbrev main_v188 : Ref sig .tc := ⟨.hbm, 260, rfl⟩
abbrev main_c_36 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_cst_37 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_call5_cst : Ref sig .tc := ⟨.hbm, 282, rfl⟩
abbrev main_call5_v0 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_cst_38 : Ref sig .tc := ⟨.hbm, 291, rfl⟩
abbrev main_v215 : Ref sig .tc := ⟨.hbm, 292, rfl⟩
abbrev main_cst_39 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_cst_40 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_c_41 : Ref sig .tc := ⟨.hbm, 301, rfl⟩
abbrev main_v222 : Ref sig .tc := ⟨.hbm, 302, rfl⟩
abbrev main_v223 : Ref sig .tc := ⟨.hbm, 303, rfl⟩
abbrev main_c_42 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_c_43 : Ref sig .tc := ⟨.hbm, 310, rfl⟩
abbrev main_v229 : Ref sig .tc := ⟨.hbm, 311, rfl⟩
abbrev main_v230 : Ref sig .tc := ⟨.hbm, 312, rfl⟩
abbrev main_c_44 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_c_45 : Ref sig .tc := ⟨.hbm, 320, rfl⟩
abbrev main_v237 : Ref sig .tc := ⟨.hbm, 321, rfl⟩
abbrev main_v238 : Ref sig .tc := ⟨.hbm, 322, rfl⟩
abbrev main_c_46 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_cst_47 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_call6_cst : Ref sig .tc := ⟨.hbm, 344, rfl⟩
abbrev main_call6_v0 : Ref sig .tc := ⟨.hbm, 345, rfl⟩
abbrev main_v258 : Ref sig .tc := ⟨.hbm, 346, rfl⟩
abbrev main_cst_48 : Ref sig .tc := ⟨.hbm, 347, rfl⟩
abbrev main_v259 : Ref sig .tc := ⟨.hbm, 348, rfl⟩
abbrev main_cst_49 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_cst_50 : Ref sig .tc := ⟨.hbm, 353, rfl⟩
abbrev main_v263 : Ref sig .tc := ⟨.hbm, 354, rfl⟩
abbrev main_v264 : Ref sig .tc := ⟨.hbm, 355, rfl⟩
abbrev main_v265 : Ref sig .tc := ⟨.hbm, 356, rfl⟩
abbrev main_cst_51 : Ref sig .tc := ⟨.hbm, 357, rfl⟩
abbrev main_v266 : Ref sig .tc := ⟨.hbm, 358, rfl⟩
abbrev main_v267 : Ref sig .tc := ⟨.hbm, 359, rfl⟩
abbrev main_v268 : Ref sig .tc := ⟨.hbm, 360, rfl⟩
abbrev main_v269 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_v274 : Ref sig .tc := ⟨.hbm, 366, rfl⟩
abbrev main_cst_52 : Ref sig .tc := ⟨.hbm, 367, rfl⟩
abbrev main_v275 : Ref sig .tc := ⟨.hbm, 368, rfl⟩
abbrev main_cst_53 : Ref sig .tc := ⟨.hbm, 369, rfl⟩
abbrev main_v276 : Ref sig .tc := ⟨.hbm, 370, rfl⟩
abbrev main_v277 : Ref sig .tc := ⟨.hbm, 371, rfl⟩
abbrev main_v278 : Ref sig .tc := ⟨.hbm, 372, rfl⟩
abbrev main_v279 : Ref sig .tc := ⟨.hbm, 373, rfl⟩
abbrev main_v280 : Ref sig .tc := ⟨.hbm, 374, rfl⟩
abbrev main_v281 : Ref sig .tc := ⟨.hbm, 375, rfl⟩
abbrev main_cst_54 : Ref sig .tc := ⟨.hbm, 376, rfl⟩
abbrev main_v282 : Ref sig .tc := ⟨.hbm, 377, rfl⟩
abbrev main_cst_55 : Ref sig .tc := ⟨.hbm, 378, rfl⟩
abbrev main_v283 : Ref sig .tc := ⟨.hbm, 379, rfl⟩
abbrev main_v284 : Ref sig .tc := ⟨.hbm, 380, rfl⟩
abbrev main_v285 : Ref sig .tc := ⟨.hbm, 381, rfl⟩
abbrev main_v286 : Ref sig .tc := ⟨.hbm, 382, rfl⟩
abbrev main_v287 : Ref sig .tc := ⟨.hbm, 383, rfl⟩
abbrev main_cst_56 : Ref sig .tc := ⟨.hbm, 384, rfl⟩
abbrev main_v288 : Ref sig .tc := ⟨.hbm, 385, rfl⟩
abbrev main_v289 : Ref sig .tc := ⟨.hbm, 386, rfl⟩
abbrev main_v290 : Ref sig .tc := ⟨.hbm, 387, rfl⟩
abbrev main_v291 : Ref sig .tc := ⟨.hbm, 388, rfl⟩
abbrev main_v292 : Ref sig .tc := ⟨.hbm, 389, rfl⟩
abbrev main_v293 : Ref sig .tc := ⟨.hbm, 390, rfl⟩
abbrev main_v294 : Ref sig .tc := ⟨.hbm, 391, rfl⟩
abbrev main_v295 : Ref sig .tc := ⟨.hbm, 392, rfl⟩
abbrev main_v296 : Ref sig .tc := ⟨.hbm, 393, rfl⟩
abbrev main_v297 : Ref sig .tc := ⟨.hbm, 394, rfl⟩
abbrev main_v298 : Ref sig .tc := ⟨.hbm, 395, rfl⟩
abbrev main_v299 : Ref sig .tc := ⟨.hbm, 396, rfl⟩
abbrev main_call7_cst : Ref sig .tc := ⟨.hbm, 397, rfl⟩
abbrev main_call7_v0 : Ref sig .tc := ⟨.hbm, 398, rfl⟩
abbrev main_v300 : Ref sig .tc := ⟨.hbm, 399, rfl⟩
abbrev main_v301 : Ref sig .tc := ⟨.hbm, 400, rfl⟩
abbrev main_v302 : Ref sig .tc := ⟨.hbm, 401, rfl⟩
abbrev main_v303 : Ref sig .tc := ⟨.hbm, 402, rfl⟩
abbrev main_v304 : Ref sig .tc := ⟨.hbm, 403, rfl⟩
abbrev main_v305 : Ref sig .tc := ⟨.hbm, 404, rfl⟩
abbrev main_v306 : Ref sig .tc := ⟨.hbm, 405, rfl⟩
abbrev main_cst_57 : Ref sig .tc := ⟨.hbm, 406, rfl⟩
abbrev main_v307 : Ref sig .tc := ⟨.hbm, 407, rfl⟩
abbrev main_v308 : Ref sig .tc := ⟨.hbm, 408, rfl⟩
abbrev main_cst_58 : Ref sig .tc := ⟨.hbm, 409, rfl⟩
abbrev main_v309 : Ref sig .tc := ⟨.hbm, 410, rfl⟩
abbrev main_v310 : Ref sig .tc := ⟨.hbm, 411, rfl⟩

abbrev nD : Nat := 1
abbrev τ : Topo := Topo.v7x

variable {F : FTy → Type} [FloatOps F]

class Facts₀ : Prop where
  slices_S30000x6485_S30000x6464_0_21 : S30000x6485.Slices ![0, 21] S30000x6464
  bcast_S128_S1x128_1 : S128.BroadcastsInDim S1x128 (![1] : Fin 1 → Fin S1x128.rank)
  bcast_S1x128_S30000x128_0_1 : S1x128.BroadcastsInDim S30000x128 (![0, 1] : Fin 2 → Fin S30000x128.rank)
  bcast_S_S30000x128 : S_.BroadcastsInDim S30000x128 (![] : Fin 0 → Fin S30000x128.rank)
  slices_S30000x6485_S30000x21_0_0 : S30000x6485.Slices ![0, 0] S30000x21
  bcast_S21_S1x21_1 : S21.BroadcastsInDim S1x21 (![1] : Fin 1 → Fin S1x21.rank)
  bcast_S1x21_S30000x21_0_1 : S1x21.BroadcastsInDim S30000x21 (![0, 1] : Fin 2 → Fin S30000x21.rank)
  bcast_S_S30000x21 : S_.BroadcastsInDim S30000x21 (![] : Fin 0 → Fin S30000x21.rank)
  concatenates_S30000x21_S30000x128_S30000x149_d1 : Shape.Concatenates [S30000x21, S30000x128] S30000x149 1
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S_S30000 : S_.BroadcastsInDim S30000 (![] : Fin 0 → Fin S30000.rank)
  bcast_S300000_S300000x1_0 : S300000.BroadcastsInDim S300000x1 (![0] : Fin 1 → Fin S300000x1.rank)
  bcast_S300000x1_S300000x149_0_1 : S300000x1.BroadcastsInDim S300000x149 (![0, 1] : Fin 2 → Fin S300000x149.rank)
  bcast_S_S30000x149 : S_.BroadcastsInDim S30000x149 (![] : Fin 0 → Fin S30000x149.rank)
  bcast_S30000_S30000x1_0 : S30000.BroadcastsInDim S30000x1 (![0] : Fin 1 → Fin S30000x1.rank)
  bcast_S30000x1_S30000x149_0_1 : S30000x1.BroadcastsInDim S30000x149 (![0, 1] : Fin 2 → Fin S30000x149.rank)
  bcast_S149_S1x149_1 : S149.BroadcastsInDim S1x149 (![1] : Fin 1 → Fin S1x149.rank)
  bcast_S1x149_S30000x149_0_1 : S1x149.BroadcastsInDim S30000x149 (![0, 1] : Fin 2 → Fin S30000x149.rank)
  bcast_S300000x1_S300000x298_0_1 : S300000x1.BroadcastsInDim S300000x298 (![0, 1] : Fin 2 → Fin S300000x298.rank)
  bcast_S_S30000x298 : S_.BroadcastsInDim S30000x298 (![] : Fin 0 → Fin S30000x298.rank)
  bcast_S30000x1_S30000x298_0_1 : S30000x1.BroadcastsInDim S30000x298 (![0, 1] : Fin 2 → Fin S30000x298.rank)
  bcast_S298_S1x298_1 : S298.BroadcastsInDim S1x298 (![1] : Fin 1 → Fin S1x298.rank)
  bcast_S1x298_S30000x298_0_1 : S1x298.BroadcastsInDim S30000x298 (![0, 1] : Fin 2 → Fin S30000x298.rank)
  concatenates_S30000x298_S30000x298_S30000x596_d1 : Shape.Concatenates [S30000x298, S30000x298] S30000x596 1
  bcast_S300000x1_S300000x596_0_1 : S300000x1.BroadcastsInDim S300000x596 (![0, 1] : Fin 2 → Fin S300000x596.rank)
  bcast_S_S30000x596 : S_.BroadcastsInDim S30000x596 (![] : Fin 0 → Fin S30000x596.rank)
  bcast_S30000x1_S30000x596_0_1 : S30000x1.BroadcastsInDim S30000x596 (![0, 1] : Fin 2 → Fin S30000x596.rank)
  bcast_S596_S1x596_1 : S596.BroadcastsInDim S1x596 (![1] : Fin 1 → Fin S1x596.rank)
  bcast_S1x596_S30000x596_0_1 : S1x596.BroadcastsInDim S30000x596 (![0, 1] : Fin 2 → Fin S30000x596.rank)
  bcast_S_S32 : S_.BroadcastsInDim S32 (![] : Fin 0 → Fin S32.rank)
  bcast_S_S32x596 : S_.BroadcastsInDim S32x596 (![] : Fin 0 → Fin S32x596.rank)
  bcast_S32_S32x1_0 : S32.BroadcastsInDim S32x1 (![0] : Fin 1 → Fin S32x1.rank)
  bcast_S32x1_S32x596_0_1 : S32x1.BroadcastsInDim S32x596 (![0, 1] : Fin 2 → Fin S32x596.rank)
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  reducesTo_S32x1024_S1024_d0 : S32x1024.ReducesTo [0] S1024
  h_S_ : 0 < S_.numel
  bcast_S_S1024 : S_.BroadcastsInDim S1024 (![] : Fin 0 → Fin S1024.rank)
  bcast_S_S32x1024 : S_.BroadcastsInDim S32x1024 (![] : Fin 0 → Fin S32x1024.rank)
  bcast_S486_S1x486_1 : S486.BroadcastsInDim S1x486 (![1] : Fin 1 → Fin S1x486.rank)
  bcast_S1x486_S32x486_0_1 : S1x486.BroadcastsInDim S32x486 (![0, 1] : Fin 2 → Fin S32x486.rank)
  bcast_S_S32x486 : S_.BroadcastsInDim S32x486 (![] : Fin 0 → Fin S32x486.rank)
  dot_S30000x6464_S6464x128_S30000x128_1_0_0_1_n_n_wf : DotDims.WF S30000x6464 S6464x128 S30000x128 [1] [0] [0] [1] [] []
  dot_S30000x21_S21x21_S30000x21_1_0_0_1_n_n_wf : DotDims.WF S30000x21 S21x21 S30000x21 [1] [0] [0] [1] [] []
  dot_S30000x149_S149x149_S30000x149_1_0_0_1_n_n_wf : DotDims.WF S30000x149 S149x149 S30000x149 [1] [0] [0] [1] [] []
  scatter_S30000_S300000x1_S300000_n_0_0_1_wf : ScatterDims.WF S30000 S300000x1 S300000 [] [0] [0] 1
  gather_S30000_S300000x1_S300000_n_0_n_n_0_1_1_wf : GatherDims.WF S30000 S300000x1 S300000 [] [0] [] [0] [] 1 ![1]
  gather_S30000x149_S300000x1_S300000x149_1_0_n_n_0_1_1149_wf : GatherDims.WF S30000x149 S300000x1 S300000x149 [1] [0] [] [0] [] 1 ![1, 149]
  scatter_S30000x149_S300000x1_S300000x149_1_0_0_1_wf : ScatterDims.WF S30000x149 S300000x1 S300000x149 [1] [0] [0] 1
  dot_S30000x149_S149x298_S30000x298_1_0_0_1_n_n_wf : DotDims.WF S30000x149 S149x298 S30000x298 [1] [0] [0] [1] [] []
  gather_S30000x298_S300000x1_S300000x298_1_0_n_n_0_1_1298_wf : GatherDims.WF S30000x298 S300000x1 S300000x298 [1] [0] [] [0] [] 1 ![1, 298]
  scatter_S30000x298_S300000x1_S300000x298_1_0_0_1_wf : ScatterDims.WF S30000x298 S300000x1 S300000x298 [1] [0] [0] 1
  dot_S30000x596_S596x596_S30000x596_1_0_0_1_n_n_wf : DotDims.WF S30000x596 S596x596 S30000x596 [1] [0] [0] [1] [] []
  gather_S30000x596_S300000x1_S300000x596_1_0_n_n_0_1_1596_wf : GatherDims.WF S30000x596 S300000x1 S300000x596 [1] [0] [] [0] [] 1 ![1, 596]
  scatter_S30000x596_S300000x1_S300000x596_1_0_0_1_wf : ScatterDims.WF S30000x596 S300000x1 S300000x596 [1] [0] [0] 1
  scatter_S32_S30000x1_S30000_n_0_0_1_wf : ScatterDims.WF S32 S30000x1 S30000 [] [0] [0] 1
  scatter_S32x596_S30000x1_S30000x596_1_0_0_1_wf : ScatterDims.WF S32x596 S30000x1 S30000x596 [1] [0] [0] 1
  dot_S32x596_S596x1024_S32x1024_1_0_0_1_n_n_wf : DotDims.WF S32x596 S596x1024 S32x1024 [1] [0] [0] [1] [] []
  dot_S32x1024_S1024x486_S32x486_1_0_0_1_n_n_wf : DotDims.WF S32x1024 S1024x486 S32x486 [1] [0] [0] [1] [] []

variable [Facts₀]

def dot_S30000x6464_S6464x128_S30000x128_1_0_0_1_n_n : DotDims S30000x6464 S6464x128 S30000x128 where
  lhsContracting := [1]
  rhsContracting := [0]
  lhsNonContracting := [0]
  rhsNonContracting := [1]
  lhsBatch := []
  rhsBatch := []
  wf := dot_S30000x6464_S6464x128_S30000x128_1_0_0_1_n_n_wf
def dot_S30000x21_S21x21_S30000x21_1_0_0_1_n_n : DotDims S30000x21 S21x21 S30000x21 where
  lhsContracting := [1]
  rhsContracting := [0]
  lhsNonContracting := [0]
  rhsNonContracting := [1]
  lhsBatch := []
  rhsBatch := []
  wf := dot_S30000x21_S21x21_S30000x21_1_0_0_1_n_n_wf
def dot_S30000x149_S149x149_S30000x149_1_0_0_1_n_n : DotDims S30000x149 S149x149 S30000x149 where
  lhsContracting := [1]
  rhsContracting := [0]
  lhsNonContracting := [0]
  rhsNonContracting := [1]
  lhsBatch := []
  rhsBatch := []
  wf := dot_S30000x149_S149x149_S30000x149_1_0_0_1_n_n_wf
def scatter_S30000_S300000x1_S300000_n_0_0_1 : ScatterDims S30000 S300000x1 S300000 where
  updateWindowDims := []
  insertedWindowDims := [0]
  scatterDimsToOperandDims := [0]
  indexVectorDim := 1
  wf := scatter_S30000_S300000x1_S300000_n_0_0_1_wf
def gather_S30000_S300000x1_S300000_n_0_n_n_0_1_1 : GatherDims S30000 S300000x1 S300000 where
  offsetDims := []
  collapsedSliceDims := [0]
  operandBatchingDims := []
  startIndicesBatchingDims := []
  startIndexMap := [0]
  indexVectorDim := 1
  sliceSizes := ![1]
  wf := gather_S30000_S300000x1_S300000_n_0_n_n_0_1_1_wf
def gather_S30000x149_S300000x1_S300000x149_1_0_n_n_0_1_1149 : GatherDims S30000x149 S300000x1 S300000x149 where
  offsetDims := [1]
  collapsedSliceDims := [0]
  operandBatchingDims := []
  startIndicesBatchingDims := []
  startIndexMap := [0]
  indexVectorDim := 1
  sliceSizes := ![1, 149]
  wf := gather_S30000x149_S300000x1_S300000x149_1_0_n_n_0_1_1149_wf
def scatter_S30000x149_S300000x1_S300000x149_1_0_0_1 : ScatterDims S30000x149 S300000x1 S300000x149 where
  updateWindowDims := [1]
  insertedWindowDims := [0]
  scatterDimsToOperandDims := [0]
  indexVectorDim := 1
  wf := scatter_S30000x149_S300000x1_S300000x149_1_0_0_1_wf
def dot_S30000x149_S149x298_S30000x298_1_0_0_1_n_n : DotDims S30000x149 S149x298 S30000x298 where
  lhsContracting := [1]
  rhsContracting := [0]
  lhsNonContracting := [0]
  rhsNonContracting := [1]
  lhsBatch := []
  rhsBatch := []
  wf := dot_S30000x149_S149x298_S30000x298_1_0_0_1_n_n_wf
def gather_S30000x298_S300000x1_S300000x298_1_0_n_n_0_1_1298 : GatherDims S30000x298 S300000x1 S300000x298 where
  offsetDims := [1]
  collapsedSliceDims := [0]
  operandBatchingDims := []
  startIndicesBatchingDims := []
  startIndexMap := [0]
  indexVectorDim := 1
  sliceSizes := ![1, 298]
  wf := gather_S30000x298_S300000x1_S300000x298_1_0_n_n_0_1_1298_wf
def scatter_S30000x298_S300000x1_S300000x298_1_0_0_1 : ScatterDims S30000x298 S300000x1 S300000x298 where
  updateWindowDims := [1]
  insertedWindowDims := [0]
  scatterDimsToOperandDims := [0]
  indexVectorDim := 1
  wf := scatter_S30000x298_S300000x1_S300000x298_1_0_0_1_wf
def dot_S30000x596_S596x596_S30000x596_1_0_0_1_n_n : DotDims S30000x596 S596x596 S30000x596 where
  lhsContracting := [1]
  rhsContracting := [0]
  lhsNonContracting := [0]
  rhsNonContracting := [1]
  lhsBatch := []
  rhsBatch := []
  wf := dot_S30000x596_S596x596_S30000x596_1_0_0_1_n_n_wf
def gather_S30000x596_S300000x1_S300000x596_1_0_n_n_0_1_1596 : GatherDims S30000x596 S300000x1 S300000x596 where
  offsetDims := [1]
  collapsedSliceDims := [0]
  operandBatchingDims := []
  startIndicesBatchingDims := []
  startIndexMap := [0]
  indexVectorDim := 1
  sliceSizes := ![1, 596]
  wf := gather_S30000x596_S300000x1_S300000x596_1_0_n_n_0_1_1596_wf
def scatter_S30000x596_S300000x1_S300000x596_1_0_0_1 : ScatterDims S30000x596 S300000x1 S300000x596 where
  updateWindowDims := [1]
  insertedWindowDims := [0]
  scatterDimsToOperandDims := [0]
  indexVectorDim := 1
  wf := scatter_S30000x596_S300000x1_S300000x596_1_0_0_1_wf
def scatter_S32_S30000x1_S30000_n_0_0_1 : ScatterDims S32 S30000x1 S30000 where
  updateWindowDims := []
  insertedWindowDims := [0]
  scatterDimsToOperandDims := [0]
  indexVectorDim := 1
  wf := scatter_S32_S30000x1_S30000_n_0_0_1_wf
def scatter_S32x596_S30000x1_S30000x596_1_0_0_1 : ScatterDims S32x596 S30000x1 S30000x596 where
  updateWindowDims := [1]
  insertedWindowDims := [0]
  scatterDimsToOperandDims := [0]
  indexVectorDim := 1
  wf := scatter_S32x596_S30000x1_S30000x596_1_0_0_1_wf
def dot_S32x596_S596x1024_S32x1024_1_0_0_1_n_n : DotDims S32x596 S596x1024 S32x1024 where
  lhsContracting := [1]
  rhsContracting := [0]
  lhsNonContracting := [0]
  rhsNonContracting := [1]
  lhsBatch := []
  rhsBatch := []
  wf := dot_S32x596_S596x1024_S32x1024_1_0_0_1_n_n_wf
def dot_S32x1024_S1024x486_S32x486_1_0_0_1_n_n : DotDims S32x1024 S1024x486 S32x486 where
  lhsContracting := [1]
  rhsContracting := [0]
  lhsNonContracting := [0]
  rhsNonContracting := [1]
  lhsBatch := []
  rhsBatch := []
  wf := dot_S32x1024_S1024x486_S32x486_1_0_0_1_n_n_wf

class Facts : Prop extends Facts₀ where

variable [Facts]
-- ==== Proof.RefResult.lean ====
/-
  The reference's run names its result by one closed term of the launch arguments (every operation's term
  substituted into the next); the same result read one operation at a time is the last of the reference's stages.
  Both unfold to the same operations of the same arguments.
-/
import proofs.«133553_j23330262351943_2_alg».proof.Proof.RefRunP
import proofs.«133553_j23330262351943_2_alg».proof.Proof.RefReadP

noncomputable section

namespace Cert.ReferenceIdeal.RefResult

open Idealize.ShloMosaic Idealize.ShloMosaic.TcCoe Idealize.SL.Sem Cert.ReferenceIdeal

set_option maxRecDepth 8192 in
set_option maxHeartbeats 155200000 in
/-- The closed term of the reference's result is its last stage of the launch arguments. -/
theorem last_stage (m : (ℓ : Loc nD τ sig) → Buf (Elt Ideal) ℓ) (c : Dev nD) :
    Cert.ReferenceIdeal.ValueP.res_main_v310 m c = Cert.ReferenceIdeal.ReadP.val_main_v310 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  unfold Cert.ReferenceIdeal.ValueP.res_main_v310; rfl

end Cert.ReferenceIdeal.RefResult

end
-- ==== Proof.Keep.lean ====
/-
  Which buffers survive which segment of the program's main function.

  The main function is a fold of segments over the launch memory: a stretch of host operations rewrites exactly
  the buffers its operations name as results, and a pipelined region rewrites exactly its own window arrays (an
  input window's array is handed back as it was found).  Hence a buffer that no operation of a stretch writes, and
  that is none of a region's arrays, holds after the segment what it held before it.  This file records the
  instances of that remark which the value proof needs: arguments still holding their launch contents when a region
  reads them, intermediate results waiting across several segments until their consumer runs, and each region's
  output and inputs named at its two boundaries.
-/
import proofs.«133553_j23330262351943_2_alg».proof.Proof.Gen.KernelIdeal.Frame

set_option maxRecDepth 16384

noncomputable section

namespace Cert.KernelIdeal.Keep

open Idealize.ShloMosaic Idealize.ShloMosaic.TcCoe
open Idealize.ShloMosaic.Pipeline (Dat Cfg Window)
open Cert.KernelIdeal.Gen

/-- A TensorCore reference as a device buffer. -/
local notation:max "dr " b:max => Proc.devRef Proc.tc b

/-- One stretch of host operations: the goal `W' … (dr b) = W … (dr b)`, where `W'` is `W` after the stretch
    `ops`, holds when `b` differs from every result buffer of the stretch; the results are read off the
    operations one by one and each inequality of references is decided. -/
macro "host_keep " ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes,
     StableHlo.binaryIndexed_writes, Finset.mem_singleton]
   repeat' apply And.intro
   all_goals exact StableHlo.devRef_ne_of_ne (by decide)))

variable {F : FTy → Type} [FloatOps F]
variable (m : (ℓ : Loc nD τ sig) → Buf (Elt F) ℓ) (ρ : Dev nD → PrngReg)

/-! ## Arguments still as launched

Each statement says that an argument's buffer, read at the named boundary, still holds what the launch memory
holds at that argument.  The short walks go backward from the boundary to the launch; for the late boundaries it
is shorter to go forward to the end of the main function, where the generated frame has already read every
argument back to the launch memory. -/

/-- Before anything has run, the bias of the wide linear head is as launched. -/
theorem arg5_at0 (c : Dev nD) : W0 m ρ c (dr main_arg5) = m ((c : Thread nD τ).loc main_arg5) := rfl
/-- Before anything has run, the bias of the narrow linear head is as launched. -/
theorem arg7_at0 (c : Dev nD) : W0 m ρ c (dr main_arg7) = m ((c : Thread nD τ).loc main_arg7) := rfl

/-- The two bias reshapes before the feature projection write only their own results: the node features are untouched. -/
theorem arg0_at1 (c : Dev nD) : W1 m ρ c (dr main_arg0) = m ((c : Thread nD τ).loc main_arg0) :=
  calc W1 m ρ c (dr main_arg0)
    _ = W0 m ρ c (dr main_arg0) := by host_keep hostOps0
    _ = m ((c : Thread nD τ).loc main_arg0) := rfl

/-- Likewise the weight of the wide linear head. -/
theorem arg4_at1 (c : Dev nD) : W1 m ρ c (dr main_arg4) = m ((c : Thread nD τ).loc main_arg4) :=
  calc W1 m ρ c (dr main_arg4)
    _ = W0 m ρ c (dr main_arg4) := by host_keep hostOps0
    _ = m ((c : Thread nD τ).loc main_arg4) := rfl

/-- Likewise the weight of the narrow linear head. -/
theorem arg6_at1 (c : Dev nD) : W1 m ρ c (dr main_arg6) = m ((c : Thread nD τ).loc main_arg6) :=
  calc W1 m ρ c (dr main_arg6)
    _ = W0 m ρ c (dr main_arg6) := by host_keep hostOps0
    _ = m ((c : Thread nD τ).loc main_arg6) := rfl

/-- The first edge list is no array of the feature projection, and no reshape writes it. -/
theorem arg1_at2 (c : Dev nD) : W2 m ρ c (dr main_arg1) = m ((c : Thread nD τ).loc main_arg1) :=
  calc W2 m ρ c (dr main_arg1)
    _ = W1 m ρ c (dr main_arg1) := W2_of_ne m ρ c main_arg1 (by decide)
    _ = W0 m ρ c (dr main_arg1) := by host_keep hostOps0
    _ = m ((c : Thread nD τ).loc main_arg1) := rfl

/-- The first convolution's weight when its matmul starts: neither the feature projection nor the slicing of the edge list touches it. -/
theorem arg8_at3 (c : Dev nD) : W3 m ρ c (dr main_arg8) = m ((c : Thread nD τ).loc main_arg8) :=
  calc W3 m ρ c (dr main_arg8)
    _ = W2 m ρ c (dr main_arg8) := by host_keep hostOps1
    _ = W1 m ρ c (dr main_arg8) := W2_of_ne m ρ c main_arg8 (by decide)
    _ = W0 m ρ c (dr main_arg8) := by host_keep hostOps0
    _ = m ((c : Thread nD τ).loc main_arg8) := rfl

/-- The first convolution's bias after its matmul. -/
theorem arg9_at4 (c : Dev nD) : W4 m ρ c (dr main_arg9) = m ((c : Thread nD τ).loc main_arg9) :=
  calc W4 m ρ c (dr main_arg9)
    _ = W3 m ρ c (dr main_arg9) := W4_of_ne m ρ c main_arg9 (by decide)
    _ = W2 m ρ c (dr main_arg9) := by host_keep hostOps1
    _ = W1 m ρ c (dr main_arg9) := W2_of_ne m ρ c main_arg9 (by decide)
    _ = W0 m ρ c (dr main_arg9) := by host_keep hostOps0
    _ = m ((c : Thread nD τ).loc main_arg9) := rfl

/-- The first edge list after the first matmul: the slicing only reads it. -/
theorem arg1_at4 (c : Dev nD) : W4 m ρ c (dr main_arg1) = m ((c : Thread nD τ).loc main_arg1) :=
  calc W4 m ρ c (dr main_arg1)
    _ = W3 m ρ c (dr main_arg1) := W4_of_ne m ρ c main_arg1 (by decide)
    _ = W2 m ρ c (dr main_arg1) := by host_keep hostOps1
    _ = m ((c : Thread nD τ).loc main_arg1) := arg1_at2 m ρ c

/-- The second convolution's weight when its matmul starts. -/
theorem arg10_at7 (c : Dev nD) : W7 m ρ c (dr main_arg10) = m ((c : Thread nD τ).loc main_arg10) :=
  calc W7 m ρ c (dr main_arg10)
    _ = W6 m ρ c (dr main_arg10) := by host_keep hostOps2_2
    _ = W5 m ρ c (dr main_arg10) := by host_keep hostOps2_1
    _ = W4 m ρ c (dr main_arg10) := by host_keep hostOps2
    _ = W3 m ρ c (dr main_arg10) := W4_of_ne m ρ c main_arg10 (by decide)
    _ = W2 m ρ c (dr main_arg10) := by host_keep hostOps1
    _ = W1 m ρ c (dr main_arg10) := W2_of_ne m ρ c main_arg10 (by decide)
    _ = W0 m ρ c (dr main_arg10) := by host_keep hostOps0
    _ = m ((c : Thread nD τ).loc main_arg10) := rfl

/-- The second convolution's bias after its matmul. -/
theorem arg11_at8 (c : Dev nD) : W8 m ρ c (dr main_arg11) = m ((c : Thread nD τ).loc main_arg11) :=
  calc W8 m ρ c (dr main_arg11)
    _ = W7 m ρ c (dr main_arg11) := W8_of_ne m ρ c main_arg11 (by decide)
    _ = W6 m ρ c (dr main_arg11) := by host_keep hostOps2_2
    _ = W5 m ρ c (dr main_arg11) := by host_keep hostOps2_1
    _ = W4 m ρ c (dr main_arg11) := by host_keep hostOps2
    _ = W3 m ρ c (dr main_arg11) := W4_of_ne m ρ c main_arg11 (by decide)
    _ = W2 m ρ c (dr main_arg11) := by host_keep hostOps1
    _ = W1 m ρ c (dr main_arg11) := W2_of_ne m ρ c main_arg11 (by decide)
    _ = W0 m ρ c (dr main_arg11) := by host_keep hostOps0
    _ = m ((c : Thread nD τ).loc main_arg11) := rfl

/-- The second edge list after the second matmul: nothing has read or written it yet. -/
theorem arg2_at8 (c : Dev nD) : W8 m ρ c (dr main_arg2) = m ((c : Thread nD τ).loc main_arg2) :=
  calc W8 m ρ c (dr main_arg2)
    _ = W7 m ρ c (dr main_arg2) := W8_of_ne m ρ c main_arg2 (by decide)
    _ = W6 m ρ c (dr main_arg2) := by host_keep hostOps2_2
    _ = W5 m ρ c (dr main_arg2) := by host_keep hostOps2_1
    _ = W4 m ρ c (dr main_arg2) := by host_keep hostOps2
    _ = W3 m ρ c (dr main_arg2) := W4_of_ne m ρ c main_arg2 (by decide)
    _ = W2 m ρ c (dr main_arg2) := by host_keep hostOps1
    _ = W1 m ρ c (dr main_arg2) := W2_of_ne m ρ c main_arg2 (by decide)
    _ = W0 m ρ c (dr main_arg2) := by host_keep hostOps0
    _ = m ((c : Thread nD τ).loc main_arg2) := rfl

/-- The third convolution's weight when its matmul starts. -/
theorem arg12_at11 (c : Dev nD) : W11 m ρ c (dr main_arg12) = m ((c : Thread nD τ).loc main_arg12) :=
  calc W11 m ρ c (dr main_arg12)
    _ = W10 m ρ c (dr main_arg12) := by host_keep hostOps3_2
    _ = W9 m ρ c (dr main_arg12) := by host_keep hostOps3_1
    _ = W8 m ρ c (dr main_arg12) := by host_keep hostOps3
    _ = W7 m ρ c (dr main_arg12) := W8_of_ne m ρ c main_arg12 (by decide)
    _ = W6 m ρ c (dr main_arg12) := by host_keep hostOps2_2
    _ = W5 m ρ c (dr main_arg12) := by host_keep hostOps2_1
    _ = W4 m ρ c (dr main_arg12) := by host_keep hostOps2
    _ = W3 m ρ c (dr main_arg12) := W4_of_ne m ρ c main_arg12 (by decide)
    _ = W2 m ρ c (dr main_arg12) := by host_keep hostOps1
    _ = W1 m ρ c (dr main_arg12) := W2_of_ne m ρ c main_arg12 (by decide)
    _ = W0 m ρ c (dr main_arg12) := by host_keep hostOps0
    _ = m ((c : Thread nD τ).loc main_arg12) := rfl

/-- The third convolution's bias after its matmul. -/
theorem arg13_at12 (c : Dev nD) : W12 m ρ c (dr main_arg13) = m ((c : Thread nD τ).loc main_arg13) :=
  calc W12 m ρ c (dr main_arg13)
    _ = W11 m ρ c (dr main_arg13) := W12_of_ne m ρ c main_arg13 (by decide)
    _ = W10 m ρ c (dr main_arg13) := by host_keep hostOps3_2
    _ = W9 m ρ c (dr main_arg13) := by host_keep hostOps3_1
    _ = W8 m ρ c (dr main_arg13) := by host_keep hostOps3
    _ = W7 m ρ c (dr main_arg13) := W8_of_ne m ρ c main_arg13 (by decide)
    _ = W6 m ρ c (dr main_arg13) := by host_keep hostOps2_2
    _ = W5 m ρ c (dr main_arg13) := by host_keep hostOps2_1
    _ = W4 m ρ c (dr main_arg13) := by host_keep hostOps2
    _ = W3 m ρ c (dr main_arg13) := W4_of_ne m ρ c main_arg13 (by decide)
    _ = W2 m ρ c (dr main_arg13) := by host_keep hostOps1
    _ = W1 m ρ c (dr main_arg13) := W2_of_ne m ρ c main_arg13 (by decide)
    _ = W0 m ρ c (dr main_arg13) := by host_keep hostOps0
    _ = m ((c : Thread nD τ).loc main_arg13) := rfl

/-- The second edge list after the third matmul: the slicing before that matmul only reads it. -/
theorem arg2_at12 (c : Dev nD) : W12 m ρ c (dr main_arg2) = m ((c : Thread nD τ).loc main_arg2) :=
  calc W12 m ρ c (dr main_arg2)
    _ = W11 m ρ c (dr main_arg2) := W12_of_ne m ρ c main_arg2 (by decide)
    _ = W10 m ρ c (dr main_arg2) := by host_keep hostOps3_2
    _ = W9 m ρ c (dr main_arg2) := by host_keep hostOps3_1
    _ = W8 m ρ c (dr main_arg2) := by host_keep hostOps3
    _ = m ((c : Thread nD τ).loc main_arg2) := arg2_at8 m ρ c

/-- The fourth convolution's weight when its matmul starts; from here the end of the main function is nearer than the launch. -/
theorem arg14_at15 (c : Dev nD) : W15 m ρ c (dr main_arg14) = m ((c : Thread nD τ).loc main_arg14) :=
  calc W15 m ρ c (dr main_arg14)
    _ = W16 m ρ c (dr main_arg14) := ((W16_arr m ρ c 1).trans (((dat4 (V15 m ρ) c).arrAt_in 1 rfl _).trans (A_eq4 (V15 m ρ) c 1))).symm
    _ = W17 m ρ c (dr main_arg14) := by symm; host_keep hostOps5
    _ = W18 m ρ c (dr main_arg14) := by symm; host_keep hostOps5_1
    _ = W19 m ρ c (dr main_arg14) := by symm; host_keep hostOps5_2
    _ = W20 m ρ c (dr main_arg14) := (W20_of_ne m ρ c main_arg14 (by decide)).symm
    _ = W21 m ρ c (dr main_arg14) := by symm; host_keep hostOps6
    _ = W22 m ρ c (dr main_arg14) := by symm; host_keep hostOps6_1
    _ = W23 m ρ c (dr main_arg14) := by symm; host_keep hostOps6_2
    _ = W24 m ρ c (dr main_arg14) := by symm; host_keep hostOps6_3
    _ = W25 m ρ c (dr main_arg14) := by symm; host_keep hostOps6_4
    _ = m ((c : Thread nD τ).loc main_arg14) := W25_main_arg14 m ρ c

/-- The fourth convolution's bias after its matmul. -/
theorem arg15_at16 (c : Dev nD) : W16 m ρ c (dr main_arg15) = m ((c : Thread nD τ).loc main_arg15) :=
  calc W16 m ρ c (dr main_arg15)
    _ = W17 m ρ c (dr main_arg15) := by symm; host_keep hostOps5
    _ = W18 m ρ c (dr main_arg15) := by symm; host_keep hostOps5_1
    _ = W19 m ρ c (dr main_arg15) := by symm; host_keep hostOps5_2
    _ = W20 m ρ c (dr main_arg15) := (W20_of_ne m ρ c main_arg15 (by decide)).symm
    _ = W21 m ρ c (dr main_arg15) := by symm; host_keep hostOps6
    _ = W22 m ρ c (dr main_arg15) := by symm; host_keep hostOps6_1
    _ = W23 m ρ c (dr main_arg15) := by symm; host_keep hostOps6_2
    _ = W24 m ρ c (dr main_arg15) := by symm; host_keep hostOps6_3
    _ = W25 m ρ c (dr main_arg15) := by symm; host_keep hostOps6_4
    _ = m ((c : Thread nD τ).loc main_arg15) := W25_main_arg15 m ρ c

/-- The first edge list after the fourth matmul. -/
theorem arg1_at16 (c : Dev nD) : W16 m ρ c (dr main_arg1) = m ((c : Thread nD τ).loc main_arg1) :=
  calc W16 m ρ c (dr main_arg1)
    _ = W17 m ρ c (dr main_arg1) := by symm; host_keep hostOps5
    _ = W18 m ρ c (dr main_arg1) := by symm; host_keep hostOps5_1
    _ = W19 m ρ c (dr main_arg1) := by symm; host_keep hostOps5_2
    _ = W20 m ρ c (dr main_arg1) := (W20_of_ne m ρ c main_arg1 (by decide)).symm
    _ = W21 m ρ c (dr main_arg1) := by symm; host_keep hostOps6
    _ = W22 m ρ c (dr main_arg1) := by symm; host_keep hostOps6_1
    _ = W23 m ρ c (dr main_arg1) := by symm; host_keep hostOps6_2
    _ = W24 m ρ c (dr main_arg1) := by symm; host_keep hostOps6_3
    _ = W25 m ρ c (dr main_arg1) := by symm; host_keep hostOps6_4
    _ = m ((c : Thread nD τ).loc main_arg1) := W25_main_arg1 m ρ c

/-- The fifth convolution's weight when its matmul starts. -/
theorem arg16_at19 (c : Dev nD) : W19 m ρ c (dr main_arg16) = m ((c : Thread nD τ).loc main_arg16) :=
  calc W19 m ρ c (dr main_arg16)
    _ = W20 m ρ c (dr main_arg16) := ((W20_arr m ρ c 1).trans (((dat5 (V19 m ρ) c).arrAt_in 1 rfl _).trans (A_eq5 (V19 m ρ) c 1))).symm
    _ = W21 m ρ c (dr main_arg16) := by symm; host_keep hostOps6
    _ = W22 m ρ c (dr main_arg16) := by symm; host_keep hostOps6_1
    _ = W23 m ρ c (dr main_arg16) := by symm; host_keep hostOps6_2
    _ = W24 m ρ c (dr main_arg16) := by symm; host_keep hostOps6_3
    _ = W25 m ρ c (dr main_arg16) := by symm; host_keep hostOps6_4
    _ = m ((c : Thread nD τ).loc main_arg16) := W25_main_arg16 m ρ c

/-- The fifth convolution's bias after its matmul. -/
theorem arg17_at20 (c : Dev nD) : W20 m ρ c (dr main_arg17) = m ((c : Thread nD τ).loc main_arg17) :=
  calc W20 m ρ c (dr main_arg17)
    _ = W21 m ρ c (dr main_arg17) := by symm; host_keep hostOps6
    _ = W22 m ρ c (dr main_arg17) := by symm; host_keep hostOps6_1
    _ = W23 m ρ c (dr main_arg17) := by symm; host_keep hostOps6_2
    _ = W24 m ρ c (dr main_arg17) := by symm; host_keep hostOps6_3
    _ = W25 m ρ c (dr main_arg17) := by symm; host_keep hostOps6_4
    _ = m ((c : Thread nD τ).loc main_arg17) := W25_main_arg17 m ρ c

/-- The graph assignment of the nodes after the last matmul. -/
theorem arg3_at20 (c : Dev nD) : W20 m ρ c (dr main_arg3) = m ((c : Thread nD τ).loc main_arg3) :=
  calc W20 m ρ c (dr main_arg3)
    _ = W21 m ρ c (dr main_arg3) := by symm; host_keep hostOps6
    _ = W22 m ρ c (dr main_arg3) := by symm; host_keep hostOps6_1
    _ = W23 m ρ c (dr main_arg3) := by symm; host_keep hostOps6_2
    _ = W24 m ρ c (dr main_arg3) := by symm; host_keep hostOps6_3
    _ = W25 m ρ c (dr main_arg3) := by symm; host_keep hostOps6_4
    _ = m ((c : Thread nD τ).loc main_arg3) := W25_main_arg3 m ρ c

/-- The first weight of the head after the last matmul. -/
theorem arg18_at20 (c : Dev nD) : W20 m ρ c (dr main_arg18) = m ((c : Thread nD τ).loc main_arg18) :=
  calc W20 m ρ c (dr main_arg18)
    _ = W21 m ρ c (dr main_arg18) := by symm; host_keep hostOps6
    _ = W22 m ρ c (dr main_arg18) := by symm; host_keep hostOps6_1
    _ = W23 m ρ c (dr main_arg18) := by symm; host_keep hostOps6_2
    _ = W24 m ρ c (dr main_arg18) := by symm; host_keep hostOps6_3
    _ = W25 m ρ c (dr main_arg18) := by symm; host_keep hostOps6_4
    _ = m ((c : Thread nD τ).loc main_arg18) := W25_main_arg18 m ρ c

/-- Its bias. -/
theorem arg19_at20 (c : Dev nD) : W20 m ρ c (dr main_arg19) = m ((c : Thread nD τ).loc main_arg19) :=
  calc W20 m ρ c (dr main_arg19)
    _ = W21 m ρ c (dr main_arg19) := by symm; host_keep hostOps6
    _ = W22 m ρ c (dr main_arg19) := by symm; host_keep hostOps6_1
    _ = W23 m ρ c (dr main_arg19) := by symm; host_keep hostOps6_2
    _ = W24 m ρ c (dr main_arg19) := by symm; host_keep hostOps6_3
    _ = W25 m ρ c (dr main_arg19) := by symm; host_keep hostOps6_4
    _ = m ((c : Thread nD τ).loc main_arg19) := W25_main_arg19 m ρ c

/-- The second weight of the head. -/
theorem arg20_at20 (c : Dev nD) : W20 m ρ c (dr main_arg20) = m ((c : Thread nD τ).loc main_arg20) :=
  calc W20 m ρ c (dr main_arg20)
    _ = W21 m ρ c (dr main_arg20) := by symm; host_keep hostOps6
    _ = W22 m ρ c (dr main_arg20) := by symm; host_keep hostOps6_1
    _ = W23 m ρ c (dr main_arg20) := by symm; host_keep hostOps6_2
    _ = W24 m ρ c (dr main_arg20) := by symm; host_keep hostOps6_3
    _ = W25 m ρ c (dr main_arg20) := by symm; host_keep hostOps6_4
    _ = m ((c : Thread nD τ).loc main_arg20) := W25_main_arg20 m ρ c

/-- Its bias. -/
theorem arg21_at20 (c : Dev nD) : W20 m ρ c (dr main_arg21) = m ((c : Thread nD τ).loc main_arg21) :=
  calc W20 m ρ c (dr main_arg21)
    _ = W21 m ρ c (dr main_arg21) := by symm; host_keep hostOps6
    _ = W22 m ρ c (dr main_arg21) := by symm; host_keep hostOps6_1
    _ = W23 m ρ c (dr main_arg21) := by symm; host_keep hostOps6_2
    _ = W24 m ρ c (dr main_arg21) := by symm; host_keep hostOps6_3
    _ = W25 m ρ c (dr main_arg21) := by symm; host_keep hostOps6_4
    _ = m ((c : Thread nD τ).loc main_arg21) := W25_main_arg21 m ρ c

/-- The scale of the normalisation in the head. -/
theorem arg22_at20 (c : Dev nD) : W20 m ρ c (dr main_arg22) = m ((c : Thread nD τ).loc main_arg22) :=
  calc W20 m ρ c (dr main_arg22)
    _ = W21 m ρ c (dr main_arg22) := by symm; host_keep hostOps6
    _ = W22 m ρ c (dr main_arg22) := by symm; host_keep hostOps6_1
    _ = W23 m ρ c (dr main_arg22) := by symm; host_keep hostOps6_2
    _ = W24 m ρ c (dr main_arg22) := by symm; host_keep hostOps6_3
    _ = W25 m ρ c (dr main_arg22) := by symm; host_keep hostOps6_4
    _ = m ((c : Thread nD τ).loc main_arg22) := W25_main_arg22 m ρ c

/-- The shift of the normalisation in the head. -/
theorem arg23_at20 (c : Dev nD) : W20 m ρ c (dr main_arg23) = m ((c : Thread nD τ).loc main_arg23) :=
  calc W20 m ρ c (dr main_arg23)
    _ = W21 m ρ c (dr main_arg23) := by symm; host_keep hostOps6
    _ = W22 m ρ c (dr main_arg23) := by symm; host_keep hostOps6_1
    _ = W23 m ρ c (dr main_arg23) := by symm; host_keep hostOps6_2
    _ = W24 m ρ c (dr main_arg23) := by symm; host_keep hostOps6_3
    _ = W25 m ρ c (dr main_arg23) := by symm; host_keep hostOps6_4
    _ = m ((c : Thread nD τ).loc main_arg23) := W25_main_arg23 m ρ c

/-! ## Intermediate results carried across segments

A result of a stretch of host operations, or of a region, that is consumed only later: between its producer and
its consumer no operation writes it again, and a region in between either does not have it among its arrays or
has it as an input window's array, which the region hands back as found. -/

/-- The projected features while the first edge list is sliced. -/
theorem v2_at3 (c : Dev nD) : W3 m ρ c (dr main_v2) = W2 m ρ c (dr main_v2) :=
  by host_keep hostOps1

/-- The projected features feed the first matmul (as its input window: handed back as found) and again the third: across the first two convolutions nothing rewrites them. -/
theorem v2_at11 (c : Dev nD) : W11 m ρ c (dr main_v2) = W2 m ρ c (dr main_v2) :=
  calc W11 m ρ c (dr main_v2)
    _ = W10 m ρ c (dr main_v2) := by host_keep hostOps3_2
    _ = W9 m ρ c (dr main_v2) := by host_keep hostOps3_1
    _ = W8 m ρ c (dr main_v2) := by host_keep hostOps3
    _ = W7 m ρ c (dr main_v2) := W8_of_ne m ρ c main_v2 (by decide)
    _ = W6 m ρ c (dr main_v2) := by host_keep hostOps2_2
    _ = W5 m ρ c (dr main_v2) := by host_keep hostOps2_1
    _ = W4 m ρ c (dr main_v2) := by host_keep hostOps2
    _ = W3 m ρ c (dr main_v2) := (W4_arr m ρ c 0).trans (((dat1 (V3 m ρ) c).arrAt_in 0 rfl _).trans (A_eq1 (V3 m ρ) c 0))
    _ = W2 m ρ c (dr main_v2) := by host_keep hostOps1

/-- The edge sources sliced from the first edge list are no array of the first matmul. -/
theorem v4_at4 (c : Dev nD) : W4 m ρ c (dr main_v4) = W3 m ρ c (dr main_v4) :=
  W4_of_ne m ρ c main_v4 (by decide)

/-- Nor are the edge targets. -/
theorem v6_at4 (c : Dev nD) : W4 m ρ c (dr main_v6) = W3 m ρ c (dr main_v6) :=
  W4_of_ne m ρ c main_v6 (by decide)

/-- The edge sources sliced for the second convolution are no array of the second matmul. -/
theorem v53_at8 (c : Dev nD) : W8 m ρ c (dr main_v53) = W7 m ρ c (dr main_v53) :=
  W8_of_ne m ρ c main_v53 (by decide)

/-- Nor are the edge targets. -/
theorem v55_at8 (c : Dev nD) : W8 m ρ c (dr main_v55) = W7 m ρ c (dr main_v55) :=
  W8_of_ne m ρ c main_v55 (by decide)

/-- The edge sources sliced from the second edge list are no array of the third matmul. -/
theorem v102_at12 (c : Dev nD) : W12 m ρ c (dr main_v102) = W11 m ρ c (dr main_v102) :=
  W12_of_ne m ρ c main_v102 (by decide)

/-- Nor are the edge targets. -/
theorem v104_at12 (c : Dev nD) : W12 m ρ c (dr main_v104) = W11 m ρ c (dr main_v104) :=
  W12_of_ne m ρ c main_v104 (by decide)

/-- The edge sources sliced for the fourth convolution are no array of the fourth matmul. -/
theorem v151_at16 (c : Dev nD) : W16 m ρ c (dr main_v151) = W15 m ρ c (dr main_v151) :=
  W16_of_ne m ρ c main_v151 (by decide)

/-- Nor are the edge targets. -/
theorem v153_at16 (c : Dev nD) : W16 m ρ c (dr main_v153) = W15 m ρ c (dr main_v153) :=
  W16_of_ne m ρ c main_v153 (by decide)

/-- The edge sources sliced for the fifth convolution are no array of the fifth matmul. -/
theorem v201_at20 (c : Dev nD) : W20 m ρ c (dr main_v201) = W19 m ρ c (dr main_v201) :=
  W20_of_ne m ρ c main_v201 (by decide)

/-- Nor are the edge targets. -/
theorem v203_at20 (c : Dev nD) : W20 m ρ c (dr main_v203) = W19 m ρ c (dr main_v203) :=
  W20_of_ne m ρ c main_v203 (by decide)

/-- The second convolution's rectified output is written by nothing in the third convolution nor by the fourth matmul; it is read only by the concatenation that follows. -/
theorem v100_at16 (c : Dev nD) : W16 m ρ c (dr main_v100) = W11 m ρ c (dr main_v100) :=
  calc W16 m ρ c (dr main_v100)
    _ = W15 m ρ c (dr main_v100) := W16_of_ne m ρ c main_v100 (by decide)
    _ = W14 m ρ c (dr main_v100) := by host_keep hostOps4_2
    _ = W13 m ρ c (dr main_v100) := by host_keep hostOps4_1
    _ = W12 m ρ c (dr main_v100) := by host_keep hostOps4
    _ = W11 m ρ c (dr main_v100) := W12_of_ne m ρ c main_v100 (by decide)

/-! ## A region's output and inputs at its boundaries

At a region's exit its output window's array holds the fold of the region's write-backs; at its entry an input
window's array is the named buffer as the previous segment left it. -/

/-- The projected features are what the feature projection's write-backs leave. -/
theorem v2_at2 (c : Dev nD) :
    W2 m ρ c (dr main_v2) = (dat0 (V1 m ρ) c).arrAt 5 cfg0.N :=
  W2_arr m ρ c 5

/-- The first matmul's product. -/
theorem v7_at4 (c : Dev nD) :
    W4 m ρ c (dr main_v7) = (dat1 (V3 m ρ) c).arrAt 2 cfg1.N :=
  W4_arr m ρ c 2

/-- The second matmul's product. -/
theorem v56_at8 (c : Dev nD) :
    W8 m ρ c (dr main_v56) = (dat2 (V7 m ρ) c).arrAt 2 cfg2.N :=
  W8_arr m ρ c 2

/-- The third matmul's product. -/
theorem v105_at12 (c : Dev nD) :
    W12 m ρ c (dr main_v105) = (dat3 (V11 m ρ) c).arrAt 2 cfg3.N :=
  W12_arr m ρ c 2

/-- The fourth matmul's product. -/
theorem v154_at16 (c : Dev nD) :
    W16 m ρ c (dr main_v154) = (dat4 (V15 m ρ) c).arrAt 2 cfg4.N :=
  W16_arr m ρ c 2

/-- The fifth matmul's product. -/
theorem v204_at20 (c : Dev nD) :
    W20 m ρ c (dr main_v204) = (dat5 (V19 m ρ) c).arrAt 2 cfg5.N :=
  W20_arr m ρ c 2

theorem reads0_0 (c : Dev nD) : V1 m ρ c (Pipeline.arrRef spec0 0) = W1 m ρ c (dr main_arg0) := rfl
theorem reads0_1 (c : Dev nD) : V1 m ρ c (Pipeline.arrRef spec0 1) = W1 m ρ c (dr main_arg4) := rfl
theorem reads0_2 (c : Dev nD) : V1 m ρ c (Pipeline.arrRef spec0 2) = W1 m ρ c (dr main_v0) := rfl
theorem reads0_3 (c : Dev nD) : V1 m ρ c (Pipeline.arrRef spec0 3) = W1 m ρ c (dr main_arg6) := rfl
theorem reads0_4 (c : Dev nD) : V1 m ρ c (Pipeline.arrRef spec0 4) = W1 m ρ c (dr main_v1) := rfl

theorem reads1_0 (c : Dev nD) : V3 m ρ c (Pipeline.arrRef spec1 0) = W3 m ρ c (dr main_v2) := rfl
theorem reads1_1 (c : Dev nD) : V3 m ρ c (Pipeline.arrRef spec1 1) = W3 m ρ c (dr main_arg8) := rfl

theorem reads2_0 (c : Dev nD) : V7 m ρ c (Pipeline.arrRef spec2 0) = W7 m ρ c (dr main_v51) := rfl
theorem reads2_1 (c : Dev nD) : V7 m ρ c (Pipeline.arrRef spec2 1) = W7 m ρ c (dr main_arg10) := rfl

theorem reads3_0 (c : Dev nD) : V11 m ρ c (Pipeline.arrRef spec3 0) = W11 m ρ c (dr main_v2) := rfl
theorem reads3_1 (c : Dev nD) : V11 m ρ c (Pipeline.arrRef spec3 1) = W11 m ρ c (dr main_arg12) := rfl

theorem reads4_0 (c : Dev nD) : V15 m ρ c (Pipeline.arrRef spec4 0) = W15 m ρ c (dr main_v149) := rfl
theorem reads4_1 (c : Dev nD) : V15 m ρ c (Pipeline.arrRef spec4 1) = W15 m ρ c (dr main_arg14) := rfl

theorem reads5_0 (c : Dev nD) : V19 m ρ c (Pipeline.arrRef spec5 0) = W19 m ρ c (dr main_v199) := rfl
theorem reads5_1 (c : Dev nD) : V19 m ρ c (Pipeline.arrRef spec5 1) = W19 m ρ c (dr main_arg16) := rfl

end Cert.KernelIdeal.Keep
-- ==== Proof.Feat.lean ====
import proofs.«133553_j23330262351943_2_alg».proof.Proof.Gen.KernelIdeal.Frame
import proofs.«133553_j23330262351943_2_alg».proof.Proof.RefReadP
import Idealize.ShloMosaic.Lib.Pipeline.Value
import Idealize.ShloMosaic.Lib.ValueIdx
import Idealize.ShloMosaic.PureOps.Ideal.Laws

/-! # The feature region: two rectified affine maps, side by side

The first region of the kernel walks the 30000 rows of the input 200 at a time. For each block of rows it multiplies
the first 21 columns by a 21 by 21 weight and the other 6464 columns by a 6464 by 128 weight (both into a zero
accumulator, so at the extended reals each product entry is a plain sum of products), adds the bias row of each,
cuts both off below at zero, and stores the two results side by side: 21 columns, then 128. The reference computes
the same two maps on the whole array and joins them along the columns. This module proves that after the region
has run the output array IS the reference's joined array, as a function of the arrays the region found: entry by
entry of a stored block, then block by block over the 150 grid points, whose row ranges cover the array. -/

noncomputable section

namespace Cert.KernelIdeal.RegionValue

open Cert.KernelIdeal Cert.KernelIdeal.Gen Idealize.ShloMosaic Idealize.ShloMosaic.ValueIdx

/-! ## The two products of the feature body, read at an index

Each matrix product of the body contracts the second axis of its left operand with the first axis of its right
operand into a zero accumulator; at the extended reals it is the plain sum of products over that one axis. -/

theorem matmul21_lhs0 (i : S200x21.Idx) (r : dot_S200x21_S21x21_S200x21_1_0_0_1_n_n.contr.Idx) : (dot_S200x21_S21x21_S200x21_1_0_0_1_n_n.lhsIdx i r 0).val = (i 0).val := by
  unfold DotDims.lhsIdx
  rw [dif_neg (show ¬(0 : Fin S200x21.rank) ∈ dot_S200x21_S21x21_S200x21_1_0_0_1_n_n.lhsBatch by decide), dif_pos (show (0 : Fin S200x21.rank) ∈ dot_S200x21_S21x21_S200x21_1_0_0_1_n_n.lhsNonContracting by decide)]
  rfl
theorem matmul21_rhs1 (i : S200x21.Idx) (r : dot_S200x21_S21x21_S200x21_1_0_0_1_n_n.contr.Idx) : (dot_S200x21_S21x21_S200x21_1_0_0_1_n_n.rhsIdx i r 1).val = (i 1).val := by
  unfold DotDims.rhsIdx
  rw [dif_neg (show ¬(1 : Fin S21x21.rank) ∈ dot_S200x21_S21x21_S200x21_1_0_0_1_n_n.rhsBatch by decide), dif_pos (show (1 : Fin S21x21.rank) ∈ dot_S200x21_S21x21_S200x21_1_0_0_1_n_n.rhsNonContracting by decide)]
  rfl

/-- Row p, column q of the narrow product ([200,21] by [21,21]) is the sum over k of left (p,k) times right (k,q). -/
theorem matmul21_apply (a : FVec Ideal S200x21 .bf16) (b : FVec Ideal S21x21 .bf16) (p : Fin 200) (q : Fin 21) :
    matmul dot_S200x21_S21x21_S200x21_1_0_0_1_n_n none a b (constant S200x21 .f32 0x00000000#32) (ix2 p q)
      = ∑ k : Fin 21, a (ix2 p k) * b (ix2 k q) := by
  simp only [matmul]
  rw [Ideal.matmul_constant_zero_apply, ← Equiv.sum_comp (contrEquiv1 dot_S200x21_S21x21_S200x21_1_0_0_1_n_n 21 rfl rfl).symm]
  refine Finset.sum_congr rfl fun k _ => ?_
  have hk := contrEquiv1_symm_val dot_S200x21_S21x21_S200x21_1_0_0_1_n_n 21 rfl rfl k
  have el : dot_S200x21_S21x21_S200x21_1_0_0_1_n_n.lhsIdx (ix2 p q) ((contrEquiv1 dot_S200x21_S21x21_S200x21_1_0_0_1_n_n 21 rfl rfl).symm k) = ix2 p k :=
    funext fun d => Fin.ext (by
      match d with
      | ⟨0, _⟩ => exact matmul21_lhs0 _ _
      | ⟨1, _⟩ => exact (dot_S200x21_S21x21_S200x21_1_0_0_1_n_n.lhsIdx_val_of_single rfl (ix2 p q) _).trans hk)
  have er : dot_S200x21_S21x21_S200x21_1_0_0_1_n_n.rhsIdx (ix2 p q) ((contrEquiv1 dot_S200x21_S21x21_S200x21_1_0_0_1_n_n 21 rfl rfl).symm k) = ix2 k q :=
    funext fun d => Fin.ext (by
      match d with
      | ⟨0, _⟩ => exact (dot_S200x21_S21x21_S200x21_1_0_0_1_n_n.rhsIdx_val_of_single rfl (ix2 p q) _).trans hk
      | ⟨1, _⟩ => exact matmul21_rhs1 _ _)
  rw [el, er]

theorem matmul6464_lhs0 (i : S200x128.Idx) (r : dot_S200x6464_S6464x128_S200x128_1_0_0_1_n_n.contr.Idx) : (dot_S200x6464_S6464x128_S200x128_1_0_0_1_n_n.lhsIdx i r 0).val = (i 0).val := by
  unfold DotDims.lhsIdx
  rw [dif_neg (show ¬(0 : Fin S200x6464.rank) ∈ dot_S200x6464_S6464x128_S200x128_1_0_0_1_n_n.lhsBatch by decide), dif_pos (show (0 : Fin S200x6464.rank) ∈ dot_S200x6464_S6464x128_S200x128_1_0_0_1_n_n.lhsNonContracting by decide)]
  rfl
theorem matmul6464_rhs1 (i : S200x128.Idx) (r : dot_S200x6464_S6464x128_S200x128_1_0_0_1_n_n.contr.Idx) : (dot_S200x6464_S6464x128_S200x128_1_0_0_1_n_n.rhsIdx i r 1).val = (i 1).val := by
  unfold DotDims.rhsIdx
  rw [dif_neg (show ¬(1 : Fin S6464x128.rank) ∈ dot_S200x6464_S6464x128_S200x128_1_0_0_1_n_n.rhsBatch by decide), dif_pos (show (1 : Fin S6464x128.rank) ∈ dot_S200x6464_S6464x128_S200x128_1_0_0_1_n_n.rhsNonContracting by decide)]
  rfl

/-- Row p, column q of the wide product ([200,6464] by [6464,128]) is the sum over k of left (p,k) times right (k,q). -/
theorem matmul6464_apply (a : FVec Ideal S200x6464 .bf16) (b : FVec Ideal S6464x128 .bf16) (p : Fin 200) (q : Fin 128) :
    matmul dot_S200x6464_S6464x128_S200x128_1_0_0_1_n_n none a b (constant S200x128 .f32 0x00000000#32) (ix2 p q)
      = ∑ k : Fin 6464, a (ix2 p k) * b (ix2 k q) := by
  simp only [matmul]
  rw [Ideal.matmul_constant_zero_apply, ← Equiv.sum_comp (contrEquiv1 dot_S200x6464_S6464x128_S200x128_1_0_0_1_n_n 6464 rfl rfl).symm]
  refine Finset.sum_congr rfl fun k _ => ?_
  have hk := contrEquiv1_symm_val dot_S200x6464_S6464x128_S200x128_1_0_0_1_n_n 6464 rfl rfl k
  have el : dot_S200x6464_S6464x128_S200x128_1_0_0_1_n_n.lhsIdx (ix2 p q) ((contrEquiv1 dot_S200x6464_S6464x128_S200x128_1_0_0_1_n_n 6464 rfl rfl).symm k) = ix2 p k :=
    funext fun d => Fin.ext (by
      match d with
      | ⟨0, _⟩ => exact matmul6464_lhs0 _ _
      | ⟨1, _⟩ => exact (dot_S200x6464_S6464x128_S200x128_1_0_0_1_n_n.lhsIdx_val_of_single rfl (ix2 p q) _).trans hk)
  have er : dot_S200x6464_S6464x128_S200x128_1_0_0_1_n_n.rhsIdx (ix2 p q) ((contrEquiv1 dot_S200x6464_S6464x128_S200x128_1_0_0_1_n_n 6464 rfl rfl).symm k) = ix2 k q :=
    funext fun d => Fin.ext (by
      match d with
      | ⟨0, _⟩ => exact (dot_S200x6464_S6464x128_S200x128_1_0_0_1_n_n.rhsIdx_val_of_single rfl (ix2 p q) _).trans hk
      | ⟨1, _⟩ => exact matmul6464_rhs1 _ _)
  rw [el, er]

/-! ## The bias rows, broadcast over the rows of the block -/

/-- The [1,21] bias row broadcast to [200,21] reads, in every row, the bias at the column. -/
theorem biasRow21_apply (c2 : Vec Ideal S1x21 .f32) (p : Fin 200) (q : Fin 21) :
    broadcastTo S200x21 (shapeCast S1x21 c2 shapeCasts_S1x21_S1x21) broadcasts_S1x21_S200x21 (ix2 p q) = c2 (ix2 (0 : Fin 1) q) := by
  rw [shapeCast_self]
  exact broadcastTo_apply c2 broadcasts_S1x21_S200x21 (ix2 p q) (ix2 (0 : Fin 1) q) (fun d => match d with
    | ⟨0, _⟩ => by show 0 = if (1 : Nat) = 1 then 0 else _; rw [if_pos rfl]
    | ⟨1, _⟩ => by show q.val = if (21 : Nat) = 1 then 0 else q.val; rw [if_neg (by decide)])

/-- The [1,128] bias row broadcast to [200,128] reads, in every row, the bias at the column. -/
theorem biasRow128_apply (c1 : Vec Ideal S1x128 .f32) (p : Fin 200) (q : Fin 128) :
    broadcastTo S200x128 (shapeCast S1x128 c1 shapeCasts_S1x128_S1x128) broadcasts_S1x128_S200x128 (ix2 p q) = c1 (ix2 (0 : Fin 1) q) := by
  rw [shapeCast_self]
  exact broadcastTo_apply c1 broadcasts_S1x128_S200x128 (ix2 p q) (ix2 (0 : Fin 1) q) (fun d => match d with
    | ⟨0, _⟩ => by show 0 = if (1 : Nat) = 1 then 0 else _; rw [if_pos rfl]
    | ⟨1, _⟩ => by show q.val = if (128 : Nat) = 1 then 0 else q.val; rw [if_neg (by decide)])

/-! ## The two column slices of the block -/

/-- Columns 0..20 of the block. -/
theorem sliceLow_apply (x : Vec Ideal S200x6485 .f32) (p : Fin 200) (k : Fin 21) :
    extractStridedSlice S200x21 ![0, 0] x slices_S200x6485_o0_0_S200x21 (ix2 p k) = x (ix2 p (⟨k.val, by have := k.isLt; omega⟩ : Fin 6485)) :=
  extractStridedSlice_apply ![0, 0] x slices_S200x6485_o0_0_S200x21 (ix2 p k) _ (fun d => match d with
    | ⟨0, _⟩ => by show p.val = 0 + p.val; omega
    | ⟨1, _⟩ => by show k.val = 0 + k.val; omega)

/-- Columns 21..6484 of the block. -/
theorem sliceHigh_apply (x : Vec Ideal S200x6485 .f32) (p : Fin 200) (k : Fin 6464) :
    extractStridedSlice S200x6464 ![0, 21] x slices_S200x6485_o0_21_S200x6464 (ix2 p k) = x (ix2 p (⟨21 + k.val, by have := k.isLt; omega⟩ : Fin 6485)) :=
  extractStridedSlice_apply ![0, 21] x slices_S200x6485_o0_21_S200x6464 (ix2 p k) _ (fun d => match d with
    | ⟨0, _⟩ => by show p.val = 0 + p.val; omega
    | ⟨1, _⟩ => by show 21 + k.val = 21 + k.val; omega)

/-! ## The stored block at a row and a column

The body stores the two rectified affine maps side by side: columns 0..20 hold the narrow one (the first 21
columns of the block times the 21 by 21 weight, plus its bias row), columns 21..148 the wide one (the other 6464
columns times the 6464 by 128 weight, plus its bias row); each is then cut off below at the zero word. -/

/-- A column below 21 of the stored block. -/
theorem pay_low (x : Vec Ideal S200x6485 .f32) (W1 : Vec Ideal S6464x128 .f32) (W2 : Vec Ideal S21x21 .f32)
    (c1 : Vec Ideal S1x128 .f32) (c2 : Vec Ideal S1x21 .f32) (p : Fin 200) (q : Fin 149) (hq : q.val < 21) :
    k0_pay1 x W1 W2 c1 c2 (ix2 p q)
      = max ((∑ k : Fin 21, x (ix2 p (⟨k.val, by have := k.isLt; omega⟩ : Fin 6485)) * W2 (ix2 k (⟨q.val, hq⟩ : Fin 21)))
              + c2 (ix2 (0 : Fin 1) (⟨q.val, hq⟩ : Fin 21))) (Ideal.ofBits .f32 0x00000000#32) := by
  unfold k0_pay1
  refine (concatenate_pair_apply_left (1 : Fin S200x149.rank) _ _ concatenates_S200x21_S200x128_S200x149_d1 (ix2 p q) rfl
    (ix2 p (⟨q.val, hq⟩ : Fin 21)) (fun b => match b with | ⟨0, _⟩ => rfl | ⟨1, _⟩ => rfl)).trans ?_
  refine congrArg₂ max (congrArg₂ (· + ·) ((matmul21_apply _ _ p ⟨q.val, hq⟩).trans ?_) (biasRow21_apply c2 p ⟨q.val, hq⟩)) rfl
  exact Finset.sum_congr rfl fun k _ => congrArg₂ (· * ·) (sliceLow_apply x p k) rfl

/-- A column from 21 on of the stored block. -/
theorem pay_high (x : Vec Ideal S200x6485 .f32) (W1 : Vec Ideal S6464x128 .f32) (W2 : Vec Ideal S21x21 .f32)
    (c1 : Vec Ideal S1x128 .f32) (c2 : Vec Ideal S1x21 .f32) (p : Fin 200) (q : Fin 149) (hq : 21 ≤ q.val) :
    k0_pay1 x W1 W2 c1 c2 (ix2 p q)
      = max ((∑ k : Fin 6464, x (ix2 p (⟨21 + k.val, by have := k.isLt; omega⟩ : Fin 6485)) * W1 (ix2 k (⟨q.val - 21, by have := q.isLt; omega⟩ : Fin 128)))
              + c1 (ix2 (0 : Fin 1) (⟨q.val - 21, by have := q.isLt; omega⟩ : Fin 128))) (Ideal.ofBits .f32 0x00000000#32) := by
  unfold k0_pay1
  refine (concatenate_pair_apply_right (1 : Fin S200x149.rank) _ _ concatenates_S200x21_S200x128_S200x149_d1 (ix2 p q) rfl rfl
    (ix2 p (⟨q.val - 21, by have := q.isLt; omega⟩ : Fin 128)) (fun b hb => match b, hb with | ⟨0, _⟩, _ => rfl | ⟨1, _⟩, hb => absurd rfl hb)
    (by show (q.val - 21) + 21 = q.val; omega)).trans ?_
  refine congrArg₂ max (congrArg₂ (· + ·) ((matmul6464_apply _ _ p ⟨q.val - 21, by have := q.isLt; omega⟩).trans ?_) (biasRow128_apply c1 p ⟨q.val - 21, by have := q.isLt; omega⟩)) rfl
  exact Finset.sum_congr rfl fun k _ => congrArg₂ (· * ·) (sliceHigh_apply x p k) rfl

end Cert.KernelIdeal.RegionValue

namespace Cert.ReferenceIdeal.FeatureValue

open Cert.ReferenceIdeal Cert.ReferenceIdeal.Gen Cert.ReferenceIdeal.ReadP Idealize.ShloMosaic Idealize.ShloMosaic.ValueIdx

/-! ## The reference's feature projection at a row and a column

The reference joins, along the columns, the rectified narrow map of the first 21 input columns and the rectified
wide map of the other 6464; an entry of the joined array comes from the first piece when its column is below 21
and from the second piece, 21 columns to the left, otherwise. -/

/-- A column below 21: the narrow affine map of the row, cut off below at the zero word. -/
theorem ref_low (X : (⟨S30000x6485, .f32⟩ : BufTy).Contents (Elt Ideal)) (W1 : (⟨S6464x128, .f32⟩ : BufTy).Contents (Elt Ideal))
    (b1 : (⟨S128, .f32⟩ : BufTy).Contents (Elt Ideal)) (W2 : (⟨S21x21, .f32⟩ : BufTy).Contents (Elt Ideal))
    (b2 : (⟨S21, .f32⟩ : BufTy).Contents (Elt Ideal)) (r : Fin 30000) (q : Fin 149) (hq : q.val < 21) :
    val_main_v12 (F := Ideal) X W1 b1 W2 b2 (ix2 r q)
      = max ((∑ k : Fin 21, X (ix2 r (⟨k.val, by have := k.isLt; omega⟩ : Fin 6485)) * W2 (ix2 k (⟨q.val, hq⟩ : Fin 21)))
              + b2 (ix1 (⟨q.val, hq⟩ : Fin 21))) (Ideal.ofBits .f32 0x00000000#32) := by
  unfold val_main_v12
  refine (concatenate_pair_apply_left (1 : Fin S30000x149.rank) _ _ concatenates_S30000x21_S30000x128_S30000x149_d1 (ix2 r q) rfl
    (ix2 r (⟨q.val, hq⟩ : Fin 21)) (fun b => match b with | ⟨0, _⟩ => rfl | ⟨1, _⟩ => rfl)).trans ?_
  rw [val_main_v11_apply, val_main_v10_apply, val_main_v7_apply, val_main_v9_apply, val_main_v8_apply,
    val_main_call1_v0_apply, val_main_call1_cst_apply]
  refine congrArg₂ max (congrArg₂ (· + ·) (Finset.sum_congr rfl fun k _ => ?_) ?_) rfl
  · rw [val_main_v6_apply]
    exact congrArg₂ (· * ·)
      (congrArg X (funext fun a => Fin.ext (by match a with | ⟨0, _⟩ => rfl | ⟨1, _⟩ => rfl)))
      (congrArg W2 (funext fun a => Fin.ext (by match a with | ⟨0, _⟩ => rfl | ⟨1, _⟩ => rfl)))
  · exact congrArg b2 (funext fun a => Fin.ext (by match a with | ⟨0, _⟩ => rfl))

/-- A column from 21 on: the wide affine map of the row, cut off below at the zero word. -/
theorem ref_high (X : (⟨S30000x6485, .f32⟩ : BufTy).Contents (Elt Ideal)) (W1 : (⟨S6464x128, .f32⟩ : BufTy).Contents (Elt Ideal))
    (b1 : (⟨S128, .f32⟩ : BufTy).Contents (Elt Ideal)) (W2 : (⟨S21x21, .f32⟩ : BufTy).Contents (Elt Ideal))
    (b2 : (⟨S21, .f32⟩ : BufTy).Contents (Elt Ideal)) (r : Fin 30000) (q : Fin 149) (hq : 21 ≤ q.val) :
    val_main_v12 (F := Ideal) X W1 b1 W2 b2 (ix2 r q)
      = max ((∑ k : Fin 6464, X (ix2 r (⟨21 + k.val, by have := k.isLt; omega⟩ : Fin 6485)) * W1 (ix2 k (⟨q.val - 21, by have := q.isLt; omega⟩ : Fin 128)))
              + b1 (ix1 (⟨q.val - 21, by have := q.isLt; omega⟩ : Fin 128))) (Ideal.ofBits .f32 0x00000000#32) := by
  unfold val_main_v12
  refine (concatenate_pair_apply_right (1 : Fin S30000x149.rank) _ _ concatenates_S30000x21_S30000x128_S30000x149_d1 (ix2 r q) rfl rfl
    (ix2 r (⟨q.val - 21, by have := q.isLt; omega⟩ : Fin 128)) (fun b hb => match b, hb with | ⟨0, _⟩, _ => rfl | ⟨1, _⟩, hb => absurd rfl hb)
    (by show (q.val - 21) + 21 = q.val; omega)).trans ?_
  rw [val_main_v5_apply, val_main_v4_apply, val_main_v1_apply, val_main_v3_apply, val_main_v2_apply,
    val_main_call0_v0_apply, val_main_call0_cst_apply]
  refine congrArg₂ max (congrArg₂ (· + ·) (Finset.sum_congr rfl fun k _ => ?_) ?_) rfl
  · rw [val_main_v0_apply]
    exact congrArg₂ (· * ·)
      (congrArg X (funext fun a => Fin.ext (by match a with | ⟨0, _⟩ => rfl | ⟨1, _⟩ => rfl)))
      (congrArg W1 (funext fun a => Fin.ext (by match a with | ⟨0, _⟩ => rfl | ⟨1, _⟩ => rfl)))
  · exact congrArg b1 (funext fun a => Fin.ext (by match a with | ⟨0, _⟩ => rfl))

end Cert.ReferenceIdeal.FeatureValue

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

/-! ## A stored entry is the reference's entry

At row p of the block and any column, the body's stored value is the reference's feature array at the array row
the block row stands for, as soon as the block row is that array row, the weights are the reference's weights, and
the one-row biases read the reference's bias vectors. -/

theorem block_eq (X : (⟨Cert.ReferenceIdeal.S30000x6485, .f32⟩ : BufTy).Contents (Elt Ideal)) (W1 : (⟨Cert.ReferenceIdeal.S6464x128, .f32⟩ : BufTy).Contents (Elt Ideal))
    (b1 : (⟨Cert.ReferenceIdeal.S128, .f32⟩ : BufTy).Contents (Elt Ideal)) (W2 : (⟨Cert.ReferenceIdeal.S21x21, .f32⟩ : BufTy).Contents (Elt Ideal))
    (b2 : (⟨Cert.ReferenceIdeal.S21, .f32⟩ : BufTy).Contents (Elt Ideal))
    (x : Vec Ideal S200x6485 .f32) (w1 : Vec Ideal S6464x128 .f32) (w2 : Vec Ideal S21x21 .f32) (c1 : Vec Ideal S1x128 .f32) (c2 : Vec Ideal S1x21 .f32)
    (p : Fin 200) (q : Fin 149) (r : Fin 30000)
    (hx : ∀ k : Fin 6485, x (ix2 p k) = X (ix2 r k))
    (hw1 : ∀ (k : Fin 6464) (j : Fin 128), w1 (ix2 k j) = W1 (ix2 k j))
    (hw2 : ∀ (k : Fin 21) (j : Fin 21), w2 (ix2 k j) = W2 (ix2 k j))
    (hc1 : ∀ j : Fin 128, c1 (ix2 (0 : Fin 1) j) = b1 (ix1 j))
    (hc2 : ∀ j : Fin 21, c2 (ix2 (0 : Fin 1) j) = b2 (ix1 j)) :
    k0_pay1 x w1 w2 c1 c2 (ix2 p q) = Cert.ReferenceIdeal.ReadP.val_main_v12 (F := Ideal) X W1 b1 W2 b2 (ix2 r q) := by
  by_cases hq : q.val < 21
  · rw [pay_low x w1 w2 c1 c2 p q hq, Cert.ReferenceIdeal.FeatureValue.ref_low X W1 b1 W2 b2 r q hq]
    exact congrArg₂ max (congrArg₂ (· + ·) (Finset.sum_congr rfl fun k _ => congrArg₂ (· * ·) (hx _) (hw2 _ _)) (hc2 _)) rfl
  · have hq' : 21 ≤ q.val := Nat.le_of_not_lt hq
    rw [pay_high x w1 w2 c1 c2 p q hq', Cert.ReferenceIdeal.FeatureValue.ref_high X W1 b1 W2 b2 r q hq']
    exact congrArg₂ max (congrArg₂ (· + ·) (Finset.sum_congr rfl fun k _ => congrArg₂ (· * ·) (hx _) (hw1 _ _)) (hc1 _)) rfl

/-! ## Where the blocks of the six windows sit

The grid has 150 points. At point t the input block is rows 200 t .. 200 t + 199 of the input array (all 6485
columns) and the output block is the same rows of the output array (all 149 columns); the two weights and the two
bias rows are whole at every point. -/

theorem zeroOffsets : (![0, 0] : Fin 2 → Nat) = fun _ => 0 := funext fun a => by fin_cases a <;> rfl

/-- The block indices of the six windows, decided over the 150 points. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b)) (c : Dev nD)

/-- Row p of the input block at point t is row 200 t + p of the input array. -/
theorem inputBlock_apply (t : Fin cfg0.N) (p : Fin 200) (k : Fin 6485) (i : S30000x6485.Idx)
    (hi0 : (i 0).val = 200 * t.val + p.val) (hi1 : (i 1).val = k.val) :
    (iblk0 V c 0 t : Vec Ideal S200x6485 .f32) (ix2 p k) = (V c (Pipeline.arrRef spec0 0) : S30000x6485.Idx → EReal) i := by
  obtain ⟨e0, e1, -⟩ := blockIndex t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 200 + 1 * p.val = (i 0).val; rw [e0, hi0]; omega
  | ⟨1, _⟩ => show win0_0.index t (1 : Fin 2) * 6485 + 1 * k.val = (i 1).val; rw [e1, hi1]; omega

/-- The wide weight's block is the whole weight at every point. -/
theorem wideWeight_apply (t : Fin cfg0.N) (k : Fin 6464) (j : Fin 128) :
    (iblk0 V c 1 t : Vec Ideal S6464x128 .f32) (ix2 k j) = (V c (Pipeline.arrRef spec0 1) : S6464x128.Idx → EReal) (ix2 k j) := by
  obtain ⟨-, -, e0, e1, -⟩ := blockIndex t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 6464 + 1 * k.val = k.val; rw [e0]; omega
  | ⟨1, _⟩ => show win0_1.index t (1 : Fin 2) * 128 + 1 * j.val = j.val; rw [e1]; omega

/-- The wide bias row's block is the whole row at every point. -/
theorem wideBias_apply (t : Fin cfg0.N) (j : Fin 128) :
    (iblk0 V c 2 t : Vec Ideal S1x128 .f32) (ix2 (0 : Fin 1) j) = (V c (Pipeline.arrRef spec0 2) : S1x128.Idx → EReal) (ix2 (0 : Fin 1) j) := by
  obtain ⟨-, -, -, -, e0, e1, -⟩ := blockIndex t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * 0 = 0; rw [e0]
  | ⟨1, _⟩ => show win0_2.index t (1 : Fin 2) * 128 + 1 * j.val = j.val; rw [e1]; omega

/-- The narrow weight's block is the whole weight at every point. -/
theorem narrowWeight_apply (t : Fin cfg0.N) (k : Fin 21) (j : Fin 21) :
    (iblk0 V c 3 t : Vec Ideal S21x21 .f32) (ix2 k j) = (V c (Pipeline.arrRef spec0 3) : S21x21.Idx → EReal) (ix2 k j) := by
  obtain ⟨-, -, -, -, -, -, e0, e1, -⟩ := blockIndex t
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 21 + 1 * k.val = k.val; rw [e0]; omega
  | ⟨1, _⟩ => show win0_3.index t (1 : Fin 2) * 21 + 1 * j.val = j.val; rw [e1]; omega

/-- The narrow bias row's block is the whole row at every point. -/
theorem narrowBias_apply (t : Fin cfg0.N) (j : Fin 21) :
    (iblk0 V c 4 t : Vec Ideal S1x21 .f32) (ix2 (0 : Fin 1) j) = (V c (Pipeline.arrRef spec0 4) : S1x21.Idx → EReal) (ix2 (0 : Fin 1) j) := by
  obtain ⟨-, -, -, -, -, -, -, -, e0, e1, -⟩ := blockIndex t
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 1 + 1 * 0 = 0; rw [e0]
  | ⟨1, _⟩ => show win0_4.index t (1 : Fin 2) * 21 + 1 * j.val = j.val; rw [e1]; omega

/-- A bias vector recast as a one-row array reads, at column j of its row, the vector at j. -/
theorem biasRecast128_apply (b1 : (⟨Cert.ReferenceIdeal.S128, .f32⟩ : BufTy).Contents (Elt Ideal)) (j : Fin 128) :
    shapeCast S1x128 b1 shapeCasts_S128_S1x128 (ix2 (0 : Fin 1) j) = b1 (ix1 j) :=
  shapeCast_apply b1 shapeCasts_S128_S1x128 (ix2 (0 : Fin 1) j) (ix1 j) (by
    rw [Shape.rowMajor_val_one, Shape.rowMajor_val_two]; show j.val = 0 * 128 + j.val; omega)

theorem biasRecast21_apply (b2 : (⟨Cert.ReferenceIdeal.S21, .f32⟩ : BufTy).Contents (Elt Ideal)) (j : Fin 21) :
    shapeCast S1x21 b2 shapeCasts_S21_S1x21 (ix2 (0 : Fin 1) j) = b2 (ix1 j) :=
  shapeCast_apply b2 shapeCasts_S21_S1x21 (ix2 (0 : Fin 1) j) (ix1 j) (by
    rw [Shape.rowMajor_val_one, Shape.rowMajor_val_two]; show j.val = 0 * 21 + j.val; omega)

/-- What point t writes back is block t of the reference's feature array. -/
theorem flushed_eq (b1 : (⟨Cert.ReferenceIdeal.S128, .f32⟩ : BufTy).Contents (Elt Ideal)) (b2 : (⟨Cert.ReferenceIdeal.S21, .f32⟩ : BufTy).Contents (Elt Ideal))
    (h2 : V c (Pipeline.arrRef spec0 2) = shapeCast _ b1 shapeCasts_S128_S1x128)
    (h4 : V c (Pipeline.arrRef spec0 4) = shapeCast _ b2 shapeCasts_S21_S1x21) (t : Fin cfg0.N) :
    (dat0 V c).flushed 5 t = ((cfg0.win 5).blk t).view.read (Elt Ideal)
      (Cert.ReferenceIdeal.ReadP.val_main_v12 (F := Ideal) (V c (Pipeline.arrRef spec0 0)) (V c (Pipeline.arrRef spec0 1)) b1 (V c (Pipeline.arrRef spec0 3)) b2) := by
  show (cfg0.win 5).cut (grid0.coords t) ((dat0 V c).after 5 t) = _
  rw [after0_5]
  unfold out0_5
  rw [View.canon_unit_zero zeroOffsets]
  simp only [View.ld_unit_zero (S := S200x6485) zeroOffsets, View.ld_unit_zero (S := S6464x128) zeroOffsets,
    View.ld_unit_zero (S := S21x21) zeroOffsets, View.ld_unit_zero (S := S1x128) zeroOffsets, View.ld_unit_zero (S := S1x21) zeroOffsets]
  funext j
  obtain ⟨p, q, rfl⟩ : ∃ (p : Fin 200) (q : Fin 149), j = ix2 p q := ⟨j 0, j 1, eq_ix2 j⟩
  obtain ⟨-, -, -, -, -, -, -, -, -, -, e0, e1⟩ := blockIndex t
  have ht : t.val < 150 := lt_of_lt_of_eq t.isLt N_0
  show k0_pay1 (iblk0 V c 0 t) (iblk0 V c 1 t) (iblk0 V c 3 t) (iblk0 V c 2 t) (iblk0 V c 4 t) (ix2 p q) = _
  rw [View.read_apply]
  refine (block_eq (V c (Pipeline.arrRef spec0 0)) (V c (Pipeline.arrRef spec0 1)) b1 (V c (Pipeline.arrRef spec0 3)) b2
    (iblk0 V c 0 t) (iblk0 V c 1 t) (iblk0 V c 3 t) (iblk0 V c 2 t) (iblk0 V c 4 t) p q ⟨200 * t.val + p.val, by omega⟩
    (fun k => inputBlock_apply V c t p k (ix2 (⟨200 * t.val + p.val, by omega⟩ : Fin 30000) k) rfl rfl)
    (fun k j => wideWeight_apply V c t k j)
    (fun k j => narrowWeight_apply V c t k j)
    (fun j => (wideBias_apply V c t j).trans ((congrFun h2 _).trans (biasRecast128_apply b1 j)))
    (fun j => (narrowBias_apply V c t j).trans ((congrFun h4 _).trans (biasRecast21_apply b2 j)))).trans ?_
  show Cert.ReferenceIdeal.ReadP.val_main_v12 (F := Ideal) _ _ _ _ _ _ = Cert.ReferenceIdeal.ReadP.val_main_v12 (F := Ideal) _ _ _ _ _ _
  congr 1
  funext a
  apply Fin.ext
  match a with
  | ⟨0, _⟩ => show 200 * t.val + p.val = win0_5.index t (0 : Fin 2) * 200 + 1 * p.val; rw [e0]; omega
  | ⟨1, _⟩ => show q.val = win0_5.index t (1 : Fin 2) * 149 + 1 * q.val; rw [e1]; omega

/-- An index of the output array is in point t's block iff each coordinate is in the block's range on its axis. -/
theorem mem_block (t : Fin cfg0.N) (i : S30000x149.Idx) :
    i ∈ ((cfg0.win 5).blk t).view.set ↔ ∀ a : Fin 2, win0_5.index t a * S200x149.size a ≤ (i a).val ∧ (i a).val < win0_5.index t a * S200x149.size a + S200x149.size a := by
  show i ∈ ((View.whole main_v2).slice (win0_5.rect t)).set ↔ _
  rw [View.set_slice_whole, Rect.mem_set_unit]
  exact Iff.rfl

/-- THE FEATURE REGION: after its run the output array is the reference's feature array (the two rectified
    affine maps side by side) of the arrays the region found, the two bias rows being the bias vectors recast. -/
theorem feat (b1 : (⟨Cert.ReferenceIdeal.S128, .f32⟩ : BufTy).Contents (Elt Ideal)) (b2 : (⟨Cert.ReferenceIdeal.S21, .f32⟩ : BufTy).Contents (Elt Ideal))
    (h2 : V c (Pipeline.arrRef spec0 2) = shapeCast _ b1 shapeCasts_S128_S1x128)
    (h4 : V c (Pipeline.arrRef spec0 4) = shapeCast _ b2 shapeCasts_S21_S1x21) :
    (Cert.KernelIdeal.Gen.dat0 V c).arrAt 5 cfg0.N
      = Cert.ReferenceIdeal.ReadP.val_main_v12 (V c (Pipeline.arrRef spec0 0)) (V c (Pipeline.arrRef spec0 1)) b1 (V c (Pipeline.arrRef spec0 3)) b2 :=
  (dat0 V c).arrAt_eq_of_cover 5 _ (fun t _ => flushed_eq V c b1 b2 h2 h4 t) (fun i => by
    have hi0 : (i 0).val < 30000 := (i 0).isLt
    have hi1 : (i 1).val < 149 := (i 1).isLt
    have hN : cfg0.N = 150 := N_0
    have hlt : (i 0).val / 200 < cfg0.N := by rw [hN]; omega
    obtain ⟨-, -, -, -, -, -, -, -, -, -, e0, e1⟩ := blockIndex ⟨(i 0).val / 200, hlt⟩
    have e0' : win0_5.index ⟨(i 0).val / 200, hlt⟩ (0 : Fin 2) = (i 0).val / 200 := e0
    refine ⟨⟨(i 0).val / 200, hlt⟩, flush0_5 _, ?_⟩
    rw [mem_block]
    intro a
    match a with
    | ⟨0, _⟩ =>
      show win0_5.index ⟨(i 0).val / 200, hlt⟩ (0 : Fin 2) * 200 ≤ (i 0).val ∧ (i 0).val < win0_5.index ⟨(i 0).val / 200, hlt⟩ (0 : Fin 2) * 200 + 200
      rw [e0']; omega
    | ⟨1, _⟩ =>
      show win0_5.index ⟨(i 0).val / 200, hlt⟩ (1 : Fin 2) * 149 ≤ (i 1).val ∧ (i 1).val < win0_5.index ⟨(i 0).val / 200, hlt⟩ (1 : Fin 2) * 149 + 149
      rw [e1]; omega)

end Blocks

end Cert.KernelIdeal.RegionValue

end
-- ==== Proof.Dense1.lean ====
/- Region 1 of the kernel program is a row-blocked matrix product h = x · w: x is a 30000 × 149 array, w a 149 × 149
   array, and grid point t (of 25) multiplies rows 1200·t … 1200·t + 1199 of x by the whole of w and writes the result to
   the same rows of the 30000 × 149 output. On the extended reals the change of float format applied to both operands
   is the identity and a product accumulated into the zero splat is the plain sum over the contracted axis, so each
   output entry (r, q) is ∑ k, x (r, k) · w (k, q) whatever block r falls in; the 25 row blocks cover every row, so the
   output array after the region is that function everywhere — which is what the host's dot_general of x and w is,
   read entry by entry. -/
import proofs.«133553_j23330262351943_2_alg».proof.Proof.Gen.KernelIdeal.Frame
import proofs.«133553_j23330262351943_2_alg».proof.ReferenceIdeal
import proofs.«133553_j23330262351943_2_alg».proof.Proof.Gen.ReferenceIdeal
import Idealize.ShloMosaic.PureOps.Ideal.Laws
import Idealize.ShloMosaic.Lib.ValueIdx
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)
open scoped BigOperators

/-! ## One block: entry (p, q) of the block product

The operand indices of the block's product, axis by axis: the left operand's row is the output's row, the right
operand's column is the output's column, and the two contracted axes carry the contraction position. -/

theorem blockLhsRow1 (i : S1200x149.Idx) (z : dot_S1200x149_S149x149_S1200x149_1_0_0_1_n_n.contr.Idx) :
    (dot_S1200x149_S149x149_S1200x149_1_0_0_1_n_n.lhsIdx i z 0).val = (i 0).val := by
  unfold DotDims.lhsIdx
  rw [dif_neg (show ¬(0 : Fin S1200x149.rank) ∈ dot_S1200x149_S149x149_S1200x149_1_0_0_1_n_n.lhsBatch by decide),
    dif_pos (show (0 : Fin S1200x149.rank) ∈ dot_S1200x149_S149x149_S1200x149_1_0_0_1_n_n.lhsNonContracting by decide)]
  rfl

theorem blockLhsCol1 (i : S1200x149.Idx) (z : dot_S1200x149_S149x149_S1200x149_1_0_0_1_n_n.contr.Idx) :
    (dot_S1200x149_S149x149_S1200x149_1_0_0_1_n_n.lhsIdx i z 1).val = (z ⟨0, by decide⟩).val :=
  dot_S1200x149_S149x149_S1200x149_1_0_0_1_n_n.lhsIdx_val_of_single rfl i z

theorem blockRhsRow1 (i : S1200x149.Idx) (z : dot_S1200x149_S149x149_S1200x149_1_0_0_1_n_n.contr.Idx) :
    (dot_S1200x149_S149x149_S1200x149_1_0_0_1_n_n.rhsIdx i z 0).val = (z ⟨0, by decide⟩).val :=
  dot_S1200x149_S149x149_S1200x149_1_0_0_1_n_n.rhsIdx_val_of_single rfl i z

theorem blockRhsCol1 (i : S1200x149.Idx) (z : dot_S1200x149_S149x149_S1200x149_1_0_0_1_n_n.contr.Idx) :
    (dot_S1200x149_S149x149_S1200x149_1_0_0_1_n_n.rhsIdx i z 1).val = (i 1).val := by
  unfold DotDims.rhsIdx
  rw [dif_neg (show ¬(1 : Fin S149x149.rank) ∈ dot_S1200x149_S149x149_S1200x149_1_0_0_1_n_n.rhsBatch by decide),
    dif_pos (show (1 : Fin S149x149.rank) ∈ dot_S1200x149_S149x149_S1200x149_1_0_0_1_n_n.rhsNonContracting by decide)]
  rfl

/-- One block's result: entry (p, q) is the sum over k of x (p, k) · w (k, q). The cast to the same shape and the change
    of format are the identity on extended reals, and the accumulator is the zero splat. -/
theorem blockProduct1 (x : Vec Ideal S1200x149 .f32) (w : Vec Ideal S149x149 .f32) (p : Fin 1200) (q : Fin 149) :
    k1_pay1 x w (ix2 p q) = ∑ k : Fin 149, x (ix2 p k) * w (ix2 k q) := by
  unfold k1_pay1
  refine (Ideal.matmul_constant_zero_apply dot_S1200x149_S149x149_S1200x149_1_0_0_1_n_n none _ _ (ix2 p q)).trans ?_
  rw [← Equiv.sum_comp (contrEquiv1 dot_S1200x149_S149x149_S1200x149_1_0_0_1_n_n 149 rfl rfl).symm]
  refine Finset.sum_congr rfl fun k _ => ?_
  have hk := contrEquiv1_symm_val dot_S1200x149_S149x149_S1200x149_1_0_0_1_n_n 149 rfl rfl k
  have el : dot_S1200x149_S149x149_S1200x149_1_0_0_1_n_n.lhsIdx (ix2 p q)
      ((contrEquiv1 dot_S1200x149_S149x149_S1200x149_1_0_0_1_n_n 149 rfl rfl).symm k) = ix2 p k :=
    funext fun a => Fin.ext (by
      match a with
      | ⟨0, _⟩ => exact blockLhsRow1 _ _
      | ⟨1, _⟩ => exact (blockLhsCol1 _ _).trans hk)
  have er : dot_S1200x149_S149x149_S1200x149_1_0_0_1_n_n.rhsIdx (ix2 p q)
      ((contrEquiv1 dot_S1200x149_S149x149_S1200x149_1_0_0_1_n_n 149 rfl rfl).symm k) = ix2 k q :=
    funext fun a => Fin.ext (by
      match a with
      | ⟨0, _⟩ => exact (blockRhsRow1 _ _).trans hk
      | ⟨1, _⟩ => exact blockRhsCol1 _ _)
  rw [el, er, shapeCast_self]
  rfl

/-! ## The whole array: the product, entry by entry -/

/-- Entry (r, k) of the left array, for the output entry i = (r, q). -/
abbrev rowAt1 (i : S30000x149.Idx) (k : Fin 149) : S30000x149.Idx := fun a => match a with
  | ⟨0, _⟩ => ⟨(i 0).val, (i 0).isLt⟩
  | ⟨1, _⟩ => ⟨k.val, k.isLt⟩

/-- Entry (k, q) of the right array, for the output entry i = (r, q). -/
abbrev colAt1 (i : S30000x149.Idx) (k : Fin 149) : S149x149.Idx := fun a => match a with
  | ⟨0, _⟩ => ⟨k.val, k.isLt⟩
  | ⟨1, _⟩ => ⟨(i 1).val, (i 1).isLt⟩

/-- The matrix product of a 30000 × 149 array with a 149 × 149 one: entry (r, q) is ∑ k, x (r, k) · w (k, q). -/
def product1 (x : FVec Ideal S30000x149 .f32) (w : FVec Ideal S149x149 .f32) : FVec Ideal S30000x149 .f32 :=
  fun i => ∑ k : Fin 149, x (rowAt1 i k) * w (colAt1 i k)

/-- A block entry is an entry of the whole product, once the block's row p and the weight's column q are read where
    the output entry i's row and column say. -/
theorem blockEntry1 (X : FVec Ideal S30000x149 .f32) (W : FVec Ideal S149x149 .f32) (xb : Vec Ideal S1200x149 .f32) (wb : Vec Ideal S149x149 .f32)
    (i : S30000x149.Idx) (p : Fin 1200) (q : Fin 149)
    (hx : ∀ k : Fin 149, xb (ix2 p k) = X (rowAt1 i k)) (hw : ∀ k : Fin 149, wb (ix2 k q) = W (colAt1 i k)) :
    k1_pay1 xb wb (ix2 p q) = product1 X W i := by
  rw [blockProduct1]
  unfold product1
  exact Finset.sum_congr rfl fun k _ => by rw [hx k, hw k]

/-! ## From blocks to the array -/

theorem origin1 : (![0, 0] : Fin 2 → Nat) = fun _ => 0 := funext fun a => by fin_cases a <;> rfl

/-- The printed index maps over the 25 grid points: the x window and the output window sit at row block t, column block
    0; the weight window is always the whole array. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What grid point t writes back is block t of the product of the two input arrays as the region finds them. -/
theorem flushedProduct1 (c : Dev nD) (t : Fin cfg1.N) :
    (dat1 V c).flushed 2 t = ((cfg1.win 2).blk t).view.read (Elt Ideal)
      (product1 (V c (Pipeline.arrRef spec1 0)) (V c (Pipeline.arrRef spec1 1))) := by
  show (cfg1.win 2).cut (grid1.coords t) ((dat1 V c).after 2 t) = _
  rw [after1_2]
  unfold out1_2
  rw [View.canon_unit_zero origin1]
  simp only [View.ld_unit_zero (S := S1200x149) origin1, View.ld_unit_zero (S := S149x149) origin1]
  obtain ⟨e0, e1, e2, e3, e4, e5⟩ := blockIndex1 t
  funext j
  obtain ⟨p, q, rfl⟩ : ∃ (p : Fin 1200) (q : Fin 149), j = ix2 p q := ⟨j 0, j 1, eq_ix2 j⟩
  refine blockEntry1 (V c (Pipeline.arrRef spec1 0)) (V c (Pipeline.arrRef spec1 1)) (iblk1 V c 0 t) (iblk1 V c 1 t)
    (((cfg1.win 2).blk t).view.emb (ix2 p q)) p q (fun k => ?_) (fun k => ?_)
  · show V c (Pipeline.arrRef spec1 0) (((cfg1.win 0).blk t).view.emb (ix2 p k)) = _
    refine congrArg _ (funext fun a => Fin.ext ?_)
    match a with
    | ⟨0, _⟩ => show win1_0.index t (0 : Fin 2) * 1200 + 1 * p.val = win1_2.index t (0 : Fin 2) * 1200 + 1 * p.val; omega
    | ⟨1, _⟩ => show win1_0.index t (1 : Fin 2) * 149 + 1 * k.val = k.val; omega
  · show V c (Pipeline.arrRef spec1 1) (((cfg1.win 1).blk t).view.emb (ix2 k q)) = _
    refine congrArg _ (funext fun a => Fin.ext ?_)
    match a with
    | ⟨0, _⟩ => show win1_1.index t (0 : Fin 2) * 149 + 1 * k.val = k.val; omega
    | ⟨1, _⟩ => show win1_1.index t (1 : Fin 2) * 149 + 1 * q.val = win1_2.index t (1 : Fin 2) * 149 + 1 * q.val; omega

/-- An index of the output array lies in point t's block iff each coordinate lies in the block's range on its axis. -/
theorem memBlock1 (t : Fin cfg1.N) (i : S30000x149.Idx) :
    i ∈ ((cfg1.win 2).blk t).view.set ↔ ∀ a : Fin 2, win1_2.index t a * S1200x149.size a ≤ (i a).val
      ∧ (i a).val < win1_2.index t a * S1200x149.size a + S1200x149.size a := by
  show i ∈ ((View.whole main_v7).slice (win1_2.rect t)).set ↔ _
  rw [View.set_slice_whole, Rect.mem_set_unit]
  exact Iff.rfl

/-- Row r of the output is written by grid point r / 1200: the 25 row blocks cover the array. -/
theorem rowsCovered1 (i : S30000x149.Idx) :
    ∃ t : Fin cfg1.N, (cfg1.win 2).flush t = true ∧ i ∈ ((cfg1.win 2).blk t).view.set := by
  have hi0 : (i 0).val < 30000 := (i 0).isLt
  have hi1 : (i 1).val < 149 := (i 1).isLt
  have hN : cfg1.N = 25 := N_1
  have ht : (i 0).val / 1200 < cfg1.N := by rw [hN]; omega
  obtain ⟨-, -, -, -, e4, e5⟩ := blockIndex1 ⟨(i 0).val / 1200, ht⟩
  refine ⟨⟨(i 0).val / 1200, ht⟩, flush1_2 _, ?_⟩
  rw [memBlock1]
  intro a
  match a with
  | ⟨0, _⟩ =>
    show win1_2.index ⟨(i 0).val / 1200, ht⟩ (0 : Fin 2) * 1200 ≤ (i 0).val
      ∧ (i 0).val < win1_2.index ⟨(i 0).val / 1200, ht⟩ (0 : Fin 2) * 1200 + 1200
    rw [e4]
    show (i 0).val / 1200 * 1200 ≤ (i 0).val ∧ (i 0).val < (i 0).val / 1200 * 1200 + 1200
    omega
  | ⟨1, _⟩ =>
    show win1_2.index ⟨(i 0).val / 1200, ht⟩ (1 : Fin 2) * 149 ≤ (i 1).val
      ∧ (i 1).val < win1_2.index ⟨(i 0).val / 1200, ht⟩ (1 : Fin 2) * 149 + 149
    rw [e5]
    omega

/-- After the region the output array is the product of the two input arrays as the region finds them. -/
theorem arrayProduct1 (c : Dev nD) :
    (dat1 V c).arrAt 2 cfg1.N
      = product1 (V c (Pipeline.arrRef spec1 0)) (V c (Pipeline.arrRef spec1 1)) :=
  (dat1 V c).arrAt_eq_of_cover 2 (product1 (V c (Pipeline.arrRef spec1 0)) (V c (Pipeline.arrRef spec1 1)))
    (fun t _ => flushedProduct1 V c t) rowsCovered1

/-! ## The host's dot_general is the same product

Its operand indices, axis by axis, as for the block's product. -/

theorem hostLhsRow1 (i : Cert.ReferenceIdeal.S30000x149.Idx) (z : Cert.ReferenceIdeal.dot_S30000x149_S149x149_S30000x149_1_0_0_1_n_n.contr.Idx) :
    (Cert.ReferenceIdeal.dot_S30000x149_S149x149_S30000x149_1_0_0_1_n_n.lhsIdx i z 0).val = (i 0).val := by
  unfold DotDims.lhsIdx
  rw [dif_neg (show ¬(0 : Fin Cert.ReferenceIdeal.S30000x149.rank) ∈ Cert.ReferenceIdeal.dot_S30000x149_S149x149_S30000x149_1_0_0_1_n_n.lhsBatch by decide),
    dif_pos (show (0 : Fin Cert.ReferenceIdeal.S30000x149.rank) ∈ Cert.ReferenceIdeal.dot_S30000x149_S149x149_S30000x149_1_0_0_1_n_n.lhsNonContracting by decide)]
  rfl

theorem hostLhsCol1 (i : Cert.ReferenceIdeal.S30000x149.Idx) (z : Cert.ReferenceIdeal.dot_S30000x149_S149x149_S30000x149_1_0_0_1_n_n.contr.Idx) :
    (Cert.ReferenceIdeal.dot_S30000x149_S149x149_S30000x149_1_0_0_1_n_n.lhsIdx i z 1).val = (z ⟨0, by decide⟩).val :=
  Cert.ReferenceIdeal.dot_S30000x149_S149x149_S30000x149_1_0_0_1_n_n.lhsIdx_val_of_single rfl i z

theorem hostRhsRow1 (i : Cert.ReferenceIdeal.S30000x149.Idx) (z : Cert.ReferenceIdeal.dot_S30000x149_S149x149_S30000x149_1_0_0_1_n_n.contr.Idx) :
    (Cert.ReferenceIdeal.dot_S30000x149_S149x149_S30000x149_1_0_0_1_n_n.rhsIdx i z 0).val = (z ⟨0, by decide⟩).val :=
  Cert.ReferenceIdeal.dot_S30000x149_S149x149_S30000x149_1_0_0_1_n_n.rhsIdx_val_of_single rfl i z

theorem hostRhsCol1 (i : Cert.ReferenceIdeal.S30000x149.Idx) (z : Cert.ReferenceIdeal.dot_S30000x149_S149x149_S30000x149_1_0_0_1_n_n.contr.Idx) :
    (Cert.ReferenceIdeal.dot_S30000x149_S149x149_S30000x149_1_0_0_1_n_n.rhsIdx i z 1).val = (i 1).val := by
  unfold DotDims.rhsIdx
  rw [dif_neg (show ¬(1 : Fin Cert.ReferenceIdeal.S149x149.rank) ∈ Cert.ReferenceIdeal.dot_S30000x149_S149x149_S30000x149_1_0_0_1_n_n.rhsBatch by decide),
    dif_pos (show (1 : Fin Cert.ReferenceIdeal.S149x149.rank) ∈ Cert.ReferenceIdeal.dot_S30000x149_S149x149_S30000x149_1_0_0_1_n_n.rhsNonContracting by decide)]
  rfl

/-- The host's dot_general of a 30000 × 149 array and a 149 × 149 one, contracting the first's columns with the second's
    rows, is their matrix product, entry by entry. -/
theorem hostProduct1 (x : FVec Ideal S30000x149 .f32) (w : FVec Ideal S149x149 .f32) :
    product1 x w = Host.dotGeneral (F := Ideal) Cert.ReferenceIdeal.dot_S30000x149_S149x149_S30000x149_1_0_0_1_n_n none x w := by
  funext i
  simp only [Host.dotGeneral]
  rw [Ideal.dotGeneral_apply, ← Equiv.sum_comp (contrEquiv1 Cert.ReferenceIdeal.dot_S30000x149_S149x149_S30000x149_1_0_0_1_n_n 149 rfl rfl).symm]
  unfold product1
  refine Finset.sum_congr rfl fun k _ => ?_
  have hk := contrEquiv1_symm_val Cert.ReferenceIdeal.dot_S30000x149_S149x149_S30000x149_1_0_0_1_n_n 149 rfl rfl k
  have el : Cert.ReferenceIdeal.dot_S30000x149_S149x149_S30000x149_1_0_0_1_n_n.lhsIdx i ((contrEquiv1 Cert.ReferenceIdeal.dot_S30000x149_S149x149_S30000x149_1_0_0_1_n_n 149 rfl rfl).symm k) = rowAt1 i k :=
    funext fun a => Fin.ext (by
      match a with
      | ⟨0, _⟩ => exact hostLhsRow1 _ _
      | ⟨1, _⟩ => exact (hostLhsCol1 _ _).trans hk)
  have er : Cert.ReferenceIdeal.dot_S30000x149_S149x149_S30000x149_1_0_0_1_n_n.rhsIdx i ((contrEquiv1 Cert.ReferenceIdeal.dot_S30000x149_S149x149_S30000x149_1_0_0_1_n_n 149 rfl rfl).symm k) = colAt1 i k :=
    funext fun a => Fin.ext (by
      match a with
      | ⟨0, _⟩ => exact (hostRhsRow1 _ _).trans hk
      | ⟨1, _⟩ => exact hostRhsCol1 _ _)
  rw [el, er]

/-- Region 1: after its run the output array is the host's dot_general of the two input arrays. -/
theorem dense1 (c : Dev nD) :
    ((Cert.KernelIdeal.Gen.dat1 V c).arrAt 2 cfg1.N : FVec Ideal Cert.ReferenceIdeal.S30000x149 .f32)
      = Host.dotGeneral (F := Ideal) (φ₁ := .f32) (φ₂ := .f32) Cert.ReferenceIdeal.dot_S30000x149_S149x149_S30000x149_1_0_0_1_n_n none
          (V c (Pipeline.arrRef spec1 0)) (V c (Pipeline.arrRef spec1 1)) :=
  (arrayProduct1 V c).trans (hostProduct1 (V c (Pipeline.arrRef spec1 0)) (V c (Pipeline.arrRef spec1 1)))

end Cert.KernelIdeal.RegionValue
-- ==== Proof.Dense2.lean ====
/- Region 2 of the kernel program is a row-blocked matrix product h = x · w: x is a 30000 × 149 array, w a 149 × 298
   array, and grid point t (of 25) multiplies rows 1200·t … 1200·t + 1199 of x by the whole of w and writes the result to
   the same rows of the 30000 × 298 output. On the extended reals the change of float format applied to both operands
   is the identity and a product accumulated into the zero splat is the plain sum over the contracted axis, so each
   output entry (r, q) is ∑ k, x (r, k) · w (k, q) whatever block r falls in; the 25 row blocks cover every row, so the
   output array after the region is that function everywhere — which is what the host's dot_general of x and w is,
   read entry by entry. -/
import proofs.«133553_j23330262351943_2_alg».proof.Proof.Gen.KernelIdeal.Frame
import proofs.«133553_j23330262351943_2_alg».proof.ReferenceIdeal
import proofs.«133553_j23330262351943_2_alg».proof.Proof.Gen.ReferenceIdeal
import Idealize.ShloMosaic.PureOps.Ideal.Laws
import Idealize.ShloMosaic.Lib.ValueIdx
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)
open scoped BigOperators

/-! ## One block: entry (p, q) of the block product

The operand indices of the block's product, axis by axis: the left operand's row is the output's row, the right
operand's column is the output's column, and the two contracted axes carry the contraction position. -/

theorem blockLhsRow2 (i : S1200x298.Idx) (z : dot_S1200x149_S149x298_S1200x298_1_0_0_1_n_n.contr.Idx) :
    (dot_S1200x149_S149x298_S1200x298_1_0_0_1_n_n.lhsIdx i z 0).val = (i 0).val := by
  unfold DotDims.lhsIdx
  rw [dif_neg (show ¬(0 : Fin S1200x149.rank) ∈ dot_S1200x149_S149x298_S1200x298_1_0_0_1_n_n.lhsBatch by decide),
    dif_pos (show (0 : Fin S1200x149.rank) ∈ dot_S1200x149_S149x298_S1200x298_1_0_0_1_n_n.lhsNonContracting by decide)]
  rfl

theorem blockLhsCol2 (i : S1200x298.Idx) (z : dot_S1200x149_S149x298_S1200x298_1_0_0_1_n_n.contr.Idx) :
    (dot_S1200x149_S149x298_S1200x298_1_0_0_1_n_n.lhsIdx i z 1).val = (z ⟨0, by decide⟩).val :=
  dot_S1200x149_S149x298_S1200x298_1_0_0_1_n_n.lhsIdx_val_of_single rfl i z

theorem blockRhsRow2 (i : S1200x298.Idx) (z : dot_S1200x149_S149x298_S1200x298_1_0_0_1_n_n.contr.Idx) :
    (dot_S1200x149_S149x298_S1200x298_1_0_0_1_n_n.rhsIdx i z 0).val = (z ⟨0, by decide⟩).val :=
  dot_S1200x149_S149x298_S1200x298_1_0_0_1_n_n.rhsIdx_val_of_single rfl i z

theorem blockRhsCol2 (i : S1200x298.Idx) (z : dot_S1200x149_S149x298_S1200x298_1_0_0_1_n_n.contr.Idx) :
    (dot_S1200x149_S149x298_S1200x298_1_0_0_1_n_n.rhsIdx i z 1).val = (i 1).val := by
  unfold DotDims.rhsIdx
  rw [dif_neg (show ¬(1 : Fin S149x298.rank) ∈ dot_S1200x149_S149x298_S1200x298_1_0_0_1_n_n.rhsBatch by decide),
    dif_pos (show (1 : Fin S149x298.rank) ∈ dot_S1200x149_S149x298_S1200x298_1_0_0_1_n_n.rhsNonContracting by decide)]
  rfl

/-- One block's result: entry (p, q) is the sum over k of x (p, k) · w (k, q). The cast to the same shape and the change
    of format are the identity on extended reals, and the accumulator is the zero splat. -/
theorem blockProduct2 (x : Vec Ideal S1200x149 .f32) (w : Vec Ideal S149x298 .f32) (p : Fin 1200) (q : Fin 298) :
    k2_pay1 x w (ix2 p q) = ∑ k : Fin 149, x (ix2 p k) * w (ix2 k q) := by
  unfold k2_pay1
  refine (Ideal.matmul_constant_zero_apply dot_S1200x149_S149x298_S1200x298_1_0_0_1_n_n none _ _ (ix2 p q)).trans ?_
  rw [← Equiv.sum_comp (contrEquiv1 dot_S1200x149_S149x298_S1200x298_1_0_0_1_n_n 149 rfl rfl).symm]
  refine Finset.sum_congr rfl fun k _ => ?_
  have hk := contrEquiv1_symm_val dot_S1200x149_S149x298_S1200x298_1_0_0_1_n_n 149 rfl rfl k
  have el : dot_S1200x149_S149x298_S1200x298_1_0_0_1_n_n.lhsIdx (ix2 p q)
      ((contrEquiv1 dot_S1200x149_S149x298_S1200x298_1_0_0_1_n_n 149 rfl rfl).symm k) = ix2 p k :=
    funext fun a => Fin.ext (by
      match a with
      | ⟨0, _⟩ => exact blockLhsRow2 _ _
      | ⟨1, _⟩ => exact (blockLhsCol2 _ _).trans hk)
  have er : dot_S1200x149_S149x298_S1200x298_1_0_0_1_n_n.rhsIdx (ix2 p q)
      ((contrEquiv1 dot_S1200x149_S149x298_S1200x298_1_0_0_1_n_n 149 rfl rfl).symm k) = ix2 k q :=
    funext fun a => Fin.ext (by
      match a with
      | ⟨0, _⟩ => exact (blockRhsRow2 _ _).trans hk
      | ⟨1, _⟩ => exact blockRhsCol2 _ _)
  rw [el, er, shapeCast_self]
  rfl

/-! ## The whole array: the product, entry by entry -/

/-- Entry (r, k) of the left array, for the output entry i = (r, q). -/
abbrev rowAt2 (i : S30000x298.Idx) (k : Fin 149) : S30000x149.Idx := fun a => match a with
  | ⟨0, _⟩ => ⟨(i 0).val, (i 0).isLt⟩
  | ⟨1, _⟩ => ⟨k.val, k.isLt⟩

/-- Entry (k, q) of the right array, for the output entry i = (r, q). -/
abbrev colAt2 (i : S30000x298.Idx) (k : Fin 149) : S149x298.Idx := fun a => match a with
  | ⟨0, _⟩ => ⟨k.val, k.isLt⟩
  | ⟨1, _⟩ => ⟨(i 1).val, (i 1).isLt⟩

/-- The matrix product of a 30000 × 149 array with a 149 × 298 one: entry (r, q) is ∑ k, x (r, k) · w (k, q). -/
def product2 (x : FVec Ideal S30000x149 .f32) (w : FVec Ideal S149x298 .f32) : FVec Ideal S30000x298 .f32 :=
  fun i => ∑ k : Fin 149, x (rowAt2 i k) * w (colAt2 i k)

/-- A block entry is an entry of the whole product, once the block's row p and the weight's column q are read where
    the output entry i's row and column say. -/
theorem blockEntry2 (X : FVec Ideal S30000x149 .f32) (W : FVec Ideal S149x298 .f32) (xb : Vec Ideal S1200x149 .f32) (wb : Vec Ideal S149x298 .f32)
    (i : S30000x298.Idx) (p : Fin 1200) (q : Fin 298)
    (hx : ∀ k : Fin 149, xb (ix2 p k) = X (rowAt2 i k)) (hw : ∀ k : Fin 149, wb (ix2 k q) = W (colAt2 i k)) :
    k2_pay1 xb wb (ix2 p q) = product2 X W i := by
  rw [blockProduct2]
  unfold product2
  exact Finset.sum_congr rfl fun k _ => by rw [hx k, hw k]

/-! ## From blocks to the array -/

theorem origin2 : (![0, 0] : Fin 2 → Nat) = fun _ => 0 := funext fun a => by fin_cases a <;> rfl

/-- The printed index maps over the 25 grid points: the x window and the output window sit at row block t, column block
    0; the weight window is always the whole array. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point t writes back is block t of the product of the two input arrays as the region finds them. -/
theorem flushedProduct2 (c : Dev nD) (t : Fin cfg2.N) :
    (dat2 V c).flushed 2 t = ((cfg2.win 2).blk t).view.read (Elt Ideal)
      (product2 (V c (Pipeline.arrRef spec2 0)) (V c (Pipeline.arrRef spec2 1))) := by
  show (cfg2.win 2).cut (grid2.coords t) ((dat2 V c).after 2 t) = _
  rw [after2_2]
  unfold out2_2
  rw [View.canon_unit_zero origin2]
  simp only [View.ld_unit_zero (S := S1200x149) origin2, View.ld_unit_zero (S := S149x298) origin2]
  obtain ⟨e0, e1, e2, e3, e4, e5⟩ := blockIndex2 t
  funext j
  obtain ⟨p, q, rfl⟩ : ∃ (p : Fin 1200) (q : Fin 298), j = ix2 p q := ⟨j 0, j 1, eq_ix2 j⟩
  refine blockEntry2 (V c (Pipeline.arrRef spec2 0)) (V c (Pipeline.arrRef spec2 1)) (iblk2 V c 0 t) (iblk2 V c 1 t)
    (((cfg2.win 2).blk t).view.emb (ix2 p q)) p q (fun k => ?_) (fun k => ?_)
  · show V c (Pipeline.arrRef spec2 0) (((cfg2.win 0).blk t).view.emb (ix2 p k)) = _
    refine congrArg _ (funext fun a => Fin.ext ?_)
    match a with
    | ⟨0, _⟩ => show win2_0.index t (0 : Fin 2) * 1200 + 1 * p.val = win2_2.index t (0 : Fin 2) * 1200 + 1 * p.val; omega
    | ⟨1, _⟩ => show win2_0.index t (1 : Fin 2) * 149 + 1 * k.val = k.val; omega
  · show V c (Pipeline.arrRef spec2 1) (((cfg2.win 1).blk t).view.emb (ix2 k q)) = _
    refine congrArg _ (funext fun a => Fin.ext ?_)
    match a with
    | ⟨0, _⟩ => show win2_1.index t (0 : Fin 2) * 149 + 1 * k.val = k.val; omega
    | ⟨1, _⟩ => show win2_1.index t (1 : Fin 2) * 298 + 1 * q.val = win2_2.index t (1 : Fin 2) * 298 + 1 * q.val; omega

/-- An index of the output array lies in point t's block iff each coordinate lies in the block's range on its axis. -/
theorem memBlock2 (t : Fin cfg2.N) (i : S30000x298.Idx) :
    i ∈ ((cfg2.win 2).blk t).view.set ↔ ∀ a : Fin 2, win2_2.index t a * S1200x298.size a ≤ (i a).val
      ∧ (i a).val < win2_2.index t a * S1200x298.size a + S1200x298.size a := by
  show i ∈ ((View.whole main_v56).slice (win2_2.rect t)).set ↔ _
  rw [View.set_slice_whole, Rect.mem_set_unit]
  exact Iff.rfl

/-- Row r of the output is written by grid point r / 1200: the 25 row blocks cover the array. -/
theorem rowsCovered2 (i : S30000x298.Idx) :
    ∃ t : Fin cfg2.N, (cfg2.win 2).flush t = true ∧ i ∈ ((cfg2.win 2).blk t).view.set := by
  have hi0 : (i 0).val < 30000 := (i 0).isLt
  have hi1 : (i 1).val < 298 := (i 1).isLt
  have hN : cfg2.N = 25 := N_2
  have ht : (i 0).val / 1200 < cfg2.N := by rw [hN]; omega
  obtain ⟨-, -, -, -, e4, e5⟩ := blockIndex2 ⟨(i 0).val / 1200, ht⟩
  refine ⟨⟨(i 0).val / 1200, ht⟩, flush2_2 _, ?_⟩
  rw [memBlock2]
  intro a
  match a with
  | ⟨0, _⟩ =>
    show win2_2.index ⟨(i 0).val / 1200, ht⟩ (0 : Fin 2) * 1200 ≤ (i 0).val
      ∧ (i 0).val < win2_2.index ⟨(i 0).val / 1200, ht⟩ (0 : Fin 2) * 1200 + 1200
    rw [e4]
    show (i 0).val / 1200 * 1200 ≤ (i 0).val ∧ (i 0).val < (i 0).val / 1200 * 1200 + 1200
    omega
  | ⟨1, _⟩ =>
    show win2_2.index ⟨(i 0).val / 1200, ht⟩ (1 : Fin 2) * 298 ≤ (i 1).val
      ∧ (i 1).val < win2_2.index ⟨(i 0).val / 1200, ht⟩ (1 : Fin 2) * 298 + 298
    rw [e5]
    omega

/-- After the region the output array is the product of the two input arrays as the region finds them. -/
theorem arrayProduct2 (c : Dev nD) :
    (dat2 V c).arrAt 2 cfg2.N
      = product2 (V c (Pipeline.arrRef spec2 0)) (V c (Pipeline.arrRef spec2 1)) :=
  (dat2 V c).arrAt_eq_of_cover 2 (product2 (V c (Pipeline.arrRef spec2 0)) (V c (Pipeline.arrRef spec2 1)))
    (fun t _ => flushedProduct2 V c t) rowsCovered2

/-! ## The host's dot_general is the same product

Its operand indices, axis by axis, as for the block's product. -/

theorem hostLhsRow2 (i : Cert.ReferenceIdeal.S30000x298.Idx) (z : Cert.ReferenceIdeal.dot_S30000x149_S149x298_S30000x298_1_0_0_1_n_n.contr.Idx) :
    (Cert.ReferenceIdeal.dot_S30000x149_S149x298_S30000x298_1_0_0_1_n_n.lhsIdx i z 0).val = (i 0).val := by
  unfold DotDims.lhsIdx
  rw [dif_neg (show ¬(0 : Fin Cert.ReferenceIdeal.S30000x149.rank) ∈ Cert.ReferenceIdeal.dot_S30000x149_S149x298_S30000x298_1_0_0_1_n_n.lhsBatch by decide),
    dif_pos (show (0 : Fin Cert.ReferenceIdeal.S30000x149.rank) ∈ Cert.ReferenceIdeal.dot_S30000x149_S149x298_S30000x298_1_0_0_1_n_n.lhsNonContracting by decide)]
  rfl

theorem hostLhsCol2 (i : Cert.ReferenceIdeal.S30000x298.Idx) (z : Cert.ReferenceIdeal.dot_S30000x149_S149x298_S30000x298_1_0_0_1_n_n.contr.Idx) :
    (Cert.ReferenceIdeal.dot_S30000x149_S149x298_S30000x298_1_0_0_1_n_n.lhsIdx i z 1).val = (z ⟨0, by decide⟩).val :=
  Cert.ReferenceIdeal.dot_S30000x149_S149x298_S30000x298_1_0_0_1_n_n.lhsIdx_val_of_single rfl i z

theorem hostRhsRow2 (i : Cert.ReferenceIdeal.S30000x298.Idx) (z : Cert.ReferenceIdeal.dot_S30000x149_S149x298_S30000x298_1_0_0_1_n_n.contr.Idx) :
    (Cert.ReferenceIdeal.dot_S30000x149_S149x298_S30000x298_1_0_0_1_n_n.rhsIdx i z 0).val = (z ⟨0, by decide⟩).val :=
  Cert.ReferenceIdeal.dot_S30000x149_S149x298_S30000x298_1_0_0_1_n_n.rhsIdx_val_of_single rfl i z

theorem hostRhsCol2 (i : Cert.ReferenceIdeal.S30000x298.Idx) (z : Cert.ReferenceIdeal.dot_S30000x149_S149x298_S30000x298_1_0_0_1_n_n.contr.Idx) :
    (Cert.ReferenceIdeal.dot_S30000x149_S149x298_S30000x298_1_0_0_1_n_n.rhsIdx i z 1).val = (i 1).val := by
  unfold DotDims.rhsIdx
  rw [dif_neg (show ¬(1 : Fin Cert.ReferenceIdeal.S149x298.rank) ∈ Cert.ReferenceIdeal.dot_S30000x149_S149x298_S30000x298_1_0_0_1_n_n.rhsBatch by decide),
    dif_pos (show (1 : Fin Cert.ReferenceIdeal.S149x298.rank) ∈ Cert.ReferenceIdeal.dot_S30000x149_S149x298_S30000x298_1_0_0_1_n_n.rhsNonContracting by decide)]
  rfl

/-- The host's dot_general of a 30000 × 149 array and a 149 × 298 one, contracting the first's columns with the second's
    rows, is their matrix product, entry by entry. -/
theorem hostProduct2 (x : FVec Ideal S30000x149 .f32) (w : FVec Ideal S149x298 .f32) :
    product2 x w = Host.dotGeneral (F := Ideal) Cert.ReferenceIdeal.dot_S30000x149_S149x298_S30000x298_1_0_0_1_n_n none x w := by
  funext i
  simp only [Host.dotGeneral]
  rw [Ideal.dotGeneral_apply, ← Equiv.sum_comp (contrEquiv1 Cert.ReferenceIdeal.dot_S30000x149_S149x298_S30000x298_1_0_0_1_n_n 149 rfl rfl).symm]
  unfold product2
  refine Finset.sum_congr rfl fun k _ => ?_
  have hk := contrEquiv1_symm_val Cert.ReferenceIdeal.dot_S30000x149_S149x298_S30000x298_1_0_0_1_n_n 149 rfl rfl k
  have el : Cert.ReferenceIdeal.dot_S30000x149_S149x298_S30000x298_1_0_0_1_n_n.lhsIdx i ((contrEquiv1 Cert.ReferenceIdeal.dot_S30000x149_S149x298_S30000x298_1_0_0_1_n_n 149 rfl rfl).symm k) = rowAt2 i k :=
    funext fun a => Fin.ext (by
      match a with
      | ⟨0, _⟩ => exact hostLhsRow2 _ _
      | ⟨1, _⟩ => exact (hostLhsCol2 _ _).trans hk)
  have er : Cert.ReferenceIdeal.dot_S30000x149_S149x298_S30000x298_1_0_0_1_n_n.rhsIdx i ((contrEquiv1 Cert.ReferenceIdeal.dot_S30000x149_S149x298_S30000x298_1_0_0_1_n_n 149 rfl rfl).symm k) = colAt2 i k :=
    funext fun a => Fin.ext (by
      match a with
      | ⟨0, _⟩ => exact (hostRhsRow2 _ _).trans hk
      | ⟨1, _⟩ => exact hostRhsCol2 _ _)
  rw [el, er]

/-- Region 2: after its run the output array is the host's dot_general of the two input arrays. -/
theorem dense2 (c : Dev nD) :
    ((Cert.KernelIdeal.Gen.dat2 V c).arrAt 2 cfg2.N : FVec Ideal Cert.ReferenceIdeal.S30000x298 .f32)
      = Host.dotGeneral (F := Ideal) (φ₁ := .f32) (φ₂ := .f32) Cert.ReferenceIdeal.dot_S30000x149_S149x298_S30000x298_1_0_0_1_n_n none
          (V c (Pipeline.arrRef spec2 0)) (V c (Pipeline.arrRef spec2 1)) :=
  (arrayProduct2 V c).trans (hostProduct2 (V c (Pipeline.arrRef spec2 0)) (V c (Pipeline.arrRef spec2 1)))

end Cert.KernelIdeal.RegionValue
-- ==== Proof.Dense3.lean ====
/- Region 3 of the kernel program is a row-blocked matrix product h = x · w: x is a 30000 × 149 array, w a 149 × 149
   array, and grid point t (of 25) multiplies rows 1200·t … 1200·t + 1199 of x by the whole of w and writes the result to
   the same rows of the 30000 × 149 output. On the extended reals the change of float format applied to both operands
   is the identity and a product accumulated into the zero splat is the plain sum over the contracted axis, so each
   output entry (r, q) is ∑ k, x (r, k) · w (k, q) whatever block r falls in; the 25 row blocks cover every row, so the
   output array after the region is that function everywhere — which is what the host's dot_general of x and w is,
   read entry by entry. -/
import proofs.«133553_j23330262351943_2_alg».proof.Proof.Gen.KernelIdeal.Frame
import proofs.«133553_j23330262351943_2_alg».proof.ReferenceIdeal
import proofs.«133553_j23330262351943_2_alg».proof.Proof.Gen.ReferenceIdeal
import Idealize.ShloMosaic.PureOps.Ideal.Laws
import Idealize.ShloMosaic.Lib.ValueIdx
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)
open scoped BigOperators

/-! ## One block: entry (p, q) of the block product

The operand indices of the block's product, axis by axis: the left operand's row is the output's row, the right
operand's column is the output's column, and the two contracted axes carry the contraction position. -/

theorem blockLhsRow3 (i : S1200x149.Idx) (z : dot_S1200x149_S149x149_S1200x149_1_0_0_1_n_n.contr.Idx) :
    (dot_S1200x149_S149x149_S1200x149_1_0_0_1_n_n.lhsIdx i z 0).val = (i 0).val := by
  unfold DotDims.lhsIdx
  rw [dif_neg (show ¬(0 : Fin S1200x149.rank) ∈ dot_S1200x149_S149x149_S1200x149_1_0_0_1_n_n.lhsBatch by decide),
    dif_pos (show (0 : Fin S1200x149.rank) ∈ dot_S1200x149_S149x149_S1200x149_1_0_0_1_n_n.lhsNonContracting by decide)]
  rfl

theorem blockLhsCol3 (i : S1200x149.Idx) (z : dot_S1200x149_S149x149_S1200x149_1_0_0_1_n_n.contr.Idx) :
    (dot_S1200x149_S149x149_S1200x149_1_0_0_1_n_n.lhsIdx i z 1).val = (z ⟨0, by decide⟩).val :=
  dot_S1200x149_S149x149_S1200x149_1_0_0_1_n_n.lhsIdx_val_of_single rfl i z

theorem blockRhsRow3 (i : S1200x149.Idx) (z : dot_S1200x149_S149x149_S1200x149_1_0_0_1_n_n.contr.Idx) :
    (dot_S1200x149_S149x149_S1200x149_1_0_0_1_n_n.rhsIdx i z 0).val = (z ⟨0, by decide⟩).val :=
  dot_S1200x149_S149x149_S1200x149_1_0_0_1_n_n.rhsIdx_val_of_single rfl i z

theorem blockRhsCol3 (i : S1200x149.Idx) (z : dot_S1200x149_S149x149_S1200x149_1_0_0_1_n_n.contr.Idx) :
    (dot_S1200x149_S149x149_S1200x149_1_0_0_1_n_n.rhsIdx i z 1).val = (i 1).val := by
  unfold DotDims.rhsIdx
  rw [dif_neg (show ¬(1 : Fin S149x149.rank) ∈ dot_S1200x149_S149x149_S1200x149_1_0_0_1_n_n.rhsBatch by decide),
    dif_pos (show (1 : Fin S149x149.rank) ∈ dot_S1200x149_S149x149_S1200x149_1_0_0_1_n_n.rhsNonContracting by decide)]
  rfl

/-- One block's result: entry (p, q) is the sum over k of x (p, k) · w (k, q). The cast to the same shape and the change
    of format are the identity on extended reals, and the accumulator is the zero splat. -/
theorem blockProduct3 (x : Vec Ideal S1200x149 .f32) (w : Vec Ideal S149x149 .f32) (p : Fin 1200) (q : Fin 149) :
    k3_pay1 x w (ix2 p q) = ∑ k : Fin 149, x (ix2 p k) * w (ix2 k q) := by
  unfold k3_pay1
  refine (Ideal.matmul_constant_zero_apply dot_S1200x149_S149x149_S1200x149_1_0_0_1_n_n none _ _ (ix2 p q)).trans ?_
  rw [← Equiv.sum_comp (contrEquiv1 dot_S1200x149_S149x149_S1200x149_1_0_0_1_n_n 149 rfl rfl).symm]
  refine Finset.sum_congr rfl fun k _ => ?_
  have hk := contrEquiv1_symm_val dot_S1200x149_S149x149_S1200x149_1_0_0_1_n_n 149 rfl rfl k
  have el : dot_S1200x149_S149x149_S1200x149_1_0_0_1_n_n.lhsIdx (ix2 p q)
      ((contrEquiv1 dot_S1200x149_S149x149_S1200x149_1_0_0_1_n_n 149 rfl rfl).symm k) = ix2 p k :=
    funext fun a => Fin.ext (by
      match a with
      | ⟨0, _⟩ => exact blockLhsRow3 _ _
      | ⟨1, _⟩ => exact (blockLhsCol3 _ _).trans hk)
  have er : dot_S1200x149_S149x149_S1200x149_1_0_0_1_n_n.rhsIdx (ix2 p q)
      ((contrEquiv1 dot_S1200x149_S149x149_S1200x149_1_0_0_1_n_n 149 rfl rfl).symm k) = ix2 k q :=
    funext fun a => Fin.ext (by
      match a with
      | ⟨0, _⟩ => exact (blockRhsRow3 _ _).trans hk
      | ⟨1, _⟩ => exact blockRhsCol3 _ _)
  rw [el, er, shapeCast_self]
  rfl

/-! ## The whole array: the product, entry by entry -/

/-- Entry (r, k) of the left array, for the output entry i = (r, q). -/
abbrev rowAt3 (i : S30000x149.Idx) (k : Fin 149) : S30000x149.Idx := fun a => match a with
  | ⟨0, _⟩ => ⟨(i 0).val, (i 0).isLt⟩
  | ⟨1, _⟩ => ⟨k.val, k.isLt⟩

/-- Entry (k, q) of the right array, for the output entry i = (r, q). -/
abbrev colAt3 (i : S30000x149.Idx) (k : Fin 149) : S149x149.Idx := fun a => match a with
  | ⟨0, _⟩ => ⟨k.val, k.isLt⟩
  | ⟨1, _⟩ => ⟨(i 1).val, (i 1).isLt⟩

/-- The matrix product of a 30000 × 149 array with a 149 × 149 one: entry (r, q) is ∑ k, x (r, k) · w (k, q). -/
def product3 (x : FVec Ideal S30000x149 .f32) (w : FVec Ideal S149x149 .f32) : FVec Ideal S30000x149 .f32 :=
  fun i => ∑ k : Fin 149, x (rowAt3 i k) * w (colAt3 i k)

/-- A block entry is an entry of the whole product, once the block's row p and the weight's column q are read where
    the output entry i's row and column say. -/
theorem blockEntry3 (X : FVec Ideal S30000x149 .f32) (W : FVec Ideal S149x149 .f32) (xb : Vec Ideal S1200x149 .f32) (wb : Vec Ideal S149x149 .f32)
    (i : S30000x149.Idx) (p : Fin 1200) (q : Fin 149)
    (hx : ∀ k : Fin 149, xb (ix2 p k) = X (rowAt3 i k)) (hw : ∀ k : Fin 149, wb (ix2 k q) = W (colAt3 i k)) :
    k3_pay1 xb wb (ix2 p q) = product3 X W i := by
  rw [blockProduct3]
  unfold product3
  exact Finset.sum_congr rfl fun k _ => by rw [hx k, hw k]

/-! ## From blocks to the array -/

theorem origin3 : (![0, 0] : Fin 2 → Nat) = fun _ => 0 := funext fun a => by fin_cases a <;> rfl

/-- The printed index maps over the 25 grid points: the x window and the output window sit at row block t, column block
    0; the weight window is always the whole array. -/
theorem blockIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What grid point t writes back is block t of the product of the two input arrays as the region finds them. -/
theorem flushedProduct3 (c : Dev nD) (t : Fin cfg3.N) :
    (dat3 V c).flushed 2 t = ((cfg3.win 2).blk t).view.read (Elt Ideal)
      (product3 (V c (Pipeline.arrRef spec3 0)) (V c (Pipeline.arrRef spec3 1))) := by
  show (cfg3.win 2).cut (grid3.coords t) ((dat3 V c).after 2 t) = _
  rw [after3_2]
  unfold out3_2
  rw [View.canon_unit_zero origin3]
  simp only [View.ld_unit_zero (S := S1200x149) origin3, View.ld_unit_zero (S := S149x149) origin3]
  obtain ⟨e0, e1, e2, e3, e4, e5⟩ := blockIndex3 t
  funext j
  obtain ⟨p, q, rfl⟩ : ∃ (p : Fin 1200) (q : Fin 149), j = ix2 p q := ⟨j 0, j 1, eq_ix2 j⟩
  refine blockEntry3 (V c (Pipeline.arrRef spec3 0)) (V c (Pipeline.arrRef spec3 1)) (iblk3 V c 0 t) (iblk3 V c 1 t)
    (((cfg3.win 2).blk t).view.emb (ix2 p q)) p q (fun k => ?_) (fun k => ?_)
  · show V c (Pipeline.arrRef spec3 0) (((cfg3.win 0).blk t).view.emb (ix2 p k)) = _
    refine congrArg _ (funext fun a => Fin.ext ?_)
    match a with
    | ⟨0, _⟩ => show win3_0.index t (0 : Fin 2) * 1200 + 1 * p.val = win3_2.index t (0 : Fin 2) * 1200 + 1 * p.val; omega
    | ⟨1, _⟩ => show win3_0.index t (1 : Fin 2) * 149 + 1 * k.val = k.val; omega
  · show V c (Pipeline.arrRef spec3 1) (((cfg3.win 1).blk t).view.emb (ix2 k q)) = _
    refine congrArg _ (funext fun a => Fin.ext ?_)
    match a with
    | ⟨0, _⟩ => show win3_1.index t (0 : Fin 2) * 149 + 1 * k.val = k.val; omega
    | ⟨1, _⟩ => show win3_1.index t (1 : Fin 2) * 149 + 1 * q.val = win3_2.index t (1 : Fin 2) * 149 + 1 * q.val; omega

/-- An index of the output array lies in point t's block iff each coordinate lies in the block's range on its axis. -/
theorem memBlock3 (t : Fin cfg3.N) (i : S30000x149.Idx) :
    i ∈ ((cfg3.win 2).blk t).view.set ↔ ∀ a : Fin 2, win3_2.index t a * S1200x149.size a ≤ (i a).val
      ∧ (i a).val < win3_2.index t a * S1200x149.size a + S1200x149.size a := by
  show i ∈ ((View.whole main_v105).slice (win3_2.rect t)).set ↔ _
  rw [View.set_slice_whole, Rect.mem_set_unit]
  exact Iff.rfl

/-- Row r of the output is written by grid point r / 1200: the 25 row blocks cover the array. -/
theorem rowsCovered3 (i : S30000x149.Idx) :
    ∃ t : Fin cfg3.N, (cfg3.win 2).flush t = true ∧ i ∈ ((cfg3.win 2).blk t).view.set := by
  have hi0 : (i 0).val < 30000 := (i 0).isLt
  have hi1 : (i 1).val < 149 := (i 1).isLt
  have hN : cfg3.N = 25 := N_3
  have ht : (i 0).val / 1200 < cfg3.N := by rw [hN]; omega
  obtain ⟨-, -, -, -, e4, e5⟩ := blockIndex3 ⟨(i 0).val / 1200, ht⟩
  refine ⟨⟨(i 0).val / 1200, ht⟩, flush3_2 _, ?_⟩
  rw [memBlock3]
  intro a
  match a with
  | ⟨0, _⟩ =>
    show win3_2.index ⟨(i 0).val / 1200, ht⟩ (0 : Fin 2) * 1200 ≤ (i 0).val
      ∧ (i 0).val < win3_2.index ⟨(i 0).val / 1200, ht⟩ (0 : Fin 2) * 1200 + 1200
    rw [e4]
    show (i 0).val / 1200 * 1200 ≤ (i 0).val ∧ (i 0).val < (i 0).val / 1200 * 1200 + 1200
    omega
  | ⟨1, _⟩ =>
    show win3_2.index ⟨(i 0).val / 1200, ht⟩ (1 : Fin 2) * 149 ≤ (i 1).val
      ∧ (i 1).val < win3_2.index ⟨(i 0).val / 1200, ht⟩ (1 : Fin 2) * 149 + 149
    rw [e5]
    omega

/-- After the region the output array is the product of the two input arrays as the region finds them. -/
theorem arrayProduct3 (c : Dev nD) :
    (dat3 V c).arrAt 2 cfg3.N
      = product3 (V c (Pipeline.arrRef spec3 0)) (V c (Pipeline.arrRef spec3 1)) :=
  (dat3 V c).arrAt_eq_of_cover 2 (product3 (V c (Pipeline.arrRef spec3 0)) (V c (Pipeline.arrRef spec3 1)))
    (fun t _ => flushedProduct3 V c t) rowsCovered3

/-! ## The host's dot_general is the same product

Its operand indices, axis by axis, as for the block's product. -/

theorem hostLhsRow3 (i : Cert.ReferenceIdeal.S30000x149.Idx) (z : Cert.ReferenceIdeal.dot_S30000x149_S149x149_S30000x149_1_0_0_1_n_n.contr.Idx) :
    (Cert.ReferenceIdeal.dot_S30000x149_S149x149_S30000x149_1_0_0_1_n_n.lhsIdx i z 0).val = (i 0).val := by
  unfold DotDims.lhsIdx
  rw [dif_neg (show ¬(0 : Fin Cert.ReferenceIdeal.S30000x149.rank) ∈ Cert.ReferenceIdeal.dot_S30000x149_S149x149_S30000x149_1_0_0_1_n_n.lhsBatch by decide),
    dif_pos (show (0 : Fin Cert.ReferenceIdeal.S30000x149.rank) ∈ Cert.ReferenceIdeal.dot_S30000x149_S149x149_S30000x149_1_0_0_1_n_n.lhsNonContracting by decide)]
  rfl

theorem hostLhsCol3 (i : Cert.ReferenceIdeal.S30000x149.Idx) (z : Cert.ReferenceIdeal.dot_S30000x149_S149x149_S30000x149_1_0_0_1_n_n.contr.Idx) :
    (Cert.ReferenceIdeal.dot_S30000x149_S149x149_S30000x149_1_0_0_1_n_n.lhsIdx i z 1).val = (z ⟨0, by decide⟩).val :=
  Cert.ReferenceIdeal.dot_S30000x149_S149x149_S30000x149_1_0_0_1_n_n.lhsIdx_val_of_single rfl i z

theorem hostRhsRow3 (i : Cert.ReferenceIdeal.S30000x149.Idx) (z : Cert.ReferenceIdeal.dot_S30000x149_S149x149_S30000x149_1_0_0_1_n_n.contr.Idx) :
    (Cert.ReferenceIdeal.dot_S30000x149_S149x149_S30000x149_1_0_0_1_n_n.rhsIdx i z 0).val = (z ⟨0, by decide⟩).val :=
  Cert.ReferenceIdeal.dot_S30000x149_S149x149_S30000x149_1_0_0_1_n_n.rhsIdx_val_of_single rfl i z

theorem hostRhsCol3 (i : Cert.ReferenceIdeal.S30000x149.Idx) (z : Cert.ReferenceIdeal.dot_S30000x149_S149x149_S30000x149_1_0_0_1_n_n.contr.Idx) :
    (Cert.ReferenceIdeal.dot_S30000x149_S149x149_S30000x149_1_0_0_1_n_n.rhsIdx i z 1).val = (i 1).val := by
  unfold DotDims.rhsIdx
  rw [dif_neg (show ¬(1 : Fin Cert.ReferenceIdeal.S149x149.rank) ∈ Cert.ReferenceIdeal.dot_S30000x149_S149x149_S30000x149_1_0_0_1_n_n.rhsBatch by decide),
    dif_pos (show (1 : Fin Cert.ReferenceIdeal.S149x149.rank) ∈ Cert.ReferenceIdeal.dot_S30000x149_S149x149_S30000x149_1_0_0_1_n_n.rhsNonContracting by decide)]
  rfl

/-- The host's dot_general of a 30000 × 149 array and a 149 × 149 one, contracting the first's columns with the second's
    rows, is their matrix product, entry by entry. -/
theorem hostProduct3 (x : FVec Ideal S30000x149 .f32) (w : FVec Ideal S149x149 .f32) :
    product3 x w = Host.dotGeneral (F := Ideal) Cert.ReferenceIdeal.dot_S30000x149_S149x149_S30000x149_1_0_0_1_n_n none x w := by
  funext i
  simp only [Host.dotGeneral]
  rw [Ideal.dotGeneral_apply, ← Equiv.sum_comp (contrEquiv1 Cert.ReferenceIdeal.dot_S30000x149_S149x149_S30000x149_1_0_0_1_n_n 149 rfl rfl).symm]
  unfold product3
  refine Finset.sum_congr rfl fun k _ => ?_
  have hk := contrEquiv1_symm_val Cert.ReferenceIdeal.dot_S30000x149_S149x149_S30000x149_1_0_0_1_n_n 149 rfl rfl k
  have el : Cert.ReferenceIdeal.dot_S30000x149_S149x149_S30000x149_1_0_0_1_n_n.lhsIdx i ((contrEquiv1 Cert.ReferenceIdeal.dot_S30000x149_S149x149_S30000x149_1_0_0_1_n_n 149 rfl rfl).symm k) = rowAt3 i k :=
    funext fun a => Fin.ext (by
      match a with
      | ⟨0, _⟩ => exact hostLhsRow3 _ _
      | ⟨1, _⟩ => exact (hostLhsCol3 _ _).trans hk)
  have er : Cert.ReferenceIdeal.dot_S30000x149_S149x149_S30000x149_1_0_0_1_n_n.rhsIdx i ((contrEquiv1 Cert.ReferenceIdeal.dot_S30000x149_S149x149_S30000x149_1_0_0_1_n_n 149 rfl rfl).symm k) = colAt3 i k :=
    funext fun a => Fin.ext (by
      match a with
      | ⟨0, _⟩ => exact (hostRhsRow3 _ _).trans hk
      | ⟨1, _⟩ => exact hostRhsCol3 _ _)
  rw [el, er]

/-- Region 3: after its run the output array is the host's dot_general of the two input arrays. -/
theorem dense3 (c : Dev nD) :
    ((Cert.KernelIdeal.Gen.dat3 V c).arrAt 2 cfg3.N : FVec Ideal Cert.ReferenceIdeal.S30000x149 .f32)
      = Host.dotGeneral (F := Ideal) (φ₁ := .f32) (φ₂ := .f32) Cert.ReferenceIdeal.dot_S30000x149_S149x149_S30000x149_1_0_0_1_n_n none
          (V c (Pipeline.arrRef spec3 0)) (V c (Pipeline.arrRef spec3 1)) :=
  (arrayProduct3 V c).trans (hostProduct3 (V c (Pipeline.arrRef spec3 0)) (V c (Pipeline.arrRef spec3 1)))

end Cert.KernelIdeal.RegionValue
-- ==== Proof.Dense4.lean ====
/- Region 4 of the kernel program is a row-blocked matrix product h = x · w: x is a 30000 × 149 array, w a 149 × 298
   array, and grid point t (of 25) multiplies rows 1200·t … 1200·t + 1199 of x by the whole of w and writes the result to
   the same rows of the 30000 × 298 output. On the extended reals the change of float format applied to both operands
   is the identity and a product accumulated into the zero splat is the plain sum over the contracted axis, so each
   output entry (r, q) is ∑ k, x (r, k) · w (k, q) whatever block r falls in; the 25 row blocks cover every row, so the
   output array after the region is that function everywhere — which is what the host's dot_general of x and w is,
   read entry by entry. -/
import proofs.«133553_j23330262351943_2_alg».proof.Proof.Gen.KernelIdeal.Frame
import proofs.«133553_j23330262351943_2_alg».proof.ReferenceIdeal
import proofs.«133553_j23330262351943_2_alg».proof.Proof.Gen.ReferenceIdeal
import Idealize.ShloMosaic.PureOps.Ideal.Laws
import Idealize.ShloMosaic.Lib.ValueIdx
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)
open scoped BigOperators

/-! ## One block: entry (p, q) of the block product

The operand indices of the block's product, axis by axis: the left operand's row is the output's row, the right
operand's column is the output's column, and the two contracted axes carry the contraction position. -/

theorem blockLhsRow4 (i : S1200x298.Idx) (z : dot_S1200x149_S149x298_S1200x298_1_0_0_1_n_n.contr.Idx) :
    (dot_S1200x149_S149x298_S1200x298_1_0_0_1_n_n.lhsIdx i z 0).val = (i 0).val := by
  unfold DotDims.lhsIdx
  rw [dif_neg (show ¬(0 : Fin S1200x149.rank) ∈ dot_S1200x149_S149x298_S1200x298_1_0_0_1_n_n.lhsBatch by decide),
    dif_pos (show (0 : Fin S1200x149.rank) ∈ dot_S1200x149_S149x298_S1200x298_1_0_0_1_n_n.lhsNonContracting by decide)]
  rfl

theorem blockLhsCol4 (i : S1200x298.Idx) (z : dot_S1200x149_S149x298_S1200x298_1_0_0_1_n_n.contr.Idx) :
    (dot_S1200x149_S149x298_S1200x298_1_0_0_1_n_n.lhsIdx i z 1).val = (z ⟨0, by decide⟩).val :=
  dot_S1200x149_S149x298_S1200x298_1_0_0_1_n_n.lhsIdx_val_of_single rfl i z

theorem blockRhsRow4 (i : S1200x298.Idx) (z : dot_S1200x149_S149x298_S1200x298_1_0_0_1_n_n.contr.Idx) :
    (dot_S1200x149_S149x298_S1200x298_1_0_0_1_n_n.rhsIdx i z 0).val = (z ⟨0, by decide⟩).val :=
  dot_S1200x149_S149x298_S1200x298_1_0_0_1_n_n.rhsIdx_val_of_single rfl i z

theorem blockRhsCol4 (i : S1200x298.Idx) (z : dot_S1200x149_S149x298_S1200x298_1_0_0_1_n_n.contr.Idx) :
    (dot_S1200x149_S149x298_S1200x298_1_0_0_1_n_n.rhsIdx i z 1).val = (i 1).val := by
  unfold DotDims.rhsIdx
  rw [dif_neg (show ¬(1 : Fin S149x298.rank) ∈ dot_S1200x149_S149x298_S1200x298_1_0_0_1_n_n.rhsBatch by decide),
    dif_pos (show (1 : Fin S149x298.rank) ∈ dot_S1200x149_S149x298_S1200x298_1_0_0_1_n_n.rhsNonContracting by decide)]
  rfl

/-- One block's result: entry (p, q) is the sum over k of x (p, k) · w (k, q). The cast to the same shape and the change
    of format are the identity on extended reals, and the accumulator is the zero splat. -/
theorem blockProduct4 (x : Vec Ideal S1200x149 .f32) (w : Vec Ideal S149x298 .f32) (p : Fin 1200) (q : Fin 298) :
    k4_pay1 x w (ix2 p q) = ∑ k : Fin 149, x (ix2 p k) * w (ix2 k q) := by
  unfold k4_pay1
  refine (Ideal.matmul_constant_zero_apply dot_S1200x149_S149x298_S1200x298_1_0_0_1_n_n none _ _ (ix2 p q)).trans ?_
  rw [← Equiv.sum_comp (contrEquiv1 dot_S1200x149_S149x298_S1200x298_1_0_0_1_n_n 149 rfl rfl).symm]
  refine Finset.sum_congr rfl fun k _ => ?_
  have hk := contrEquiv1_symm_val dot_S1200x149_S149x298_S1200x298_1_0_0_1_n_n 149 rfl rfl k
  have el : dot_S1200x149_S149x298_S1200x298_1_0_0_1_n_n.lhsIdx (ix2 p q)
      ((contrEquiv1 dot_S1200x149_S149x298_S1200x298_1_0_0_1_n_n 149 rfl rfl).symm k) = ix2 p k :=
    funext fun a => Fin.ext (by
      match a with
      | ⟨0, _⟩ => exact blockLhsRow4 _ _
      | ⟨1, _⟩ => exact (blockLhsCol4 _ _).trans hk)
  have er : dot_S1200x149_S149x298_S1200x298_1_0_0_1_n_n.rhsIdx (ix2 p q)
      ((contrEquiv1 dot_S1200x149_S149x298_S1200x298_1_0_0_1_n_n 149 rfl rfl).symm k) = ix2 k q :=
    funext fun a => Fin.ext (by
      match a with
      | ⟨0, _⟩ => exact (blockRhsRow4 _ _).trans hk
      | ⟨1, _⟩ => exact blockRhsCol4 _ _)
  rw [el, er, shapeCast_self]
  rfl

/-! ## The whole array: the product, entry by entry -/

/-- Entry (r, k) of the left array, for the output entry i = (r, q). -/
abbrev rowAt4 (i : S30000x298.Idx) (k : Fin 149) : S30000x149.Idx := fun a => match a with
  | ⟨0, _⟩ => ⟨(i 0).val, (i 0).isLt⟩
  | ⟨1, _⟩ => ⟨k.val, k.isLt⟩

/-- Entry (k, q) of the right array, for the output entry i = (r, q). -/
abbrev colAt4 (i : S30000x298.Idx) (k : Fin 149) : S149x298.Idx := fun a => match a with
  | ⟨0, _⟩ => ⟨k.val, k.isLt⟩
  | ⟨1, _⟩ => ⟨(i 1).val, (i 1).isLt⟩

/-- The matrix product of a 30000 × 149 array with a 149 × 298 one: entry (r, q) is ∑ k, x (r, k) · w (k, q). -/
def product4 (x : FVec Ideal S30000x149 .f32) (w : FVec Ideal S149x298 .f32) : FVec Ideal S30000x298 .f32 :=
  fun i => ∑ k : Fin 149, x (rowAt4 i k) * w (colAt4 i k)

/-- A block entry is an entry of the whole product, once the block's row p and the weight's column q are read where
    the output entry i's row and column say. -/
theorem blockEntry4 (X : FVec Ideal S30000x149 .f32) (W : FVec Ideal S149x298 .f32) (xb : Vec Ideal S1200x149 .f32) (wb : Vec Ideal S149x298 .f32)
    (i : S30000x298.Idx) (p : Fin 1200) (q : Fin 298)
    (hx : ∀ k : Fin 149, xb (ix2 p k) = X (rowAt4 i k)) (hw : ∀ k : Fin 149, wb (ix2 k q) = W (colAt4 i k)) :
    k4_pay1 xb wb (ix2 p q) = product4 X W i := by
  rw [blockProduct4]
  unfold product4
  exact Finset.sum_congr rfl fun k _ => by rw [hx k, hw k]

/-! ## From blocks to the array -/

theorem origin4 : (![0, 0] : Fin 2 → Nat) = fun _ => 0 := funext fun a => by fin_cases a <;> rfl

/-- The printed index maps over the 25 grid points: the x window and the output window sit at row block t, column block
    0; the weight window is always the whole array. -/
theorem blockIndex4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What grid point t writes back is block t of the product of the two input arrays as the region finds them. -/
theorem flushedProduct4 (c : Dev nD) (t : Fin cfg4.N) :
    (dat4 V c).flushed 2 t = ((cfg4.win 2).blk t).view.read (Elt Ideal)
      (product4 (V c (Pipeline.arrRef spec4 0)) (V c (Pipeline.arrRef spec4 1))) := by
  show (cfg4.win 2).cut (grid4.coords t) ((dat4 V c).after 2 t) = _
  rw [after4_2]
  unfold out4_2
  rw [View.canon_unit_zero origin4]
  simp only [View.ld_unit_zero (S := S1200x149) origin4, View.ld_unit_zero (S := S149x298) origin4]
  obtain ⟨e0, e1, e2, e3, e4, e5⟩ := blockIndex4 t
  funext j
  obtain ⟨p, q, rfl⟩ : ∃ (p : Fin 1200) (q : Fin 298), j = ix2 p q := ⟨j 0, j 1, eq_ix2 j⟩
  refine blockEntry4 (V c (Pipeline.arrRef spec4 0)) (V c (Pipeline.arrRef spec4 1)) (iblk4 V c 0 t) (iblk4 V c 1 t)
    (((cfg4.win 2).blk t).view.emb (ix2 p q)) p q (fun k => ?_) (fun k => ?_)
  · show V c (Pipeline.arrRef spec4 0) (((cfg4.win 0).blk t).view.emb (ix2 p k)) = _
    refine congrArg _ (funext fun a => Fin.ext ?_)
    match a with
    | ⟨0, _⟩ => show win4_0.index t (0 : Fin 2) * 1200 + 1 * p.val = win4_2.index t (0 : Fin 2) * 1200 + 1 * p.val; omega
    | ⟨1, _⟩ => show win4_0.index t (1 : Fin 2) * 149 + 1 * k.val = k.val; omega
  · show V c (Pipeline.arrRef spec4 1) (((cfg4.win 1).blk t).view.emb (ix2 k q)) = _
    refine congrArg _ (funext fun a => Fin.ext ?_)
    match a with
    | ⟨0, _⟩ => show win4_1.index t (0 : Fin 2) * 149 + 1 * k.val = k.val; omega
    | ⟨1, _⟩ => show win4_1.index t (1 : Fin 2) * 298 + 1 * q.val = win4_2.index t (1 : Fin 2) * 298 + 1 * q.val; omega

/-- An index of the output array lies in point t's block iff each coordinate lies in the block's range on its axis. -/
theorem memBlock4 (t : Fin cfg4.N) (i : S30000x298.Idx) :
    i ∈ ((cfg4.win 2).blk t).view.set ↔ ∀ a : Fin 2, win4_2.index t a * S1200x298.size a ≤ (i a).val
      ∧ (i a).val < win4_2.index t a * S1200x298.size a + S1200x298.size a := by
  show i ∈ ((View.whole main_v154).slice (win4_2.rect t)).set ↔ _
  rw [View.set_slice_whole, Rect.mem_set_unit]
  exact Iff.rfl

/-- Row r of the output is written by grid point r / 1200: the 25 row blocks cover the array. -/
theorem rowsCovered4 (i : S30000x298.Idx) :
    ∃ t : Fin cfg4.N, (cfg4.win 2).flush t = true ∧ i ∈ ((cfg4.win 2).blk t).view.set := by
  have hi0 : (i 0).val < 30000 := (i 0).isLt
  have hi1 : (i 1).val < 298 := (i 1).isLt
  have hN : cfg4.N = 25 := N_4
  have ht : (i 0).val / 1200 < cfg4.N := by rw [hN]; omega
  obtain ⟨-, -, -, -, e4, e5⟩ := blockIndex4 ⟨(i 0).val / 1200, ht⟩
  refine ⟨⟨(i 0).val / 1200, ht⟩, flush4_2 _, ?_⟩
  rw [memBlock4]
  intro a
  match a with
  | ⟨0, _⟩ =>
    show win4_2.index ⟨(i 0).val / 1200, ht⟩ (0 : Fin 2) * 1200 ≤ (i 0).val
      ∧ (i 0).val < win4_2.index ⟨(i 0).val / 1200, ht⟩ (0 : Fin 2) * 1200 + 1200
    rw [e4]
    show (i 0).val / 1200 * 1200 ≤ (i 0).val ∧ (i 0).val < (i 0).val / 1200 * 1200 + 1200
    omega
  | ⟨1, _⟩ =>
    show win4_2.index ⟨(i 0).val / 1200, ht⟩ (1 : Fin 2) * 298 ≤ (i 1).val
      ∧ (i 1).val < win4_2.index ⟨(i 0).val / 1200, ht⟩ (1 : Fin 2) * 298 + 298
    rw [e5]
    omega

/-- After the region the output array is the product of the two input arrays as the region finds them. -/
theorem arrayProduct4 (c : Dev nD) :
    (dat4 V c).arrAt 2 cfg4.N
      = product4 (V c (Pipeline.arrRef spec4 0)) (V c (Pipeline.arrRef spec4 1)) :=
  (dat4 V c).arrAt_eq_of_cover 2 (product4 (V c (Pipeline.arrRef spec4 0)) (V c (Pipeline.arrRef spec4 1)))
    (fun t _ => flushedProduct4 V c t) rowsCovered4

/-! ## The host's dot_general is the same product

Its operand indices, axis by axis, as for the block's product. -/

theorem hostLhsRow4 (i : Cert.ReferenceIdeal.S30000x298.Idx) (z : Cert.ReferenceIdeal.dot_S30000x149_S149x298_S30000x298_1_0_0_1_n_n.contr.Idx) :
    (Cert.ReferenceIdeal.dot_S30000x149_S149x298_S30000x298_1_0_0_1_n_n.lhsIdx i z 0).val = (i 0).val := by
  unfold DotDims.lhsIdx
  rw [dif_neg (show ¬(0 : Fin Cert.ReferenceIdeal.S30000x149.rank) ∈ Cert.ReferenceIdeal.dot_S30000x149_S149x298_S30000x298_1_0_0_1_n_n.lhsBatch by decide),
    dif_pos (show (0 : Fin Cert.ReferenceIdeal.S30000x149.rank) ∈ Cert.ReferenceIdeal.dot_S30000x149_S149x298_S30000x298_1_0_0_1_n_n.lhsNonContracting by decide)]
  rfl

theorem hostLhsCol4 (i : Cert.ReferenceIdeal.S30000x298.Idx) (z : Cert.ReferenceIdeal.dot_S30000x149_S149x298_S30000x298_1_0_0_1_n_n.contr.Idx) :
    (Cert.ReferenceIdeal.dot_S30000x149_S149x298_S30000x298_1_0_0_1_n_n.lhsIdx i z 1).val = (z ⟨0, by decide⟩).val :=
  Cert.ReferenceIdeal.dot_S30000x149_S149x298_S30000x298_1_0_0_1_n_n.lhsIdx_val_of_single rfl i z

theorem hostRhsRow4 (i : Cert.ReferenceIdeal.S30000x298.Idx) (z : Cert.ReferenceIdeal.dot_S30000x149_S149x298_S30000x298_1_0_0_1_n_n.contr.Idx) :
    (Cert.ReferenceIdeal.dot_S30000x149_S149x298_S30000x298_1_0_0_1_n_n.rhsIdx i z 0).val = (z ⟨0, by decide⟩).val :=
  Cert.ReferenceIdeal.dot_S30000x149_S149x298_S30000x298_1_0_0_1_n_n.rhsIdx_val_of_single rfl i z

theorem hostRhsCol4 (i : Cert.ReferenceIdeal.S30000x298.Idx) (z : Cert.ReferenceIdeal.dot_S30000x149_S149x298_S30000x298_1_0_0_1_n_n.contr.Idx) :
    (Cert.ReferenceIdeal.dot_S30000x149_S149x298_S30000x298_1_0_0_1_n_n.rhsIdx i z 1).val = (i 1).val := by
  unfold DotDims.rhsIdx
  rw [dif_neg (show ¬(1 : Fin Cert.ReferenceIdeal.S149x298.rank) ∈ Cert.ReferenceIdeal.dot_S30000x149_S149x298_S30000x298_1_0_0_1_n_n.rhsBatch by decide),
    dif_pos (show (1 : Fin Cert.ReferenceIdeal.S149x298.rank) ∈ Cert.ReferenceIdeal.dot_S30000x149_S149x298_S30000x298_1_0_0_1_n_n.rhsNonContracting by decide)]
  rfl

/-- The host's dot_general of a 30000 × 149 array and a 149 × 298 one, contracting the first's columns with the second's
    rows, is their matrix product, entry by entry. -/
theorem hostProduct4 (x : FVec Ideal S30000x149 .f32) (w : FVec Ideal S149x298 .f32) :
    product4 x w = Host.dotGeneral (F := Ideal) Cert.ReferenceIdeal.dot_S30000x149_S149x298_S30000x298_1_0_0_1_n_n none x w := by
  funext i
  simp only [Host.dotGeneral]
  rw [Ideal.dotGeneral_apply, ← Equiv.sum_comp (contrEquiv1 Cert.ReferenceIdeal.dot_S30000x149_S149x298_S30000x298_1_0_0_1_n_n 149 rfl rfl).symm]
  unfold product4
  refine Finset.sum_congr rfl fun k _ => ?_
  have hk := contrEquiv1_symm_val Cert.ReferenceIdeal.dot_S30000x149_S149x298_S30000x298_1_0_0_1_n_n 149 rfl rfl k
  have el : Cert.ReferenceIdeal.dot_S30000x149_S149x298_S30000x298_1_0_0_1_n_n.lhsIdx i ((contrEquiv1 Cert.ReferenceIdeal.dot_S30000x149_S149x298_S30000x298_1_0_0_1_n_n 149 rfl rfl).symm k) = rowAt4 i k :=
    funext fun a => Fin.ext (by
      match a with
      | ⟨0, _⟩ => exact hostLhsRow4 _ _
      | ⟨1, _⟩ => exact (hostLhsCol4 _ _).trans hk)
  have er : Cert.ReferenceIdeal.dot_S30000x149_S149x298_S30000x298_1_0_0_1_n_n.rhsIdx i ((contrEquiv1 Cert.ReferenceIdeal.dot_S30000x149_S149x298_S30000x298_1_0_0_1_n_n 149 rfl rfl).symm k) = colAt4 i k :=
    funext fun a => Fin.ext (by
      match a with
      | ⟨0, _⟩ => exact (hostRhsRow4 _ _).trans hk
      | ⟨1, _⟩ => exact hostRhsCol4 _ _)
  rw [el, er]

/-- Region 4: after its run the output array is the host's dot_general of the two input arrays. -/
theorem dense4 (c : Dev nD) :
    ((Cert.KernelIdeal.Gen.dat4 V c).arrAt 2 cfg4.N : FVec Ideal Cert.ReferenceIdeal.S30000x298 .f32)
      = Host.dotGeneral (F := Ideal) (φ₁ := .f32) (φ₂ := .f32) Cert.ReferenceIdeal.dot_S30000x149_S149x298_S30000x298_1_0_0_1_n_n none
          (V c (Pipeline.arrRef spec4 0)) (V c (Pipeline.arrRef spec4 1)) :=
  (arrayProduct4 V c).trans (hostProduct4 (V c (Pipeline.arrRef spec4 0)) (V c (Pipeline.arrRef spec4 1)))

end Cert.KernelIdeal.RegionValue
-- ==== Proof.Dense5.lean ====
/- Region 5 of the kernel program is a row-blocked matrix product h = x · w: x is a 30000 × 596 array, w a 596 × 596
   array, and grid point t (of 25) multiplies rows 1200·t … 1200·t + 1199 of x by the whole of w and writes the result to
   the same rows of the 30000 × 596 output. On the extended reals the change of float format applied to both operands
   is the identity and a product accumulated into the zero splat is the plain sum over the contracted axis, so each
   output entry (r, q) is ∑ k, x (r, k) · w (k, q) whatever block r falls in; the 25 row blocks cover every row, so the
   output array after the region is that function everywhere — which is what the host's dot_general of x and w is,
   read entry by entry. -/
import proofs.«133553_j23330262351943_2_alg».proof.Proof.Gen.KernelIdeal.Frame
import proofs.«133553_j23330262351943_2_alg».proof.ReferenceIdeal
import proofs.«133553_j23330262351943_2_alg».proof.Proof.Gen.ReferenceIdeal
import Idealize.ShloMosaic.PureOps.Ideal.Laws
import Idealize.ShloMosaic.Lib.ValueIdx
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)
open scoped BigOperators

/-! ## One block: entry (p, q) of the block product

The operand indices of the block's product, axis by axis: the left operand's row is the output's row, the right
operand's column is the output's column, and the two contracted axes carry the contraction position. -/

theorem blockLhsRow5 (i : S1200x596.Idx) (z : dot_S1200x596_S596x596_S1200x596_1_0_0_1_n_n.contr.Idx) :
    (dot_S1200x596_S596x596_S1200x596_1_0_0_1_n_n.lhsIdx i z 0).val = (i 0).val := by
  unfold DotDims.lhsIdx
  rw [dif_neg (show ¬(0 : Fin S1200x596.rank) ∈ dot_S1200x596_S596x596_S1200x596_1_0_0_1_n_n.lhsBatch by decide),
    dif_pos (show (0 : Fin S1200x596.rank) ∈ dot_S1200x596_S596x596_S1200x596_1_0_0_1_n_n.lhsNonContracting by decide)]
  rfl

theorem blockLhsCol5 (i : S1200x596.Idx) (z : dot_S1200x596_S596x596_S1200x596_1_0_0_1_n_n.contr.Idx) :
    (dot_S1200x596_S596x596_S1200x596_1_0_0_1_n_n.lhsIdx i z 1).val = (z ⟨0, by decide⟩).val :=
  dot_S1200x596_S596x596_S1200x596_1_0_0_1_n_n.lhsIdx_val_of_single rfl i z

theorem blockRhsRow5 (i : S1200x596.Idx) (z : dot_S1200x596_S596x596_S1200x596_1_0_0_1_n_n.contr.Idx) :
    (dot_S1200x596_S596x596_S1200x596_1_0_0_1_n_n.rhsIdx i z 0).val = (z ⟨0, by decide⟩).val :=
  dot_S1200x596_S596x596_S1200x596_1_0_0_1_n_n.rhsIdx_val_of_single rfl i z

theorem blockRhsCol5 (i : S1200x596.Idx) (z : dot_S1200x596_S596x596_S1200x596_1_0_0_1_n_n.contr.Idx) :
    (dot_S1200x596_S596x596_S1200x596_1_0_0_1_n_n.rhsIdx i z 1).val = (i 1).val := by
  unfold DotDims.rhsIdx
  rw [dif_neg (show ¬(1 : Fin S596x596.rank) ∈ dot_S1200x596_S596x596_S1200x596_1_0_0_1_n_n.rhsBatch by decide),
    dif_pos (show (1 : Fin S596x596.rank) ∈ dot_S1200x596_S596x596_S1200x596_1_0_0_1_n_n.rhsNonContracting by decide)]
  rfl

/-- One block's result: entry (p, q) is the sum over k of x (p, k) · w (k, q). The cast to the same shape and the change
    of format are the identity on extended reals, and the accumulator is the zero splat. -/
theorem blockProduct5 (x : Vec Ideal S1200x596 .f32) (w : Vec Ideal S596x596 .f32) (p : Fin 1200) (q : Fin 596) :
    k5_pay1 x w (ix2 p q) = ∑ k : Fin 596, x (ix2 p k) * w (ix2 k q) := by
  unfold k5_pay1
  refine (Ideal.matmul_constant_zero_apply dot_S1200x596_S596x596_S1200x596_1_0_0_1_n_n none _ _ (ix2 p q)).trans ?_
  rw [← Equiv.sum_comp (contrEquiv1 dot_S1200x596_S596x596_S1200x596_1_0_0_1_n_n 596 rfl rfl).symm]
  refine Finset.sum_congr rfl fun k _ => ?_
  have hk := contrEquiv1_symm_val dot_S1200x596_S596x596_S1200x596_1_0_0_1_n_n 596 rfl rfl k
  have el : dot_S1200x596_S596x596_S1200x596_1_0_0_1_n_n.lhsIdx (ix2 p q)
      ((contrEquiv1 dot_S1200x596_S596x596_S1200x596_1_0_0_1_n_n 596 rfl rfl).symm k) = ix2 p k :=
    funext fun a => Fin.ext (by
      match a with
      | ⟨0, _⟩ => exact blockLhsRow5 _ _
      | ⟨1, _⟩ => exact (blockLhsCol5 _ _).trans hk)
  have er : dot_S1200x596_S596x596_S1200x596_1_0_0_1_n_n.rhsIdx (ix2 p q)
      ((contrEquiv1 dot_S1200x596_S596x596_S1200x596_1_0_0_1_n_n 596 rfl rfl).symm k) = ix2 k q :=
    funext fun a => Fin.ext (by
      match a with
      | ⟨0, _⟩ => exact (blockRhsRow5 _ _).trans hk
      | ⟨1, _⟩ => exact blockRhsCol5 _ _)
  rw [el, er, shapeCast_self]
  rfl

/-! ## The whole array: the product, entry by entry -/

/-- Entry (r, k) of the left array, for the output entry i = (r, q). -/
abbrev rowAt5 (i : S30000x596.Idx) (k : Fin 596) : S30000x596.Idx := fun a => match a with
  | ⟨0, _⟩ => ⟨(i 0).val, (i 0).isLt⟩
  | ⟨1, _⟩ => ⟨k.val, k.isLt⟩

/-- Entry (k, q) of the right array, for the output entry i = (r, q). -/
abbrev colAt5 (i : S30000x596.Idx) (k : Fin 596) : S596x596.Idx := fun a => match a with
  | ⟨0, _⟩ => ⟨k.val, k.isLt⟩
  | ⟨1, _⟩ => ⟨(i 1).val, (i 1).isLt⟩

/-- The matrix product of a 30000 × 596 array with a 596 × 596 one: entry (r, q) is ∑ k, x (r, k) · w (k, q). -/
def product5 (x : FVec Ideal S30000x596 .f32) (w : FVec Ideal S596x596 .f32) : FVec Ideal S30000x596 .f32 :=
  fun i => ∑ k : Fin 596, x (rowAt5 i k) * w (colAt5 i k)

/-- A block entry is an entry of the whole product, once the block's row p and the weight's column q are read where
    the output entry i's row and column say. -/
theorem blockEntry5 (X : FVec Ideal S30000x596 .f32) (W : FVec Ideal S596x596 .f32) (xb : Vec Ideal S1200x596 .f32) (wb : Vec Ideal S596x596 .f32)
    (i : S30000x596.Idx) (p : Fin 1200) (q : Fin 596)
    (hx : ∀ k : Fin 596, xb (ix2 p k) = X (rowAt5 i k)) (hw : ∀ k : Fin 596, wb (ix2 k q) = W (colAt5 i k)) :
    k5_pay1 xb wb (ix2 p q) = product5 X W i := by
  rw [blockProduct5]
  unfold product5
  exact Finset.sum_congr rfl fun k _ => by rw [hx k, hw k]

/-! ## From blocks to the array -/

theorem origin5 : (![0, 0] : Fin 2 → Nat) = fun _ => 0 := funext fun a => by fin_cases a <;> rfl

/-- The printed index maps over the 25 grid points: the x window and the output window sit at row block t, column block
    0; the weight window is always the whole array. -/
theorem blockIndex5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- What grid point t writes back is block t of the product of the two input arrays as the region finds them. -/
theorem flushedProduct5 (c : Dev nD) (t : Fin cfg5.N) :
    (dat5 V c).flushed 2 t = ((cfg5.win 2).blk t).view.read (Elt Ideal)
      (product5 (V c (Pipeline.arrRef spec5 0)) (V c (Pipeline.arrRef spec5 1))) := by
  show (cfg5.win 2).cut (grid5.coords t) ((dat5 V c).after 2 t) = _
  rw [after5_2]
  unfold out5_2
  rw [View.canon_unit_zero origin5]
  simp only [View.ld_unit_zero (S := S1200x596) origin5, View.ld_unit_zero (S := S596x596) origin5]
  obtain ⟨e0, e1, e2, e3, e4, e5⟩ := blockIndex5 t
  funext j
  obtain ⟨p, q, rfl⟩ : ∃ (p : Fin 1200) (q : Fin 596), j = ix2 p q := ⟨j 0, j 1, eq_ix2 j⟩
  refine blockEntry5 (V c (Pipeline.arrRef spec5 0)) (V c (Pipeline.arrRef spec5 1)) (iblk5 V c 0 t) (iblk5 V c 1 t)
    (((cfg5.win 2).blk t).view.emb (ix2 p q)) p q (fun k => ?_) (fun k => ?_)
  · show V c (Pipeline.arrRef spec5 0) (((cfg5.win 0).blk t).view.emb (ix2 p k)) = _
    refine congrArg _ (funext fun a => Fin.ext ?_)
    match a with
    | ⟨0, _⟩ => show win5_0.index t (0 : Fin 2) * 1200 + 1 * p.val = win5_2.index t (0 : Fin 2) * 1200 + 1 * p.val; omega
    | ⟨1, _⟩ => show win5_0.index t (1 : Fin 2) * 596 + 1 * k.val = k.val; omega
  · show V c (Pipeline.arrRef spec5 1) (((cfg5.win 1).blk t).view.emb (ix2 k q)) = _
    refine congrArg _ (funext fun a => Fin.ext ?_)
    match a with
    | ⟨0, _⟩ => show win5_1.index t (0 : Fin 2) * 596 + 1 * k.val = k.val; omega
    | ⟨1, _⟩ => show win5_1.index t (1 : Fin 2) * 596 + 1 * q.val = win5_2.index t (1 : Fin 2) * 596 + 1 * q.val; omega

/-- An index of the output array lies in point t's block iff each coordinate lies in the block's range on its axis. -/
theorem memBlock5 (t : Fin cfg5.N) (i : S30000x596.Idx) :
    i ∈ ((cfg5.win 2).blk t).view.set ↔ ∀ a : Fin 2, win5_2.index t a * S1200x596.size a ≤ (i a).val
      ∧ (i a).val < win5_2.index t a * S1200x596.size a + S1200x596.size a := by
  show i ∈ ((View.whole main_v204).slice (win5_2.rect t)).set ↔ _
  rw [View.set_slice_whole, Rect.mem_set_unit]
  exact Iff.rfl

/-- Row r of the output is written by grid point r / 1200: the 25 row blocks cover the array. -/
theorem rowsCovered5 (i : S30000x596.Idx) :
    ∃ t : Fin cfg5.N, (cfg5.win 2).flush t = true ∧ i ∈ ((cfg5.win 2).blk t).view.set := by
  have hi0 : (i 0).val < 30000 := (i 0).isLt
  have hi1 : (i 1).val < 596 := (i 1).isLt
  have hN : cfg5.N = 25 := N_5
  have ht : (i 0).val / 1200 < cfg5.N := by rw [hN]; omega
  obtain ⟨-, -, -, -, e4, e5⟩ := blockIndex5 ⟨(i 0).val / 1200, ht⟩
  refine ⟨⟨(i 0).val / 1200, ht⟩, flush5_2 _, ?_⟩
  rw [memBlock5]
  intro a
  match a with
  | ⟨0, _⟩ =>
    show win5_2.index ⟨(i 0).val / 1200, ht⟩ (0 : Fin 2) * 1200 ≤ (i 0).val
      ∧ (i 0).val < win5_2.index ⟨(i 0).val / 1200, ht⟩ (0 : Fin 2) * 1200 + 1200
    rw [e4]
    show (i 0).val / 1200 * 1200 ≤ (i 0).val ∧ (i 0).val < (i 0).val / 1200 * 1200 + 1200
    omega
  | ⟨1, _⟩ =>
    show win5_2.index ⟨(i 0).val / 1200, ht⟩ (1 : Fin 2) * 596 ≤ (i 1).val
      ∧ (i 1).val < win5_2.index ⟨(i 0).val / 1200, ht⟩ (1 : Fin 2) * 596 + 596
    rw [e5]
    omega

/-- After the region the output array is the product of the two input arrays as the region finds them. -/
theorem arrayProduct5 (c : Dev nD) :
    (dat5 V c).arrAt 2 cfg5.N
      = product5 (V c (Pipeline.arrRef spec5 0)) (V c (Pipeline.arrRef spec5 1)) :=
  (dat5 V c).arrAt_eq_of_cover 2 (product5 (V c (Pipeline.arrRef spec5 0)) (V c (Pipeline.arrRef spec5 1)))
    (fun t _ => flushedProduct5 V c t) rowsCovered5

/-! ## The host's dot_general is the same product

Its operand indices, axis by axis, as for the block's product. -/

theorem hostLhsRow5 (i : Cert.ReferenceIdeal.S30000x596.Idx) (z : Cert.ReferenceIdeal.dot_S30000x596_S596x596_S30000x596_1_0_0_1_n_n.contr.Idx) :
    (Cert.ReferenceIdeal.dot_S30000x596_S596x596_S30000x596_1_0_0_1_n_n.lhsIdx i z 0).val = (i 0).val := by
  unfold DotDims.lhsIdx
  rw [dif_neg (show ¬(0 : Fin Cert.ReferenceIdeal.S30000x596.rank) ∈ Cert.ReferenceIdeal.dot_S30000x596_S596x596_S30000x596_1_0_0_1_n_n.lhsBatch by decide),
    dif_pos (show (0 : Fin Cert.ReferenceIdeal.S30000x596.rank) ∈ Cert.ReferenceIdeal.dot_S30000x596_S596x596_S30000x596_1_0_0_1_n_n.lhsNonContracting by decide)]
  rfl

theorem hostLhsCol5 (i : Cert.ReferenceIdeal.S30000x596.Idx) (z : Cert.ReferenceIdeal.dot_S30000x596_S596x596_S30000x596_1_0_0_1_n_n.contr.Idx) :
    (Cert.ReferenceIdeal.dot_S30000x596_S596x596_S30000x596_1_0_0_1_n_n.lhsIdx i z 1).val = (z ⟨0, by decide⟩).val :=
  Cert.ReferenceIdeal.dot_S30000x596_S596x596_S30000x596_1_0_0_1_n_n.lhsIdx_val_of_single rfl i z

theorem hostRhsRow5 (i : Cert.ReferenceIdeal.S30000x596.Idx) (z : Cert.ReferenceIdeal.dot_S30000x596_S596x596_S30000x596_1_0_0_1_n_n.contr.Idx) :
    (Cert.ReferenceIdeal.dot_S30000x596_S596x596_S30000x596_1_0_0_1_n_n.rhsIdx i z 0).val = (z ⟨0, by decide⟩).val :=
  Cert.ReferenceIdeal.dot_S30000x596_S596x596_S30000x596_1_0_0_1_n_n.rhsIdx_val_of_single rfl i z

theorem hostRhsCol5 (i : Cert.ReferenceIdeal.S30000x596.Idx) (z : Cert.ReferenceIdeal.dot_S30000x596_S596x596_S30000x596_1_0_0_1_n_n.contr.Idx) :
    (Cert.ReferenceIdeal.dot_S30000x596_S596x596_S30000x596_1_0_0_1_n_n.rhsIdx i z 1).val = (i 1).val := by
  unfold DotDims.rhsIdx
  rw [dif_neg (show ¬(1 : Fin Cert.ReferenceIdeal.S596x596.rank) ∈ Cert.ReferenceIdeal.dot_S30000x596_S596x596_S30000x596_1_0_0_1_n_n.rhsBatch by decide),
    dif_pos (show (1 : Fin Cert.ReferenceIdeal.S596x596.rank) ∈ Cert.ReferenceIdeal.dot_S30000x596_S596x596_S30000x596_1_0_0_1_n_n.rhsNonContracting by decide)]
  rfl

/-- The host's dot_general of a 30000 × 596 array and a 596 × 596 one, contracting the first's columns with the second's
    rows, is their matrix product, entry by entry. -/
theorem hostProduct5 (x : FVec Ideal S30000x596 .f32) (w : FVec Ideal S596x596 .f32) :
    product5 x w = Host.dotGeneral (F := Ideal) Cert.ReferenceIdeal.dot_S30000x596_S596x596_S30000x596_1_0_0_1_n_n none x w := by
  funext i
  simp only [Host.dotGeneral]
  rw [Ideal.dotGeneral_apply, ← Equiv.sum_comp (contrEquiv1 Cert.ReferenceIdeal.dot_S30000x596_S596x596_S30000x596_1_0_0_1_n_n 596 rfl rfl).symm]
  unfold product5
  refine Finset.sum_congr rfl fun k _ => ?_
  have hk := contrEquiv1_symm_val Cert.ReferenceIdeal.dot_S30000x596_S596x596_S30000x596_1_0_0_1_n_n 596 rfl rfl k
  have el : Cert.ReferenceIdeal.dot_S30000x596_S596x596_S30000x596_1_0_0_1_n_n.lhsIdx i ((contrEquiv1 Cert.ReferenceIdeal.dot_S30000x596_S596x596_S30000x596_1_0_0_1_n_n 596 rfl rfl).symm k) = rowAt5 i k :=
    funext fun a => Fin.ext (by
      match a with
      | ⟨0, _⟩ => exact hostLhsRow5 _ _
      | ⟨1, _⟩ => exact (hostLhsCol5 _ _).trans hk)
  have er : Cert.ReferenceIdeal.dot_S30000x596_S596x596_S30000x596_1_0_0_1_n_n.rhsIdx i ((contrEquiv1 Cert.ReferenceIdeal.dot_S30000x596_S596x596_S30000x596_1_0_0_1_n_n 596 rfl rfl).symm k) = colAt5 i k :=
    funext fun a => Fin.ext (by
      match a with
      | ⟨0, _⟩ => exact (hostRhsRow5 _ _).trans hk
      | ⟨1, _⟩ => exact hostRhsCol5 _ _)
  rw [el, er]

/-- Region 5: after its run the output array is the host's dot_general of the two input arrays. -/
theorem dense5 (c : Dev nD) :
    ((Cert.KernelIdeal.Gen.dat5 V c).arrAt 2 cfg5.N : FVec Ideal Cert.ReferenceIdeal.S30000x596 .f32)
      = Host.dotGeneral (F := Ideal) (φ₁ := .f32) (φ₂ := .f32) Cert.ReferenceIdeal.dot_S30000x596_S596x596_S30000x596_1_0_0_1_n_n none
          (V c (Pipeline.arrRef spec5 0)) (V c (Pipeline.arrRef spec5 1)) :=
  (arrayProduct5 V c).trans (hostProduct5 (V c (Pipeline.arrRef spec5 0)) (V c (Pipeline.arrRef spec5 1)))

end Cert.KernelIdeal.RegionValue
-- ==== Proof.HostStages1.lean ====
import proofs.«133553_j23330262351943_2_alg».proof.Proof.Gen.KernelIdeal.Launch
import proofs.«133553_j23330262351943_2_alg».proof.Proof.RefReadP
import Idealize.ShloMosaic.Lib.StableHlo.Run

/-! # The host stretches before the first two matrix products, and the first graph convolution

Between its matrix-product regions the kernel's program runs the same array operations as the plain
program it is compared with; only the buffers are named differently. Each statement here takes an
arbitrary assignment `W` of contents to the kernel program's buffers, assumes that the buffers a
stretch reads hold the compared program's stages of the same arguments, and concludes that the
buffers the stretch writes hold the compared program's later stages.

* The two bias vectors enter the first region as one-row matrices.
* The edge list is a 2 × 300000 integer array; its two rows (sources, targets) are sliced out and
  flattened.
* One graph convolution: the in-degree of every node (a scatter-add of ones over the targets) plus
  one, its inverse square root `d`; per edge the product `d[src] * d[dst]`; the messages
  `h[src] * (d[src] * d[dst])` scatter-added at the targets; the self term `h * d²`; the bias;
  and the positive part. Negative indices are wrapped by the node count before each gather. -/

noncomputable section

namespace Cert.KernelIdeal.HostStages

open Idealize.ShloMosaic Idealize.ShloMosaic.StableHlo
open Cert.KernelIdeal Cert.KernelIdeal.Gen
open Cert.ReferenceIdeal.ReadP

/-- The wider bias vector, as the 1 × 128 matrix the first region reads. -/
theorem biasRow_wide (W : Valuation τ sig (Elt Ideal)) :
    StableHlo.after (hostOps0 (F := Ideal)) W (Proc.devRef .tc main_v0)
      = shapeCast _ (W (Proc.devRef .tc main_arg5) : (⟨S128, .f32⟩ : BufTy).Contents (Elt Ideal)) shapeCasts_S128_S1x128 := by
  after_results
  rfl

/-- The narrower bias vector, as the 1 × 21 matrix the first region reads. -/
theorem biasRow_narrow (W : Valuation τ sig (Elt Ideal)) :
    StableHlo.after (hostOps0 (F := Ideal)) W (Proc.devRef .tc main_v1)
      = shapeCast _ (W (Proc.devRef .tc main_arg7) : (⟨S21, .f32⟩ : BufTy).Contents (Elt Ideal)) shapeCasts_S21_S1x21 := by
  after_results
  rfl

/-- Row 0 of the edge list, flattened: the source node of every edge. -/
theorem edgeSources_first (W : Valuation τ sig (Elt Ideal))
    (a1 : (⟨Cert.ReferenceIdeal.S2x300000, .i32⟩ : BufTy).Contents (Elt Ideal))
    (h1 : W (Proc.devRef .tc main_arg1) = a1) :
    StableHlo.after (hostOps1 (F := Ideal)) W (Proc.devRef .tc main_v4)
      = val_main_v14 (F := Ideal) a1 := by
  after_results
  rw [h1]
  rfl

/-- Row 1 of the edge list, flattened: the target node of every edge. -/
theorem edgeTargets_first (W : Valuation τ sig (Elt Ideal))
    (a1 : (⟨Cert.ReferenceIdeal.S2x300000, .i32⟩ : BufTy).Contents (Elt Ideal))
    (h1 : W (Proc.devRef .tc main_arg1) = a1) :
    StableHlo.after (hostOps1 (F := Ideal)) W (Proc.devRef .tc main_v6)
      = val_main_v16 (F := Ideal) a1 := by
  after_results
  rw [h1]
  rfl

/-- The first graph convolution before its positive part: messages summed at the targets, plus the self term, plus the bias. -/
theorem conv1_preact (W : Valuation τ sig (Elt Ideal))
    (a0 : (⟨Cert.ReferenceIdeal.S30000x6485, .f32⟩ : BufTy).Contents (Elt Ideal))
    (a1 : (⟨Cert.ReferenceIdeal.S2x300000, .i32⟩ : BufTy).Contents (Elt Ideal))
    (a4 : (⟨Cert.ReferenceIdeal.S6464x128, .f32⟩ : BufTy).Contents (Elt Ideal))
    (a5 : (⟨Cert.ReferenceIdeal.S128, .f32⟩ : BufTy).Contents (Elt Ideal))
    (a6 : (⟨Cert.ReferenceIdeal.S21x21, .f32⟩ : BufTy).Contents (Elt Ideal))
    (a7 : (⟨Cert.ReferenceIdeal.S21, .f32⟩ : BufTy).Contents (Elt Ideal))
    (a8 : (⟨Cert.ReferenceIdeal.S149x149, .f32⟩ : BufTy).Contents (Elt Ideal))
    (a9 : (⟨Cert.ReferenceIdeal.S149, .f32⟩ : BufTy).Contents (Elt Ideal))
    (h7 : W (Proc.devRef .tc main_v7) = val_main_v17 (F := Ideal) a0 a4 a5 a6 a7 a8)
    (h4 : W (Proc.devRef .tc main_v4) = val_main_v14 (F := Ideal) a1)
    (h6 : W (Proc.devRef .tc main_v6) = val_main_v16 (F := Ideal) a1)
    (h9 : W (Proc.devRef .tc main_arg9) = a9) :
    StableHlo.after (hostOps2 (F := Ideal)) W (Proc.devRef .tc main_v50)
      = val_main_v60 (F := Ideal) a0 a1 a4 a5 a6 a7 a8 a9 := by
  after_results_simp
  simp only [h7, h4, h6, h9]
  rfl

/-- The positive part, taken entrywise against a zero array, of whatever the buffer before it holds. -/
theorem positivePart_conv1 (X : Valuation τ sig (Elt Ideal))
    (y : (⟨Cert.ReferenceIdeal.S30000x149, .f32⟩ : BufTy).Contents (Elt Ideal))
    (h : X (Proc.devRef .tc main_v50) = y) :
    StableHlo.after (hostOps2_1 (F := Ideal)) X (Proc.devRef .tc main_v51)
      = maximumf (F := Ideal) (s := Cert.ReferenceIdeal.S30000x149) (φ := .f32) y (val_main_call2_v0 (F := Ideal)) := by
  subst h
  after_results_simp
  rfl

/-- The first graph convolution, positive part taken. -/
theorem conv1_act (W : Valuation τ sig (Elt Ideal))
    (a0 : (⟨Cert.ReferenceIdeal.S30000x6485, .f32⟩ : BufTy).Contents (Elt Ideal))
    (a1 : (⟨Cert.ReferenceIdeal.S2x300000, .i32⟩ : BufTy).Contents (Elt Ideal))
    (a4 : (⟨Cert.ReferenceIdeal.S6464x128, .f32⟩ : BufTy).Contents (Elt Ideal))
    (a5 : (⟨Cert.ReferenceIdeal.S128, .f32⟩ : BufTy).Contents (Elt Ideal))
    (a6 : (⟨Cert.ReferenceIdeal.S21x21, .f32⟩ : BufTy).Contents (Elt Ideal))
    (a7 : (⟨Cert.ReferenceIdeal.S21, .f32⟩ : BufTy).Contents (Elt Ideal))
    (a8 : (⟨Cert.ReferenceIdeal.S149x149, .f32⟩ : BufTy).Contents (Elt Ideal))
    (a9 : (⟨Cert.ReferenceIdeal.S149, .f32⟩ : BufTy).Contents (Elt Ideal))
    (h7 : W (Proc.devRef .tc main_v7) = val_main_v17 (F := Ideal) a0 a4 a5 a6 a7 a8)
    (h4 : W (Proc.devRef .tc main_v4) = val_main_v14 (F := Ideal) a1)
    (h6 : W (Proc.devRef .tc main_v6) = val_main_v16 (F := Ideal) a1)
    (h9 : W (Proc.devRef .tc main_arg9) = a9) :
    StableHlo.after (hostOps2_1 (F := Ideal)) (StableHlo.after (hostOps2 (F := Ideal)) W) (Proc.devRef .tc main_v51)
      = val_main_v61 (F := Ideal) a0 a1 a4 a5 a6 a7 a8 a9 :=
  positivePart_conv1 (StableHlo.after (hostOps2 (F := Ideal)) W) _ (conv1_preact W a0 a1 a4 a5 a6 a7 a8 a9 h7 h4 h6 h9)

/-- The same buffer after the next layer's edge rows have been sliced: they are written elsewhere. -/
theorem conv1_out (W : Valuation τ sig (Elt Ideal))
    (a0 : (⟨Cert.ReferenceIdeal.S30000x6485, .f32⟩ : BufTy).Contents (Elt Ideal))
    (a1 : (⟨Cert.ReferenceIdeal.S2x300000, .i32⟩ : BufTy).Contents (Elt Ideal))
    (a4 : (⟨Cert.ReferenceIdeal.S6464x128, .f32⟩ : BufTy).Contents (Elt Ideal))
    (a5 : (⟨Cert.ReferenceIdeal.S128, .f32⟩ : BufTy).Contents (Elt Ideal))
    (a6 : (⟨Cert.ReferenceIdeal.S21x21, .f32⟩ : BufTy).Contents (Elt Ideal))
    (a7 : (⟨Cert.ReferenceIdeal.S21, .f32⟩ : BufTy).Contents (Elt Ideal))
    (a8 : (⟨Cert.ReferenceIdeal.S149x149, .f32⟩ : BufTy).Contents (Elt Ideal))
    (a9 : (⟨Cert.ReferenceIdeal.S149, .f32⟩ : BufTy).Contents (Elt Ideal))
    (h7 : W (Proc.devRef .tc main_v7) = val_main_v17 (F := Ideal) a0 a4 a5 a6 a7 a8)
    (h4 : W (Proc.devRef .tc main_v4) = val_main_v14 (F := Ideal) a1)
    (h6 : W (Proc.devRef .tc main_v6) = val_main_v16 (F := Ideal) a1)
    (h9 : W (Proc.devRef .tc main_arg9) = a9) :
    StableHlo.after (hostOps2_2 (F := Ideal)) (StableHlo.after (hostOps2_1 (F := Ideal)) (StableHlo.after (hostOps2 (F := Ideal)) W)) (Proc.devRef .tc main_v51)
      = val_main_v61 (F := Ideal) a0 a1 a4 a5 a6 a7 a8 a9 := by
  have e := conv1_act W a0 a1 a4 a5 a6 a7 a8 a9 h7 h4 h6 h9
  generalize StableHlo.after (hostOps2_1 (F := Ideal)) (StableHlo.after (hostOps2 (F := Ideal)) W) = X at e ⊢
  after_results
  exact e

/-- The edge sources again, as the second convolution reads them. -/
theorem edgeSources_second (W : Valuation τ sig (Elt Ideal))
    (a1 : (⟨Cert.ReferenceIdeal.S2x300000, .i32⟩ : BufTy).Contents (Elt Ideal))
    (h1 : W (Proc.devRef .tc main_arg1) = a1) :
    StableHlo.after (hostOps2_2 (F := Ideal)) (StableHlo.after (hostOps2_1 (F := Ideal)) (StableHlo.after (hostOps2 (F := Ideal)) W)) (Proc.devRef .tc main_v53)
      = val_main_v63 (F := Ideal) a1 := by
  after_results_simp
  simp only [h1]
  rfl

/-- The edge targets again, as the second convolution reads them. -/
theorem edgeTargets_second (W : Valuation τ sig (Elt Ideal))
    (a1 : (⟨Cert.ReferenceIdeal.S2x300000, .i32⟩ : BufTy).Contents (Elt Ideal))
    (h1 : W (Proc.devRef .tc main_arg1) = a1) :
    StableHlo.after (hostOps2_2 (F := Ideal)) (StableHlo.after (hostOps2_1 (F := Ideal)) (StableHlo.after (hostOps2 (F := Ideal)) W)) (Proc.devRef .tc main_v55)
      = val_main_v65 (F := Ideal) a1 := by
  after_results_simp
  simp only [h1]
  rfl

end Cert.KernelIdeal.HostStages

end
-- ==== Proof.HostStages2.lean ====
import proofs.«133553_j23330262351943_2_alg».proof.Proof.Gen.KernelIdeal.Launch
import proofs.«133553_j23330262351943_2_alg».proof.Proof.RefReadP
import Idealize.ShloMosaic.Lib.StableHlo.Run

/-! # The second graph convolution between two matrix products

The same array operations as in the compared program, under other buffer names: from the product
`h` of the previous layer's output with this layer's weights and the two rows of the edge list
(sources, targets), the in-degree of every node plus one, its inverse square root `d`, the messages
`h[src] * (d[src] * d[dst])` scatter-added at the targets, the self term `h * d²`, the bias, and
the positive part; then the two rows of the second edge list for the next layer, sliced out and
flattened. Each statement assumes the buffers the stretch reads hold the compared program's stages
and concludes the same of a buffer the stretch writes. -/

noncomputable section

namespace Cert.KernelIdeal.HostStages

open Idealize.ShloMosaic Idealize.ShloMosaic.StableHlo
open Cert.KernelIdeal Cert.KernelIdeal.Gen
open Cert.ReferenceIdeal.ReadP

/-- The second graph convolution before its positive part: messages summed at the targets, plus the self term, plus the bias. -/
theorem conv2_preact (W : Valuation τ sig (Elt Ideal))
    (a0 : (⟨Cert.ReferenceIdeal.S30000x6485, .f32⟩ : BufTy).Contents (Elt Ideal))
    (a1 : (⟨Cert.ReferenceIdeal.S2x300000, .i32⟩ : BufTy).Contents (Elt Ideal))
    (a4 : (⟨Cert.ReferenceIdeal.S6464x128, .f32⟩ : BufTy).Contents (Elt Ideal))
    (a5 : (⟨Cert.ReferenceIdeal.S128, .f32⟩ : BufTy).Contents (Elt Ideal))
    (a6 : (⟨Cert.ReferenceIdeal.S21x21, .f32⟩ : BufTy).Contents (Elt Ideal))
    (a7 : (⟨Cert.ReferenceIdeal.S21, .f32⟩ : BufTy).Contents (Elt Ideal))
    (a8 : (⟨Cert.ReferenceIdeal.S149x149, .f32⟩ : BufTy).Contents (Elt Ideal))
    (a9 : (⟨Cert.ReferenceIdeal.S149, .f32⟩ : BufTy).Contents (Elt Ideal))
    (a10 : (⟨Cert.ReferenceIdeal.S149x298, .f32⟩ : BufTy).Contents (Elt Ideal))
    (a11 : (⟨Cert.ReferenceIdeal.S298, .f32⟩ : BufTy).Contents (Elt Ideal))
    (h56 : W (Proc.devRef .tc main_v56) = val_main_v66 (F := Ideal) a0 a1 a4 a5 a6 a7 a8 a9 a10)
    (h53 : W (Proc.devRef .tc main_v53) = val_main_v63 (F := Ideal) a1)
    (h55 : W (Proc.devRef .tc main_v55) = val_main_v65 (F := Ideal) a1)
    (h11 : W (Proc.devRef .tc main_arg11) = a11) :
    StableHlo.after (hostOps3 (F := Ideal)) W (Proc.devRef .tc main_v99)
      = val_main_v109 (F := Ideal) a0 a1 a4 a5 a6 a7 a8 a9 a10 a11 := by
  after_results_simp
  simp only [h56, h53, h55, h11]
  rfl

/-- The positive part, taken entrywise against a zero array, of whatever the buffer before it holds. -/
theorem positivePart_conv2 (X : Valuation τ sig (Elt Ideal))
    (y : (⟨Cert.ReferenceIdeal.S30000x298, .f32⟩ : BufTy).Contents (Elt Ideal))
    (h : X (Proc.devRef .tc main_v99) = y) :
    StableHlo.after (hostOps3_1 (F := Ideal)) X (Proc.devRef .tc main_v100)
      = maximumf (F := Ideal) (s := Cert.ReferenceIdeal.S30000x298) (φ := .f32) y (val_main_call3_v0 (F := Ideal)) := by
  subst h
  after_results_simp
  rfl

/-- The second graph convolution, positive part taken. -/
theorem conv2_act (W : Valuation τ sig (Elt Ideal))
    (a0 : (⟨Cert.ReferenceIdeal.S30000x6485, .f32⟩ : BufTy).Contents (Elt Ideal))
    (a1 : (⟨Cert.ReferenceIdeal.S2x300000, .i32⟩ : BufTy).Contents (Elt Ideal))
    (a4 : (⟨Cert.ReferenceIdeal.S6464x128, .f32⟩ : BufTy).Contents (Elt Ideal))
    (a5 : (⟨Cert.ReferenceIdeal.S128, .f32⟩ : BufTy).Contents (Elt Ideal))
    (a6 : (⟨Cert.ReferenceIdeal.S21x21, .f32⟩ : BufTy).Contents (Elt Ideal))
    (a7 : (⟨Cert.ReferenceIdeal.S21, .f32⟩ : BufTy).Contents (Elt Ideal))
    (a8 : (⟨Cert.ReferenceIdeal.S149x149, .f32⟩ : BufTy).Contents (Elt Ideal))
    (a9 : (⟨Cert.ReferenceIdeal.S149, .f32⟩ : BufTy).Contents (Elt Ideal))
    (a10 : (⟨Cert.ReferenceIdeal.S149x298, .f32⟩ : BufTy).Contents (Elt Ideal))
    (a11 : (⟨Cert.ReferenceIdeal.S298, .f32⟩ : BufTy).Contents (Elt Ideal))
    (h56 : W (Proc.devRef .tc main_v56) = val_main_v66 (F := Ideal) a0 a1 a4 a5 a6 a7 a8 a9 a10)
    (h53 : W (Proc.devRef .tc main_v53) = val_main_v63 (F := Ideal) a1)
    (h55 : W (Proc.devRef .tc main_v55) = val_main_v65 (F := Ideal) a1)
    (h11 : W (Proc.devRef .tc main_arg11) = a11) :
    StableHlo.after (hostOps3_1 (F := Ideal)) (StableHlo.after (hostOps3 (F := Ideal)) W) (Proc.devRef .tc main_v100)
      = val_main_v110 (F := Ideal) a0 a1 a4 a5 a6 a7 a8 a9 a10 a11 :=
  positivePart_conv2 (StableHlo.after (hostOps3 (F := Ideal)) W) _ (conv2_preact W a0 a1 a4 a5 a6 a7 a8 a9 a10 a11 h56 h53 h55 h11)

/-- The same buffer after the next layer's edge rows have been sliced: they are written elsewhere. -/
theorem conv2_out (W : Valuation τ sig (Elt Ideal))
    (a0 : (⟨Cert.ReferenceIdeal.S30000x6485, .f32⟩ : BufTy).Contents (Elt Ideal))
    (a1 : (⟨Cert.ReferenceIdeal.S2x300000, .i32⟩ : BufTy).Contents (Elt Ideal))
    (a4 : (⟨Cert.ReferenceIdeal.S6464x128, .f32⟩ : BufTy).Contents (Elt Ideal))
    (a5 : (⟨Cert.ReferenceIdeal.S128, .f32⟩ : BufTy).Contents (Elt Ideal))
    (a6 : (⟨Cert.ReferenceIdeal.S21x21, .f32⟩ : BufTy).Contents (Elt Ideal))
    (a7 : (⟨Cert.ReferenceIdeal.S21, .f32⟩ : BufTy).Contents (Elt Ideal))
    (a8 : (⟨Cert.ReferenceIdeal.S149x149, .f32⟩ : BufTy).Contents (Elt Ideal))
    (a9 : (⟨Cert.ReferenceIdeal.S149, .f32⟩ : BufTy).Contents (Elt Ideal))
    (a10 : (⟨Cert.ReferenceIdeal.S149x298, .f32⟩ : BufTy).Contents (Elt Ideal))
    (a11 : (⟨Cert.ReferenceIdeal.S298, .f32⟩ : BufTy).Contents (Elt Ideal))
    (h56 : W (Proc.devRef .tc main_v56) = val_main_v66 (F := Ideal) a0 a1 a4 a5 a6 a7 a8 a9 a10)
    (h53 : W (Proc.devRef .tc main_v53) = val_main_v63 (F := Ideal) a1)
    (h55 : W (Proc.devRef .tc main_v55) = val_main_v65 (F := Ideal) a1)
    (h11 : W (Proc.devRef .tc main_arg11) = a11) :
    StableHlo.after (hostOps3_2 (F := Ideal)) (StableHlo.after (hostOps3_1 (F := Ideal)) (StableHlo.after (hostOps3 (F := Ideal)) W)) (Proc.devRef .tc main_v100)
      = val_main_v110 (F := Ideal) a0 a1 a4 a5 a6 a7 a8 a9 a10 a11 := by
  have e := conv2_act W a0 a1 a4 a5 a6 a7 a8 a9 a10 a11 h56 h53 h55 h11
  generalize StableHlo.after (hostOps3_1 (F := Ideal)) (StableHlo.after (hostOps3 (F := Ideal)) W) = X at e ⊢
  after_results
  exact e

/-- Row 0 of the second edge list, flattened: its edges' sources, as the third convolution reads them. -/
theorem edgeSources_third (W : Valuation τ sig (Elt Ideal))
    (a2 : (⟨Cert.ReferenceIdeal.S2x300000, .i32⟩ : BufTy).Contents (Elt Ideal))
    (h2 : W (Proc.devRef .tc main_arg2) = a2) :
    StableHlo.after (hostOps3_2 (F := Ideal)) (StableHlo.after (hostOps3_1 (F := Ideal)) (StableHlo.after (hostOps3 (F := Ideal)) W)) (Proc.devRef .tc main_v102)
      = val_main_v112 (F := Ideal) a2 := by
  after_results_simp
  simp only [h2]
  rfl

/-- Row 1 of the second edge list, flattened: its edges' targets, as the third convolution reads them. -/
theorem edgeTargets_third (W : Valuation τ sig (Elt Ideal))
    (a2 : (⟨Cert.ReferenceIdeal.S2x300000, .i32⟩ : BufTy).Contents (Elt Ideal))
    (h2 : W (Proc.devRef .tc main_arg2) = a2) :
    StableHlo.after (hostOps3_2 (F := Ideal)) (StableHlo.after (hostOps3_1 (F := Ideal)) (StableHlo.after (hostOps3 (F := Ideal)) W)) (Proc.devRef .tc main_v104)
      = val_main_v114 (F := Ideal) a2 := by
  after_results_simp
  simp only [h2]
  rfl

end Cert.KernelIdeal.HostStages

end
-- ==== Proof.HostStages3.lean ====
import proofs.«133553_j23330262351943_2_alg».proof.Proof.Gen.KernelIdeal.Launch
import proofs.«133553_j23330262351943_2_alg».proof.Proof.RefReadP
import Idealize.ShloMosaic.Lib.StableHlo.Run

/-! # The third graph convolution between two matrix products

The same array operations as in the compared program, under other buffer names: from the product
`h` of the previous layer's output with this layer's weights and the two rows of the second edge list
(sources, targets), the in-degree of every node plus one, its inverse square root `d`, the messages
`h[src] * (d[src] * d[dst])` scatter-added at the targets, the self term `h * d²`, the bias, and
the positive part; then the two rows of the second edge list for the next layer, sliced out and
flattened. Each statement assumes the buffers the stretch reads hold the compared program's stages
and concludes the same of a buffer the stretch writes. -/

noncomputable section

namespace Cert.KernelIdeal.HostStages

open Idealize.ShloMosaic Idealize.ShloMosaic.StableHlo
open Cert.KernelIdeal Cert.KernelIdeal.Gen
open Cert.ReferenceIdeal.ReadP

/-- The third graph convolution before its positive part: messages summed at the targets, plus the self term, plus the bias. -/
theorem conv3_preact (W : Valuation τ sig (Elt Ideal))
    (a0 : (⟨Cert.ReferenceIdeal.S30000x6485, .f32⟩ : BufTy).Contents (Elt Ideal))
    (a2 : (⟨Cert.ReferenceIdeal.S2x300000, .i32⟩ : BufTy).Contents (Elt Ideal))
    (a4 : (⟨Cert.ReferenceIdeal.S6464x128, .f32⟩ : BufTy).Contents (Elt Ideal))
    (a5 : (⟨Cert.ReferenceIdeal.S128, .f32⟩ : BufTy).Contents (Elt Ideal))
    (a6 : (⟨Cert.ReferenceIdeal.S21x21, .f32⟩ : BufTy).Contents (Elt Ideal))
    (a7 : (⟨Cert.ReferenceIdeal.S21, .f32⟩ : BufTy).Contents (Elt Ideal))
    (a12 : (⟨Cert.ReferenceIdeal.S149x149, .f32⟩ : BufTy).Contents (Elt Ideal))
    (a13 : (⟨Cert.ReferenceIdeal.S149, .f32⟩ : BufTy).Contents (Elt Ideal))
    (h105 : W (Proc.devRef .tc main_v105) = val_main_v115 (F := Ideal) a0 a4 a5 a6 a7 a12)
    (h102 : W (Proc.devRef .tc main_v102) = val_main_v112 (F := Ideal) a2)
    (h104 : W (Proc.devRef .tc main_v104) = val_main_v114 (F := Ideal) a2)
    (h13 : W (Proc.devRef .tc main_arg13) = a13) :
    StableHlo.after (hostOps4 (F := Ideal)) W (Proc.devRef .tc main_v148)
      = val_main_v158 (F := Ideal) a0 a2 a4 a5 a6 a7 a12 a13 := by
  after_results_simp
  simp only [h105, h102, h104, h13]
  rfl

/-- The positive part, taken entrywise against a zero array, of whatever the buffer before it holds. -/
theorem positivePart_conv3 (X : Valuation τ sig (Elt Ideal))
    (y : (⟨Cert.ReferenceIdeal.S30000x149, .f32⟩ : BufTy).Contents (Elt Ideal))
    (h : X (Proc.devRef .tc main_v148) = y) :
    StableHlo.after (hostOps4_1 (F := Ideal)) X (Proc.devRef .tc main_v149)
      = maximumf (F := Ideal) (s := Cert.ReferenceIdeal.S30000x149) (φ := .f32) y (val_main_call4_v0 (F := Ideal)) := by
  subst h
  after_results_simp
  rfl

/-- The third graph convolution, positive part taken. -/
theorem conv3_act (W : Valuation τ sig (Elt Ideal))
    (a0 : (⟨Cert.ReferenceIdeal.S30000x6485, .f32⟩ : BufTy).Contents (Elt Ideal))
    (a2 : (⟨Cert.ReferenceIdeal.S2x300000, .i32⟩ : BufTy).Contents (Elt Ideal))
    (a4 : (⟨Cert.ReferenceIdeal.S6464x128, .f32⟩ : BufTy).Contents (Elt Ideal))
    (a5 : (⟨Cert.ReferenceIdeal.S128, .f32⟩ : BufTy).Contents (Elt Ideal))
    (a6 : (⟨Cert.ReferenceIdeal.S21x21, .f32⟩ : BufTy).Contents (Elt Ideal))
    (a7 : (⟨Cert.ReferenceIdeal.S21, .f32⟩ : BufTy).Contents (Elt Ideal))
    (a12 : (⟨Cert.ReferenceIdeal.S149x149, .f32⟩ : BufTy).Contents (Elt Ideal))
    (a13 : (⟨Cert.ReferenceIdeal.S149, .f32⟩ : BufTy).Contents (Elt Ideal))
    (h105 : W (Proc.devRef .tc main_v105) = val_main_v115 (F := Ideal) a0 a4 a5 a6 a7 a12)
    (h102 : W (Proc.devRef .tc main_v102) = val_main_v112 (F := Ideal) a2)
    (h104 : W (Proc.devRef .tc main_v104) = val_main_v114 (F := Ideal) a2)
    (h13 : W (Proc.devRef .tc main_arg13) = a13) :
    StableHlo.after (hostOps4_1 (F := Ideal)) (StableHlo.after (hostOps4 (F := Ideal)) W) (Proc.devRef .tc main_v149)
      = val_main_v159 (F := Ideal) a0 a2 a4 a5 a6 a7 a12 a13 :=
  positivePart_conv3 (StableHlo.after (hostOps4 (F := Ideal)) W) _ (conv3_preact W a0 a2 a4 a5 a6 a7 a12 a13 h105 h102 h104 h13)

/-- The same buffer after the next layer's edge rows have been sliced: they are written elsewhere. -/
theorem conv3_out (W : Valuation τ sig (Elt Ideal))
    (a0 : (⟨Cert.ReferenceIdeal.S30000x6485, .f32⟩ : BufTy).Contents (Elt Ideal))
    (a2 : (⟨Cert.ReferenceIdeal.S2x300000, .i32⟩ : BufTy).Contents (Elt Ideal))
    (a4 : (⟨Cert.ReferenceIdeal.S6464x128, .f32⟩ : BufTy).Contents (Elt Ideal))
    (a5 : (⟨Cert.ReferenceIdeal.S128, .f32⟩ : BufTy).Contents (Elt Ideal))
    (a6 : (⟨Cert.ReferenceIdeal.S21x21, .f32⟩ : BufTy).Contents (Elt Ideal))
    (a7 : (⟨Cert.ReferenceIdeal.S21, .f32⟩ : BufTy).Contents (Elt Ideal))
    (a12 : (⟨Cert.ReferenceIdeal.S149x149, .f32⟩ : BufTy).Contents (Elt Ideal))
    (a13 : (⟨Cert.ReferenceIdeal.S149, .f32⟩ : BufTy).Contents (Elt Ideal))
    (h105 : W (Proc.devRef .tc main_v105) = val_main_v115 (F := Ideal) a0 a4 a5 a6 a7 a12)
    (h102 : W (Proc.devRef .tc main_v102) = val_main_v112 (F := Ideal) a2)
    (h104 : W (Proc.devRef .tc main_v104) = val_main_v114 (F := Ideal) a2)
    (h13 : W (Proc.devRef .tc main_arg13) = a13) :
    StableHlo.after (hostOps4_2 (F := Ideal)) (StableHlo.after (hostOps4_1 (F := Ideal)) (StableHlo.after (hostOps4 (F := Ideal)) W)) (Proc.devRef .tc main_v149)
      = val_main_v159 (F := Ideal) a0 a2 a4 a5 a6 a7 a12 a13 := by
  have e := conv3_act W a0 a2 a4 a5 a6 a7 a12 a13 h105 h102 h104 h13
  generalize StableHlo.after (hostOps4_1 (F := Ideal)) (StableHlo.after (hostOps4 (F := Ideal)) W) = X at e ⊢
  after_results
  exact e

/-- The second edge list's sources again, as the fourth convolution reads them. -/
theorem edgeSources_fourth (W : Valuation τ sig (Elt Ideal))
    (a2 : (⟨Cert.ReferenceIdeal.S2x300000, .i32⟩ : BufTy).Contents (Elt Ideal))
    (h2 : W (Proc.devRef .tc main_arg2) = a2) :
    StableHlo.after (hostOps4_2 (F := Ideal)) (StableHlo.after (hostOps4_1 (F := Ideal)) (StableHlo.after (hostOps4 (F := Ideal)) W)) (Proc.devRef .tc main_v151)
      = val_main_v161 (F := Ideal) a2 := by
  after_results_simp
  simp only [h2]
  rfl

/-- The second edge list's targets again, as the fourth convolution reads them. -/
theorem edgeTargets_fourth (W : Valuation τ sig (Elt Ideal))
    (a2 : (⟨Cert.ReferenceIdeal.S2x300000, .i32⟩ : BufTy).Contents (Elt Ideal))
    (h2 : W (Proc.devRef .tc main_arg2) = a2) :
    StableHlo.after (hostOps4_2 (F := Ideal)) (StableHlo.after (hostOps4_1 (F := Ideal)) (StableHlo.after (hostOps4 (F := Ideal)) W)) (Proc.devRef .tc main_v153)
      = val_main_v163 (F := Ideal) a2 := by
  after_results_simp
  simp only [h2]
  rfl

end Cert.KernelIdeal.HostStages

end
-- ==== Proof.HostStages4.lean ====
import proofs.«133553_j23330262351943_2_alg».proof.Proof.Gen.KernelIdeal.Launch
import proofs.«133553_j23330262351943_2_alg».proof.Proof.RefReadP
import Idealize.ShloMosaic.Lib.StableHlo.Run

/-! # The fourth graph convolution, and the joining of the two branches

The same array operations as in the compared program, under other buffer names. From the product
`h` of the third layer's output with the fourth layer's weights and the two rows of the second
edge list: the in-degree of every node plus one, its inverse square root `d`, the messages
`h[src] * (d[src] * d[dst])` scatter-added at the targets, the self term `h * d²`, the bias, and
the positive part. The result is joined, column-wise, behind the second layer's output (the branch
over the first edge list), which its buffer still holds; then the two rows of the first edge list
are sliced out and flattened for the last convolution. Each statement assumes the buffers the
stretch reads hold the compared program's stages and concludes the same of a buffer it writes. -/

noncomputable section

namespace Cert.KernelIdeal.HostStages

open Idealize.ShloMosaic Idealize.ShloMosaic.StableHlo
open Cert.KernelIdeal Cert.KernelIdeal.Gen
open Cert.ReferenceIdeal.ReadP

/-- The fourth graph convolution before its positive part: messages summed at the targets, plus the self term, plus the bias. -/
theorem conv4_preact (W : Valuation τ sig (Elt Ideal))
    (a0 : (⟨Cert.ReferenceIdeal.S30000x6485, .f32⟩ : BufTy).Contents (Elt Ideal))
    (a2 : (⟨Cert.ReferenceIdeal.S2x300000, .i32⟩ : BufTy).Contents (Elt Ideal))
    (a4 : (⟨Cert.ReferenceIdeal.S6464x128, .f32⟩ : BufTy).Contents (Elt Ideal))
    (a5 : (⟨Cert.ReferenceIdeal.S128, .f32⟩ : BufTy).Contents (Elt Ideal))
    (a6 : (⟨Cert.ReferenceIdeal.S21x21, .f32⟩ : BufTy).Contents (Elt Ideal))
    (a7 : (⟨Cert.ReferenceIdeal.S21, .f32⟩ : BufTy).Contents (Elt Ideal))
    (a12 : (⟨Cert.ReferenceIdeal.S149x149, .f32⟩ : BufTy).Contents (Elt Ideal))
    (a13 : (⟨Cert.ReferenceIdeal.S149, .f32⟩ : BufTy).Contents (Elt Ideal))
    (a14 : (⟨Cert.ReferenceIdeal.S149x298, .f32⟩ : BufTy).Contents (Elt Ideal))
    (a15 : (⟨Cert.ReferenceIdeal.S298, .f32⟩ : BufTy).Contents (Elt Ideal))
    (h154 : W (Proc.devRef .tc main_v154) = val_main_v164 (F := Ideal) a0 a2 a4 a5 a6 a7 a12 a13 a14)
    (h151 : W (Proc.devRef .tc main_v151) = val_main_v161 (F := Ideal) a2)
    (h153 : W (Proc.devRef .tc main_v153) = val_main_v163 (F := Ideal) a2)
    (h15 : W (Proc.devRef .tc main_arg15) = a15) :
    StableHlo.after (hostOps5 (F := Ideal)) W (Proc.devRef .tc main_v197)
      = val_main_v207 (F := Ideal) a0 a2 a4 a5 a6 a7 a12 a13 a14 a15 := by
  after_results_simp
  simp only [h154, h151, h153, h15]
  rfl

/-- The positive part, taken entrywise against a zero array, of whatever the buffer before it holds. -/
theorem positivePart_conv4 (X : Valuation τ sig (Elt Ideal))
    (y : (⟨Cert.ReferenceIdeal.S30000x298, .f32⟩ : BufTy).Contents (Elt Ideal))
    (h : X (Proc.devRef .tc main_v197) = y) :
    StableHlo.after (hostOps5_1 (F := Ideal)) X (Proc.devRef .tc main_v198)
      = maximumf (F := Ideal) (s := Cert.ReferenceIdeal.S30000x298) (φ := .f32) y (val_main_call5_v0 (F := Ideal)) := by
  subst h
  after_results_simp
  rfl

/-- The fourth graph convolution, positive part taken. -/
theorem conv4_act (W : Valuation τ sig (Elt Ideal))
    (a0 : (⟨Cert.ReferenceIdeal.S30000x6485, .f32⟩ : BufTy).Contents (Elt Ideal))
    (a2 : (⟨Cert.ReferenceIdeal.S2x300000, .i32⟩ : BufTy).Contents (Elt Ideal))
    (a4 : (⟨Cert.ReferenceIdeal.S6464x128, .f32⟩ : BufTy).Contents (Elt Ideal))
    (a5 : (⟨Cert.ReferenceIdeal.S128, .f32⟩ : BufTy).Contents (Elt Ideal))
    (a6 : (⟨Cert.ReferenceIdeal.S21x21, .f32⟩ : BufTy).Contents (Elt Ideal))
    (a7 : (⟨Cert.ReferenceIdeal.S21, .f32⟩ : BufTy).Contents (Elt Ideal))
    (a12 : (⟨Cert.ReferenceIdeal.S149x149, .f32⟩ : BufTy).Contents (Elt Ideal))
    (a13 : (⟨Cert.ReferenceIdeal.S149, .f32⟩ : BufTy).Contents (Elt Ideal))
    (a14 : (⟨Cert.ReferenceIdeal.S149x298, .f32⟩ : BufTy).Contents (Elt Ideal))
    (a15 : (⟨Cert.ReferenceIdeal.S298, .f32⟩ : BufTy).Contents (Elt Ideal))
    (h154 : W (Proc.devRef .tc main_v154) = val_main_v164 (F := Ideal) a0 a2 a4 a5 a6 a7 a12 a13 a14)
    (h151 : W (Proc.devRef .tc main_v151) = val_main_v161 (F := Ideal) a2)
    (h153 : W (Proc.devRef .tc main_v153) = val_main_v163 (F := Ideal) a2)
    (h15 : W (Proc.devRef .tc main_arg15) = a15) :
    StableHlo.after (hostOps5_1 (F := Ideal)) (StableHlo.after (hostOps5 (F := Ideal)) W) (Proc.devRef .tc main_v198)
      = val_main_v208 (F := Ideal) a0 a2 a4 a5 a6 a7 a12 a13 a14 a15 :=
  positivePart_conv4 (StableHlo.after (hostOps5 (F := Ideal)) W) _ (conv4_preact W a0 a2 a4 a5 a6 a7 a12 a13 a14 a15 h154 h151 h153 h15)

/-- The second layer's output (first edge list) and the fourth layer's output (second edge list), side by side:
    298 + 298 columns. The fourth convolution writes neither the second layer's buffer nor reads it. -/
theorem branches_joined (W : Valuation τ sig (Elt Ideal))
    (a0 : (⟨Cert.ReferenceIdeal.S30000x6485, .f32⟩ : BufTy).Contents (Elt Ideal))
    (a1 : (⟨Cert.ReferenceIdeal.S2x300000, .i32⟩ : BufTy).Contents (Elt Ideal))
    (a2 : (⟨Cert.ReferenceIdeal.S2x300000, .i32⟩ : BufTy).Contents (Elt Ideal))
    (a4 : (⟨Cert.ReferenceIdeal.S6464x128, .f32⟩ : BufTy).Contents (Elt Ideal))
    (a5 : (⟨Cert.ReferenceIdeal.S128, .f32⟩ : BufTy).Contents (Elt Ideal))
    (a6 : (⟨Cert.ReferenceIdeal.S21x21, .f32⟩ : BufTy).Contents (Elt Ideal))
    (a7 : (⟨Cert.ReferenceIdeal.S21, .f32⟩ : BufTy).Contents (Elt Ideal))
    (a8 : (⟨Cert.ReferenceIdeal.S149x149, .f32⟩ : BufTy).Contents (Elt Ideal))
    (a9 : (⟨Cert.ReferenceIdeal.S149, .f32⟩ : BufTy).Contents (Elt Ideal))
    (a10 : (⟨Cert.ReferenceIdeal.S149x298, .f32⟩ : BufTy).Contents (Elt Ideal))
    (a11 : (⟨Cert.ReferenceIdeal.S298, .f32⟩ : BufTy).Contents (Elt Ideal))
    (a12 : (⟨Cert.ReferenceIdeal.S149x149, .f32⟩ : BufTy).Contents (Elt Ideal))
    (a13 : (⟨Cert.ReferenceIdeal.S149, .f32⟩ : BufTy).Contents (Elt Ideal))
    (a14 : (⟨Cert.ReferenceIdeal.S149x298, .f32⟩ : BufTy).Contents (Elt Ideal))
    (a15 : (⟨Cert.ReferenceIdeal.S298, .f32⟩ : BufTy).Contents (Elt Ideal))
    (h154 : W (Proc.devRef .tc main_v154) = val_main_v164 (F := Ideal) a0 a2 a4 a5 a6 a7 a12 a13 a14)
    (h151 : W (Proc.devRef .tc main_v151) = val_main_v161 (F := Ideal) a2)
    (h153 : W (Proc.devRef .tc main_v153) = val_main_v163 (F := Ideal) a2)
    (h15 : W (Proc.devRef .tc main_arg15) = a15)
    (h100 : W (Proc.devRef .tc main_v100) = val_main_v110 (F := Ideal) a0 a1 a4 a5 a6 a7 a8 a9 a10 a11) :
    StableHlo.after (hostOps5_2 (F := Ideal)) (StableHlo.after (hostOps5_1 (F := Ideal)) (StableHlo.after (hostOps5 (F := Ideal)) W)) (Proc.devRef .tc main_v199)
      = val_main_v209 (F := Ideal) a0 a1 a2 a4 a5 a6 a7 a8 a9 a10 a11 a12 a13 a14 a15 := by
  have e198 := conv4_act W a0 a2 a4 a5 a6 a7 a12 a13 a14 a15 h154 h151 h153 h15
  have e100 : StableHlo.after (hostOps5_1 (F := Ideal)) (StableHlo.after (hostOps5 (F := Ideal)) W) (Proc.devRef .tc main_v100)
      = val_main_v110 (F := Ideal) a0 a1 a4 a5 a6 a7 a8 a9 a10 a11 := by
    after_results_simp
    exact h100
  generalize StableHlo.after (hostOps5_1 (F := Ideal)) (StableHlo.after (hostOps5 (F := Ideal)) W) = X at e198 e100 ⊢
  after_results
  rw [e198, e100]
  rfl

/-- The first edge list's sources again, as the last convolution reads them. -/
theorem edgeSources_fifth (W : Valuation τ sig (Elt Ideal))
    (a1 : (⟨Cert.ReferenceIdeal.S2x300000, .i32⟩ : BufTy).Contents (Elt Ideal))
    (h1 : W (Proc.devRef .tc main_arg1) = a1) :
    StableHlo.after (hostOps5_2 (F := Ideal)) (StableHlo.after (hostOps5_1 (F := Ideal)) (StableHlo.after (hostOps5 (F := Ideal)) W)) (Proc.devRef .tc main_v201)
      = val_main_v211 (F := Ideal) a1 := by
  after_results_simp
  simp only [h1]
  rfl

/-- The first edge list's targets again, as the last convolution reads them. -/
theorem edgeTargets_fifth (W : Valuation τ sig (Elt Ideal))
    (a1 : (⟨Cert.ReferenceIdeal.S2x300000, .i32⟩ : BufTy).Contents (Elt Ideal))
    (h1 : W (Proc.devRef .tc main_arg1) = a1) :
    StableHlo.after (hostOps5_2 (F := Ideal)) (StableHlo.after (hostOps5_1 (F := Ideal)) (StableHlo.after (hostOps5 (F := Ideal)) W)) (Proc.devRef .tc main_v203)
      = val_main_v213 (F := Ideal) a1 := by
  after_results_simp
  simp only [h1]
  rfl

end Cert.KernelIdeal.HostStages

end
-- ==== Proof.HostStages5.lean ====
import proofs.«133553_j23330262351943_2_alg».proof.Proof.Gen.KernelIdeal.Launch
import proofs.«133553_j23330262351943_2_alg».proof.Proof.RefReadP
import Idealize.ShloMosaic.Lib.StableHlo.Run

/-! # The last graph convolution, the pooling over graphs, and the classifier head

The same array operations as in the compared program, under other buffer names. The fifth graph
convolution (over the first edge list, on the product of the joined features with the fifth weight
matrix), bias added, positive part taken. Then per graph of the batch (32 graphs, each node carrying
its graph's number): the node count (a scatter-add of ones, at least one) and the sum of the node
features (a scatter-add of the rows), their quotient the mean; a dense layer with bias; a
normalisation of each of the 1024 columns over the 32 rows (mean, mean of squared deviations, the
inverse square root of that plus a small constant, scale and shift); the positive part; a second
dense layer with bias; and `1 / (1 + exp (-x))`. The stretch is read in five pieces, each from an
arbitrary assignment of buffer contents whose inputs hold the compared program's stages, and the
pieces are then chained: an argument's buffer is written by none of them. -/

noncomputable section

namespace Cert.KernelIdeal.HostStages

open Idealize.ShloMosaic Idealize.ShloMosaic.StableHlo
open Cert.KernelIdeal Cert.KernelIdeal.Gen
open Cert.ReferenceIdeal.ReadP

/-- The fifth graph convolution before its positive part: messages summed at the targets, plus the self term, plus the bias. -/
theorem conv5_preact (W : Valuation τ sig (Elt Ideal))
    (a0 : (⟨Cert.ReferenceIdeal.S30000x6485, .f32⟩ : BufTy).Contents (Elt Ideal))
    (a1 : (⟨Cert.ReferenceIdeal.S2x300000, .i32⟩ : BufTy).Contents (Elt Ideal))
    (a2 : (⟨Cert.ReferenceIdeal.S2x300000, .i32⟩ : BufTy).Contents (Elt Ideal))
    (a4 : (⟨Cert.ReferenceIdeal.S6464x128, .f32⟩ : BufTy).Contents (Elt Ideal))
    (a5 : (⟨Cert.ReferenceIdeal.S128, .f32⟩ : BufTy).Contents (Elt Ideal))
    (a6 : (⟨Cert.ReferenceIdeal.S21x21, .f32⟩ : BufTy).Contents (Elt Ideal))
    (a7 : (⟨Cert.ReferenceIdeal.S21, .f32⟩ : BufTy).Contents (Elt Ideal))
    (a8 : (⟨Cert.ReferenceIdeal.S149x149, .f32⟩ : BufTy).Contents (Elt Ideal))
    (a9 : (⟨Cert.ReferenceIdeal.S149, .f32⟩ : BufTy).Contents (Elt Ideal))
    (a10 : (⟨Cert.ReferenceIdeal.S149x298, .f32⟩ : BufTy).Contents (Elt Ideal))
    (a11 : (⟨Cert.ReferenceIdeal.S298, .f32⟩ : BufTy).Contents (Elt Ideal))
    (a12 : (⟨Cert.ReferenceIdeal.S149x149, .f32⟩ : BufTy).Contents (Elt Ideal))
    (a13 : (⟨Cert.ReferenceIdeal.S149, .f32⟩ : BufTy).Contents (Elt Ideal))
    (a14 : (⟨Cert.ReferenceIdeal.S149x298, .f32⟩ : BufTy).Contents (Elt Ideal))
    (a15 : (⟨Cert.ReferenceIdeal.S298, .f32⟩ : BufTy).Contents (Elt Ideal))
    (a16 : (⟨Cert.ReferenceIdeal.S596x596, .f32⟩ : BufTy).Contents (Elt Ideal))
    (a17 : (⟨Cert.ReferenceIdeal.S596, .f32⟩ : BufTy).Contents (Elt Ideal))
    (h204 : W (Proc.devRef .tc main_v204) = val_main_v214 (F := Ideal) a0 a1 a2 a4 a5 a6 a7 a8 a9 a10 a11 a12 a13 a14 a15 a16)
    (h201 : W (Proc.devRef .tc main_v201) = val_main_v211 (F := Ideal) a1)
    (h203 : W (Proc.devRef .tc main_v203) = val_main_v213 (F := Ideal) a1)
    (h17 : W (Proc.devRef .tc main_arg17) = a17) :
    StableHlo.after (hostOps6 (F := Ideal)) W (Proc.devRef .tc main_v247)
      = val_main_v257 (F := Ideal) a0 a1 a2 a4 a5 a6 a7 a8 a9 a10 a11 a12 a13 a14 a15 a16 a17 := by
  after_results_simp
  simp only [h204, h201, h203, h17]
  rfl

/-- The positive part, taken entrywise against a zero array, of whatever the buffer before it holds. -/
theorem positivePart_conv5 (X : Valuation τ sig (Elt Ideal))
    (y : (⟨Cert.ReferenceIdeal.S30000x596, .f32⟩ : BufTy).Contents (Elt Ideal))
    (h : X (Proc.devRef .tc main_v247) = y) :
    StableHlo.after (hostOps6_1 (F := Ideal)) X (Proc.devRef .tc main_v248)
      = maximumf (F := Ideal) (s := Cert.ReferenceIdeal.S30000x596) (φ := .f32) y (val_main_call6_v0 (F := Ideal)) := by
  subst h
  after_results_simp
  rfl

/-- The fifth graph convolution, positive part taken: the node features that are pooled. -/
theorem conv5_act (W : Valuation τ sig (Elt Ideal))
    (a0 : (⟨Cert.ReferenceIdeal.S30000x6485, .f32⟩ : BufTy).Contents (Elt Ideal))
    (a1 : (⟨Cert.ReferenceIdeal.S2x300000, .i32⟩ : BufTy).Contents (Elt Ideal))
    (a2 : (⟨Cert.ReferenceIdeal.S2x300000, .i32⟩ : BufTy).Contents (Elt Ideal))
    (a4 : (⟨Cert.ReferenceIdeal.S6464x128, .f32⟩ : BufTy).Contents (Elt Ideal))
    (a5 : (⟨Cert.ReferenceIdeal.S128, .f32⟩ : BufTy).Contents (Elt Ideal))
    (a6 : (⟨Cert.ReferenceIdeal.S21x21, .f32⟩ : BufTy).Contents (Elt Ideal))
    (a7 : (⟨Cert.ReferenceIdeal.S21, .f32⟩ : BufTy).Contents (Elt Ideal))
    (a8 : (⟨Cert.ReferenceIdeal.S149x149, .f32⟩ : BufTy).Contents (Elt Ideal))
    (a9 : (⟨Cert.ReferenceIdeal.S149, .f32⟩ : BufTy).Contents (Elt Ideal))
    (a10 : (⟨Cert.ReferenceIdeal.S149x298, .f32⟩ : BufTy).Contents (Elt Ideal))
    (a11 : (⟨Cert.ReferenceIdeal.S298, .f32⟩ : BufTy).Contents (Elt Ideal))
    (a12 : (⟨Cert.ReferenceIdeal.S149x149, .f32⟩ : BufTy).Contents (Elt Ideal))
    (a13 : (⟨Cert.ReferenceIdeal.S149, .f32⟩ : BufTy).Contents (Elt Ideal))
    (a14 : (⟨Cert.ReferenceIdeal.S149x298, .f32⟩ : BufTy).Contents (Elt Ideal))
    (a15 : (⟨Cert.ReferenceIdeal.S298, .f32⟩ : BufTy).Contents (Elt Ideal))
    (a16 : (⟨Cert.ReferenceIdeal.S596x596, .f32⟩ : BufTy).Contents (Elt Ideal))
    (a17 : (⟨Cert.ReferenceIdeal.S596, .f32⟩ : BufTy).Contents (Elt Ideal))
    (h204 : W (Proc.devRef .tc main_v204) = val_main_v214 (F := Ideal) a0 a1 a2 a4 a5 a6 a7 a8 a9 a10 a11 a12 a13 a14 a15 a16)
    (h201 : W (Proc.devRef .tc main_v201) = val_main_v211 (F := Ideal) a1)
    (h203 : W (Proc.devRef .tc main_v203) = val_main_v213 (F := Ideal) a1)
    (h17 : W (Proc.devRef .tc main_arg17) = a17) :
    StableHlo.after (hostOps6_1 (F := Ideal)) (StableHlo.after (hostOps6 (F := Ideal)) W) (Proc.devRef .tc main_v248)
      = val_main_v258 (F := Ideal) a0 a1 a2 a4 a5 a6 a7 a8 a9 a10 a11 a12 a13 a14 a15 a16 a17 :=
  positivePart_conv5 (StableHlo.after (hostOps6 (F := Ideal)) W) _ (conv5_preact W a0 a1 a2 a4 a5 a6 a7 a8 a9 a10 a11 a12 a13 a14 a15 a16 a17 h204 h201 h203 h17)

/-- The per-graph mean of the node features, the first dense layer, and the column-wise normalisation with scale and shift, before the positive part. -/
theorem pooled_normalised (X : Valuation τ sig (Elt Ideal))
    (a0 : (⟨Cert.ReferenceIdeal.S30000x6485, .f32⟩ : BufTy).Contents (Elt Ideal))
    (a1 : (⟨Cert.ReferenceIdeal.S2x300000, .i32⟩ : BufTy).Contents (Elt Ideal))
    (a2 : (⟨Cert.ReferenceIdeal.S2x300000, .i32⟩ : BufTy).Contents (Elt Ideal))
    (a3 : (⟨Cert.ReferenceIdeal.S30000, .i32⟩ : BufTy).Contents (Elt Ideal))
    (a4 : (⟨Cert.ReferenceIdeal.S6464x128, .f32⟩ : BufTy).Contents (Elt Ideal))
    (a5 : (⟨Cert.ReferenceIdeal.S128, .f32⟩ : BufTy).Contents (Elt Ideal))
    (a6 : (⟨Cert.ReferenceIdeal.S21x21, .f32⟩ : BufTy).Contents (Elt Ideal))
    (a7 : (⟨Cert.ReferenceIdeal.S21, .f32⟩ : BufTy).Contents (Elt Ideal))
    (a8 : (⟨Cert.ReferenceIdeal.S149x149, .f32⟩ : BufTy).Contents (Elt Ideal))
    (a9 : (⟨Cert.ReferenceIdeal.S149, .f32⟩ : BufTy).Contents (Elt Ideal))
    (a10 : (⟨Cert.ReferenceIdeal.S149x298, .f32⟩ : BufTy).Contents (Elt Ideal))
    (a11 : (⟨Cert.ReferenceIdeal.S298, .f32⟩ : BufTy).Contents (Elt Ideal))
    (a12 : (⟨Cert.ReferenceIdeal.S149x149, .f32⟩ : BufTy).Contents (Elt Ideal))
    (a13 : (⟨Cert.ReferenceIdeal.S149, .f32⟩ : BufTy).Contents (Elt Ideal))
    (a14 : (⟨Cert.ReferenceIdeal.S149x298, .f32⟩ : BufTy).Contents (Elt Ideal))
    (a15 : (⟨Cert.ReferenceIdeal.S298, .f32⟩ : BufTy).Contents (Elt Ideal))
    (a16 : (⟨Cert.ReferenceIdeal.S596x596, .f32⟩ : BufTy).Contents (Elt Ideal))
    (a17 : (⟨Cert.ReferenceIdeal.S596, .f32⟩ : BufTy).Contents (Elt Ideal))
    (a18 : (⟨Cert.ReferenceIdeal.S596x1024, .f32⟩ : BufTy).Contents (Elt Ideal))
    (a19 : (⟨Cert.ReferenceIdeal.S1024, .f32⟩ : BufTy).Contents (Elt Ideal))
    (a22 : (⟨Cert.ReferenceIdeal.S1024, .f32⟩ : BufTy).Contents (Elt Ideal))
    (a23 : (⟨Cert.ReferenceIdeal.S1024, .f32⟩ : BufTy).Contents (Elt Ideal))
    (h248 : X (Proc.devRef .tc main_v248) = val_main_v258 (F := Ideal) a0 a1 a2 a4 a5 a6 a7 a8 a9 a10 a11 a12 a13 a14 a15 a16 a17)
    (h3 : X (Proc.devRef .tc main_arg3) = a3)
    (h18 : X (Proc.devRef .tc main_arg18) = a18)
    (h19 : X (Proc.devRef .tc main_arg19) = a19)
    (h22 : X (Proc.devRef .tc main_arg22) = a22)
    (h23 : X (Proc.devRef .tc main_arg23) = a23) :
    StableHlo.after (hostOps6_2 (F := Ideal)) X (Proc.devRef .tc main_v289)
      = val_main_v299 (F := Ideal) a0 a1 a2 a3 a4 a5 a6 a7 a8 a9 a10 a11 a12 a13 a14 a15 a16 a17 a18 a19 a22 a23 := by
  after_results_simp
  simp only [h248, h3, h18, h19, h22, h23]
  rfl

/-- The positive part of whatever the normalised buffer holds. -/
theorem positivePart_dense (X : Valuation τ sig (Elt Ideal))
    (y : (⟨Cert.ReferenceIdeal.S32x1024, .f32⟩ : BufTy).Contents (Elt Ideal))
    (h : X (Proc.devRef .tc main_v289) = y) :
    StableHlo.after (hostOps6_3 (F := Ideal)) X (Proc.devRef .tc main_v290)
      = maximumf (F := Ideal) (s := Cert.ReferenceIdeal.S32x1024) (φ := .f32) y (val_main_call7_v0 (F := Ideal)) := by
  subst h
  after_results_simp
  rfl

/-- The second dense layer with bias, then `1 / (1 + exp (-x))` entrywise. -/
theorem logistic_head (X : Valuation τ sig (Elt Ideal))
    (a0 : (⟨Cert.ReferenceIdeal.S30000x6485, .f32⟩ : BufTy).Contents (Elt Ideal))
    (a1 : (⟨Cert.ReferenceIdeal.S2x300000, .i32⟩ : BufTy).Contents (Elt Ideal))
    (a2 : (⟨Cert.ReferenceIdeal.S2x300000, .i32⟩ : BufTy).Contents (Elt Ideal))
    (a3 : (⟨Cert.ReferenceIdeal.S30000, .i32⟩ : BufTy).Contents (Elt Ideal))
    (a4 : (⟨Cert.ReferenceIdeal.S6464x128, .f32⟩ : BufTy).Contents (Elt Ideal))
    (a5 : (⟨Cert.ReferenceIdeal.S128, .f32⟩ : BufTy).Contents (Elt Ideal))
    (a6 : (⟨Cert.ReferenceIdeal.S21x21, .f32⟩ : BufTy).Contents (Elt Ideal))
    (a7 : (⟨Cert.ReferenceIdeal.S21, .f32⟩ : BufTy).Contents (Elt Ideal))
    (a8 : (⟨Cert.ReferenceIdeal.S149x149, .f32⟩ : BufTy).Contents (Elt Ideal))
    (a9 : (⟨Cert.ReferenceIdeal.S149, .f32⟩ : BufTy).Contents (Elt Ideal))
    (a10 : (⟨Cert.ReferenceIdeal.S149x298, .f32⟩ : BufTy).Contents (Elt Ideal))
    (a11 : (⟨Cert.ReferenceIdeal.S298, .f32⟩ : BufTy).Contents (Elt Ideal))
    (a12 : (⟨Cert.ReferenceIdeal.S149x149, .f32⟩ : BufTy).Contents (Elt Ideal))
    (a13 : (⟨Cert.ReferenceIdeal.S149, .f32⟩ : BufTy).Contents (Elt Ideal))
    (a14 : (⟨Cert.ReferenceIdeal.S149x298, .f32⟩ : BufTy).Contents (Elt Ideal))
    (a15 : (⟨Cert.ReferenceIdeal.S298, .f32⟩ : BufTy).Contents (Elt Ideal))
    (a16 : (⟨Cert.ReferenceIdeal.S596x596, .f32⟩ : BufTy).Contents (Elt Ideal))
    (a17 : (⟨Cert.ReferenceIdeal.S596, .f32⟩ : BufTy).Contents (Elt Ideal))
    (a18 : (⟨Cert.ReferenceIdeal.S596x1024, .f32⟩ : BufTy).Contents (Elt Ideal))
    (a19 : (⟨Cert.ReferenceIdeal.S1024, .f32⟩ : BufTy).Contents (Elt Ideal))
    (a20 : (⟨Cert.ReferenceIdeal.S1024x486, .f32⟩ : BufTy).Contents (Elt Ideal))
    (a21 : (⟨Cert.ReferenceIdeal.S486, .f32⟩ : BufTy).Contents (Elt Ideal))
    (a22 : (⟨Cert.ReferenceIdeal.S1024, .f32⟩ : BufTy).Contents (Elt Ideal))
    (a23 : (⟨Cert.ReferenceIdeal.S1024, .f32⟩ : BufTy).Contents (Elt Ideal))
    (h290 : X (Proc.devRef .tc main_v290) = val_main_v300 (F := Ideal) a0 a1 a2 a3 a4 a5 a6 a7 a8 a9 a10 a11 a12 a13 a14 a15 a16 a17 a18 a19 a22 a23)
    (h20 : X (Proc.devRef .tc main_arg20) = a20)
    (h21 : X (Proc.devRef .tc main_arg21) = a21) :
    StableHlo.after (hostOps6_4 (F := Ideal)) X (Proc.devRef .tc main_v300)
      = val_main_v310 (F := Ideal) a0 a1 a2 a3 a4 a5 a6 a7 a8 a9 a10 a11 a12 a13 a14 a15 a16 a17 a18 a19 a20 a21 a22 a23 := by
  after_results_simp
  simp only [h290, h20, h21]
  rfl

set_option maxHeartbeats 4000000 in
/-- The program's result: the class probabilities of the 32 graphs. The five pieces chained; the arguments'
    buffers are written by no operation of the stretch, so each still holds its argument where a later piece reads it. -/
theorem head_out (W : Valuation τ sig (Elt Ideal))
    (a0 : (⟨Cert.ReferenceIdeal.S30000x6485, .f32⟩ : BufTy).Contents (Elt Ideal))
    (a1 : (⟨Cert.ReferenceIdeal.S2x300000, .i32⟩ : BufTy).Contents (Elt Ideal))
    (a2 : (⟨Cert.ReferenceIdeal.S2x300000, .i32⟩ : BufTy).Contents (Elt Ideal))
    (a3 : (⟨Cert.ReferenceIdeal.S30000, .i32⟩ : BufTy).Contents (Elt Ideal))
    (a4 : (⟨Cert.ReferenceIdeal.S6464x128, .f32⟩ : BufTy).Contents (Elt Ideal))
    (a5 : (⟨Cert.ReferenceIdeal.S128, .f32⟩ : BufTy).Contents (Elt Ideal))
    (a6 : (⟨Cert.ReferenceIdeal.S21x21, .f32⟩ : BufTy).Contents (Elt Ideal))
    (a7 : (⟨Cert.ReferenceIdeal.S21, .f32⟩ : BufTy).Contents (Elt Ideal))
    (a8 : (⟨Cert.ReferenceIdeal.S149x149, .f32⟩ : BufTy).Contents (Elt Ideal))
    (a9 : (⟨Cert.ReferenceIdeal.S149, .f32⟩ : BufTy).Contents (Elt Ideal))
    (a10 : (⟨Cert.ReferenceIdeal.S149x298, .f32⟩ : BufTy).Contents (Elt Ideal))
    (a11 : (⟨Cert.ReferenceIdeal.S298, .f32⟩ : BufTy).Contents (Elt Ideal))
    (a12 : (⟨Cert.ReferenceIdeal.S149x149, .f32⟩ : BufTy).Contents (Elt Ideal))
    (a13 : (⟨Cert.ReferenceIdeal.S149, .f32⟩ : BufTy).Contents (Elt Ideal))
    (a14 : (⟨Cert.ReferenceIdeal.S149x298, .f32⟩ : BufTy).Contents (Elt Ideal))
    (a15 : (⟨Cert.ReferenceIdeal.S298, .f32⟩ : BufTy).Contents (Elt Ideal))
    (a16 : (⟨Cert.ReferenceIdeal.S596x596, .f32⟩ : BufTy).Contents (Elt Ideal))
    (a17 : (⟨Cert.ReferenceIdeal.S596, .f32⟩ : BufTy).Contents (Elt Ideal))
    (a18 : (⟨Cert.ReferenceIdeal.S596x1024, .f32⟩ : BufTy).Contents (Elt Ideal))
    (a19 : (⟨Cert.ReferenceIdeal.S1024, .f32⟩ : BufTy).Contents (Elt Ideal))
    (a20 : (⟨Cert.ReferenceIdeal.S1024x486, .f32⟩ : BufTy).Contents (Elt Ideal))
    (a21 : (⟨Cert.ReferenceIdeal.S486, .f32⟩ : BufTy).Contents (Elt Ideal))
    (a22 : (⟨Cert.ReferenceIdeal.S1024, .f32⟩ : BufTy).Contents (Elt Ideal))
    (a23 : (⟨Cert.ReferenceIdeal.S1024, .f32⟩ : BufTy).Contents (Elt Ideal))
    (h204 : W (Proc.devRef .tc main_v204) = val_main_v214 (F := Ideal) a0 a1 a2 a4 a5 a6 a7 a8 a9 a10 a11 a12 a13 a14 a15 a16)
    (h201 : W (Proc.devRef .tc main_v201) = val_main_v211 (F := Ideal) a1)
    (h203 : W (Proc.devRef .tc main_v203) = val_main_v213 (F := Ideal) a1)
    (h17 : W (Proc.devRef .tc main_arg17) = a17)
    (h3 : W (Proc.devRef .tc main_arg3) = a3)
    (h18 : W (Proc.devRef .tc main_arg18) = a18)
    (h19 : W (Proc.devRef .tc main_arg19) = a19)
    (h20 : W (Proc.devRef .tc main_arg20) = a20)
    (h21 : W (Proc.devRef .tc main_arg21) = a21)
    (h22 : W (Proc.devRef .tc main_arg22) = a22)
    (h23 : W (Proc.devRef .tc main_arg23) = a23) :
    StableHlo.after (hostOps6_4 (F := Ideal)) (StableHlo.after (hostOps6_3 (F := Ideal)) (StableHlo.after (hostOps6_2 (F := Ideal)) (StableHlo.after (hostOps6_1 (F := Ideal)) (StableHlo.after (hostOps6 (F := Ideal)) W)))) (Proc.devRef .tc main_v300)
      = val_main_v310 (F := Ideal) a0 a1 a2 a3 a4 a5 a6 a7 a8 a9 a10 a11 a12 a13 a14 a15 a16 a17 a18 a19 a20 a21 a22 a23 := by
  have e248 := conv5_act W a0 a1 a2 a4 a5 a6 a7 a8 a9 a10 a11 a12 a13 a14 a15 a16 a17 h204 h201 h203 h17
  have k3 : (StableHlo.after (hostOps6_1 (F := Ideal)) (StableHlo.after (hostOps6 (F := Ideal)) W)) (Proc.devRef .tc main_arg3) = a3 := by
    after_results_simp
    exact h3
  have k18 : (StableHlo.after (hostOps6_1 (F := Ideal)) (StableHlo.after (hostOps6 (F := Ideal)) W)) (Proc.devRef .tc main_arg18) = a18 := by
    after_results_simp
    exact h18
  have k19 : (StableHlo.after (hostOps6_1 (F := Ideal)) (StableHlo.after (hostOps6 (F := Ideal)) W)) (Proc.devRef .tc main_arg19) = a19 := by
    after_results_simp
    exact h19
  have k22 : (StableHlo.after (hostOps6_1 (F := Ideal)) (StableHlo.after (hostOps6 (F := Ideal)) W)) (Proc.devRef .tc main_arg22) = a22 := by
    after_results_simp
    exact h22
  have k23 : (StableHlo.after (hostOps6_1 (F := Ideal)) (StableHlo.after (hostOps6 (F := Ideal)) W)) (Proc.devRef .tc main_arg23) = a23 := by
    after_results_simp
    exact h23
  have e289 := pooled_normalised (StableHlo.after (hostOps6_1 (F := Ideal)) (StableHlo.after (hostOps6 (F := Ideal)) W)) a0 a1 a2 a3 a4 a5 a6 a7 a8 a9 a10 a11 a12 a13 a14 a15 a16 a17 a18 a19 a22 a23 e248 k3 k18 k19 k22 k23
  have e290 : (StableHlo.after (hostOps6_3 (F := Ideal)) (StableHlo.after (hostOps6_2 (F := Ideal)) (StableHlo.after (hostOps6_1 (F := Ideal)) (StableHlo.after (hostOps6 (F := Ideal)) W)))) (Proc.devRef .tc main_v290)
      = val_main_v300 (F := Ideal) a0 a1 a2 a3 a4 a5 a6 a7 a8 a9 a10 a11 a12 a13 a14 a15 a16 a17 a18 a19 a22 a23 :=
    positivePart_dense (StableHlo.after (hostOps6_2 (F := Ideal)) (StableHlo.after (hostOps6_1 (F := Ideal)) (StableHlo.after (hostOps6 (F := Ideal)) W))) _ e289
  have k20 : (StableHlo.after (hostOps6_3 (F := Ideal)) (StableHlo.after (hostOps6_2 (F := Ideal)) (StableHlo.after (hostOps6_1 (F := Ideal)) (StableHlo.after (hostOps6 (F := Ideal)) W)))) (Proc.devRef .tc main_arg20) = a20 := by
    after_results_simp
    exact h20
  have k21 : (StableHlo.after (hostOps6_3 (F := Ideal)) (StableHlo.after (hostOps6_2 (F := Ideal)) (StableHlo.after (hostOps6_1 (F := Ideal)) (StableHlo.after (hostOps6 (F := Ideal)) W)))) (Proc.devRef .tc main_arg21) = a21 := by
    after_results_simp
    exact h21
  exact logistic_head (StableHlo.after (hostOps6_3 (F := Ideal)) (StableHlo.after (hostOps6_2 (F := Ideal)) (StableHlo.after (hostOps6_1 (F := Ideal)) (StableHlo.after (hostOps6 (F := Ideal)) W)))) a0 a1 a2 a3 a4 a5 a6 a7 a8 a9 a10 a11 a12 a13 a14 a15 a16 a17 a18 a19 a20 a21 a22 a23 e290 k20 k21

end Cert.KernelIdeal.HostStages

end
-- ==== Proof.Chain.lean ====
/-
  The idealized kernel's result is the reference's last stage of the launch arguments.

  Both programs run the same graph network: a feature projection, five graph convolutions (a dense product h = x·W,
  then degree-normalised aggregation over the edges, a self term, a bias and a rectifier), mean pooling over the
  graphs, a dense layer, batch normalisation, a rectifier, a dense layer and a logistic function. The kernel computes
  the feature projection and the five dense products in pipelined regions, block of rows by block of rows; everything
  between two regions is host code, the same operations the reference runs. So the buffer contents at the
  boundaries of the kernel's @main meet the reference's stages one after the other:

    feature array   = stage 12      h₁ = stage 17     x₁ = stage 61      h₂ = stage 66     x₂ = stage 110
    h₃ = stage 115  y₁ = stage 159  h₄ = stage 164    joined = stage 209 h₅ = stage 214    result = stage 310

  A region's step: its output array is the product of its two input arrays (the region's value), its inputs are an
  earlier boundary's contents (kept across the segments in between) and an argument as launched, and the reference's
  stage is by definition that product of the earlier stage. A host stretch's step: equal inputs, equal operations.
-/
import proofs.«133553_j23330262351943_2_alg».proof.Proof.Keep
import proofs.«133553_j23330262351943_2_alg».proof.Proof.RefReadP
import proofs.«133553_j23330262351943_2_alg».proof.Proof.Feat
import proofs.«133553_j23330262351943_2_alg».proof.Proof.Dense1
import proofs.«133553_j23330262351943_2_alg».proof.Proof.Dense2
import proofs.«133553_j23330262351943_2_alg».proof.Proof.Dense3
import proofs.«133553_j23330262351943_2_alg».proof.Proof.Dense4
import proofs.«133553_j23330262351943_2_alg».proof.Proof.Dense5
import proofs.«133553_j23330262351943_2_alg».proof.Proof.HostStages1
import proofs.«133553_j23330262351943_2_alg».proof.Proof.HostStages2
import proofs.«133553_j23330262351943_2_alg».proof.Proof.HostStages3
import proofs.«133553_j23330262351943_2_alg».proof.Proof.HostStages4
import proofs.«133553_j23330262351943_2_alg».proof.Proof.HostStages5

noncomputable section

namespace Cert.KernelIdeal.Chain

open Idealize.ShloMosaic Idealize.ShloMosaic.TcCoe Idealize.SL.Sem Cert.KernelIdeal Cert.KernelIdeal.Gen
open Cert.KernelIdeal.Keep Cert.KernelIdeal.RegionValue Cert.KernelIdeal.HostStages

/-- A TensorCore reference as a device buffer. -/
local notation:max "dr " b:max => Proc.devRef Proc.tc b

variable (m : (ℓ : Loc nD τ sig) → Buf (Elt Ideal) ℓ) (ρ : Dev nD → PrngReg) (c : Dev nD)

-- the launch contents of argument k on core c
set_option quotPrecheck false
local notation "𝐚0" => m ((c : Thread nD τ).loc main_arg0)
local notation "𝐚1" => m ((c : Thread nD τ).loc main_arg1)
local notation "𝐚2" => m ((c : Thread nD τ).loc main_arg2)
local notation "𝐚3" => m ((c : Thread nD τ).loc main_arg3)
local notation "𝐚4" => m ((c : Thread nD τ).loc main_arg4)
local notation "𝐚5" => m ((c : Thread nD τ).loc main_arg5)
local notation "𝐚6" => m ((c : Thread nD τ).loc main_arg6)
local notation "𝐚7" => m ((c : Thread nD τ).loc main_arg7)
local notation "𝐚8" => m ((c : Thread nD τ).loc main_arg8)
local notation "𝐚9" => m ((c : Thread nD τ).loc main_arg9)
local notation "𝐚10" => m ((c : Thread nD τ).loc main_arg10)
local notation "𝐚11" => m ((c : Thread nD τ).loc main_arg11)
local notation "𝐚12" => m ((c : Thread nD τ).loc main_arg12)
local notation "𝐚13" => m ((c : Thread nD τ).loc main_arg13)
local notation "𝐚14" => m ((c : Thread nD τ).loc main_arg14)
local notation "𝐚15" => m ((c : Thread nD τ).loc main_arg15)
local notation "𝐚16" => m ((c : Thread nD τ).loc main_arg16)
local notation "𝐚17" => m ((c : Thread nD τ).loc main_arg17)
local notation "𝐚18" => m ((c : Thread nD τ).loc main_arg18)
local notation "𝐚19" => m ((c : Thread nD τ).loc main_arg19)
local notation "𝐚20" => m ((c : Thread nD τ).loc main_arg20)
local notation "𝐚21" => m ((c : Thread nD τ).loc main_arg21)
local notation "𝐚22" => m ((c : Thread nD τ).loc main_arg22)
local notation "𝐚23" => m ((c : Thread nD τ).loc main_arg23)

/-- The feature array: region 0's output is the reference's joined, rectified projections of the node features. The two
    bias vectors reach the region as one-row matrices, the host's reshapes of the launched vectors. -/
theorem features : W2 m ρ c (dr main_v2) = Cert.ReferenceIdeal.ReadP.val_main_v12 (F := Ideal) 𝐚0 𝐚4 𝐚5 𝐚6 𝐚7 := by
  have h2 : V1 m ρ c (Pipeline.arrRef spec0 2)
      = shapeCast _ (𝐚5 : (⟨Cert.ReferenceIdeal.S128, .f32⟩ : BufTy).Contents (Elt Ideal)) shapeCasts_S128_S1x128 :=
    (Keep.reads0_2 m ρ c).trans (biasRow_wide (W0 m ρ c))
  have h4 : V1 m ρ c (Pipeline.arrRef spec0 4)
      = shapeCast _ (𝐚7 : (⟨Cert.ReferenceIdeal.S21, .f32⟩ : BufTy).Contents (Elt Ideal)) shapeCasts_S21_S1x21 :=
    (Keep.reads0_4 m ρ c).trans (biasRow_narrow (W0 m ρ c))
  refine (v2_at2 m ρ c).trans ((feat (V1 m ρ) c 𝐚5 𝐚7 h2 h4).trans ?_)
  rw [Keep.reads0_0 m ρ c, arg0_at1 m ρ c, Keep.reads0_1 m ρ c, arg4_at1 m ρ c, Keep.reads0_3 m ρ c, arg6_at1 m ρ c]

/-- h₁ = features · W_p1. -/
theorem hidden1 : W4 m ρ c (dr main_v7) = Cert.ReferenceIdeal.ReadP.val_main_v17 (F := Ideal) 𝐚0 𝐚4 𝐚5 𝐚6 𝐚7 𝐚8 := by
  refine (v7_at4 m ρ c).trans ((dense1 (V3 m ρ) c).trans ?_)
  rw [Keep.reads1_0 m ρ c, v2_at3 m ρ c, features m ρ c, Keep.reads1_1 m ρ c, arg8_at3 m ρ c] <;> rfl

/-- The edge list's two rows as the first convolution reads them. -/
theorem sources1 : W4 m ρ c (dr main_v4) = Cert.ReferenceIdeal.ReadP.val_main_v14 (F := Ideal) 𝐚1 :=
  (v4_at4 m ρ c).trans (edgeSources_first (W2 m ρ c) 𝐚1 (arg1_at2 m ρ c))
theorem targets1 : W4 m ρ c (dr main_v6) = Cert.ReferenceIdeal.ReadP.val_main_v16 (F := Ideal) 𝐚1 :=
  (v6_at4 m ρ c).trans (edgeTargets_first (W2 m ρ c) 𝐚1 (arg1_at2 m ρ c))

/-- x₁: the first convolution's aggregation of h₁. -/
theorem conv1 : W7 m ρ c (dr main_v51) = Cert.ReferenceIdeal.ReadP.val_main_v61 (F := Ideal) 𝐚0 𝐚1 𝐚4 𝐚5 𝐚6 𝐚7 𝐚8 𝐚9 :=
  conv1_out (W4 m ρ c) 𝐚0 𝐚1 𝐚4 𝐚5 𝐚6 𝐚7 𝐚8 𝐚9 (hidden1 m ρ c) (sources1 m ρ c) (targets1 m ρ c) (arg9_at4 m ρ c)

/-- h₂ = x₁ · W_p2. -/
theorem hidden2 : W8 m ρ c (dr main_v56) = Cert.ReferenceIdeal.ReadP.val_main_v66 (F := Ideal) 𝐚0 𝐚1 𝐚4 𝐚5 𝐚6 𝐚7 𝐚8 𝐚9 𝐚10 := by
  refine (v56_at8 m ρ c).trans ((dense2 (V7 m ρ) c).trans ?_)
  rw [Keep.reads2_0 m ρ c, conv1 m ρ c, Keep.reads2_1 m ρ c, arg10_at7 m ρ c] <;> rfl

theorem sources2 : W8 m ρ c (dr main_v53) = Cert.ReferenceIdeal.ReadP.val_main_v63 (F := Ideal) 𝐚1 :=
  (v53_at8 m ρ c).trans (edgeSources_second (W4 m ρ c) 𝐚1 (arg1_at4 m ρ c))
theorem targets2 : W8 m ρ c (dr main_v55) = Cert.ReferenceIdeal.ReadP.val_main_v65 (F := Ideal) 𝐚1 :=
  (v55_at8 m ρ c).trans (edgeTargets_second (W4 m ρ c) 𝐚1 (arg1_at4 m ρ c))

/-- x₂: the second convolution's aggregation of h₂. -/
theorem conv2 : W11 m ρ c (dr main_v100) = Cert.ReferenceIdeal.ReadP.val_main_v110 (F := Ideal) 𝐚0 𝐚1 𝐚4 𝐚5 𝐚6 𝐚7 𝐚8 𝐚9 𝐚10 𝐚11 :=
  conv2_out (W8 m ρ c) 𝐚0 𝐚1 𝐚4 𝐚5 𝐚6 𝐚7 𝐚8 𝐚9 𝐚10 𝐚11 (hidden2 m ρ c) (sources2 m ρ c) (targets2 m ρ c) (arg11_at8 m ρ c)

/-- h₃ = features · W_a1 (the second branch starts from the feature array again). -/
theorem hidden3 : W12 m ρ c (dr main_v105) = Cert.ReferenceIdeal.ReadP.val_main_v115 (F := Ideal) 𝐚0 𝐚4 𝐚5 𝐚6 𝐚7 𝐚12 := by
  refine (v105_at12 m ρ c).trans ((dense3 (V11 m ρ) c).trans ?_)
  rw [Keep.reads3_0 m ρ c, v2_at11 m ρ c, features m ρ c, Keep.reads3_1 m ρ c, arg12_at11 m ρ c] <;> rfl

theorem sources3 : W12 m ρ c (dr main_v102) = Cert.ReferenceIdeal.ReadP.val_main_v112 (F := Ideal) 𝐚2 :=
  (v102_at12 m ρ c).trans (edgeSources_third (W8 m ρ c) 𝐚2 (arg2_at8 m ρ c))
theorem targets3 : W12 m ρ c (dr main_v104) = Cert.ReferenceIdeal.ReadP.val_main_v114 (F := Ideal) 𝐚2 :=
  (v104_at12 m ρ c).trans (edgeTargets_third (W8 m ρ c) 𝐚2 (arg2_at8 m ρ c))

/-- y₁: the third convolution's aggregation of h₃ over the replaced edges. -/
theorem conv3 : W15 m ρ c (dr main_v149) = Cert.ReferenceIdeal.ReadP.val_main_v159 (F := Ideal) 𝐚0 𝐚2 𝐚4 𝐚5 𝐚6 𝐚7 𝐚12 𝐚13 :=
  conv3_out (W12 m ρ c) 𝐚0 𝐚2 𝐚4 𝐚5 𝐚6 𝐚7 𝐚12 𝐚13 (hidden3 m ρ c) (sources3 m ρ c) (targets3 m ρ c) (arg13_at12 m ρ c)

/-- h₄ = y₁ · W_a2. -/
theorem hidden4 : W16 m ρ c (dr main_v154) = Cert.ReferenceIdeal.ReadP.val_main_v164 (F := Ideal) 𝐚0 𝐚2 𝐚4 𝐚5 𝐚6 𝐚7 𝐚12 𝐚13 𝐚14 := by
  refine (v154_at16 m ρ c).trans ((dense4 (V15 m ρ) c).trans ?_)
  rw [Keep.reads4_0 m ρ c, conv3 m ρ c, Keep.reads4_1 m ρ c, arg14_at15 m ρ c] <;> rfl

theorem sources4 : W16 m ρ c (dr main_v151) = Cert.ReferenceIdeal.ReadP.val_main_v161 (F := Ideal) 𝐚2 :=
  (v151_at16 m ρ c).trans (edgeSources_fourth (W12 m ρ c) 𝐚2 (arg2_at12 m ρ c))
theorem targets4 : W16 m ρ c (dr main_v153) = Cert.ReferenceIdeal.ReadP.val_main_v163 (F := Ideal) 𝐚2 :=
  (v153_at16 m ρ c).trans (edgeTargets_fourth (W12 m ρ c) 𝐚2 (arg2_at12 m ρ c))

/-- The two branches joined: x₂ (kept since the second convolution) beside y₂. -/
theorem joined : W19 m ρ c (dr main_v199) = Cert.ReferenceIdeal.ReadP.val_main_v209 (F := Ideal) 𝐚0 𝐚1 𝐚2 𝐚4 𝐚5 𝐚6 𝐚7 𝐚8 𝐚9 𝐚10 𝐚11 𝐚12 𝐚13 𝐚14 𝐚15 :=
  branches_joined (W16 m ρ c) 𝐚0 𝐚1 𝐚2 𝐚4 𝐚5 𝐚6 𝐚7 𝐚8 𝐚9 𝐚10 𝐚11 𝐚12 𝐚13 𝐚14 𝐚15 (hidden4 m ρ c) (sources4 m ρ c) (targets4 m ρ c) (arg15_at16 m ρ c)
    ((v100_at16 m ρ c).trans (conv2 m ρ c))

/-- h₅ = joined · W_p3. -/
theorem hidden5 : W20 m ρ c (dr main_v204) = Cert.ReferenceIdeal.ReadP.val_main_v214 (F := Ideal) 𝐚0 𝐚1 𝐚2 𝐚4 𝐚5 𝐚6 𝐚7 𝐚8 𝐚9 𝐚10 𝐚11 𝐚12 𝐚13 𝐚14 𝐚15 𝐚16 := by
  refine (v204_at20 m ρ c).trans ((dense5 (V19 m ρ) c).trans ?_)
  rw [Keep.reads5_0 m ρ c, joined m ρ c, Keep.reads5_1 m ρ c, arg16_at19 m ρ c] <;> rfl

theorem sources5 : W20 m ρ c (dr main_v201) = Cert.ReferenceIdeal.ReadP.val_main_v211 (F := Ideal) 𝐚1 :=
  (v201_at20 m ρ c).trans (edgeSources_fifth (W16 m ρ c) 𝐚1 (arg1_at16 m ρ c))
theorem targets5 : W20 m ρ c (dr main_v203) = Cert.ReferenceIdeal.ReadP.val_main_v213 (F := Ideal) 𝐚1 :=
  (v203_at20 m ρ c).trans (edgeTargets_fifth (W16 m ρ c) 𝐚1 (arg1_at16 m ρ c))

/-- The result: the last convolution, pooling, the two dense layers with batch normalisation between them, and the
    logistic function, from h₅ — the reference's last stage of the launch arguments. -/
theorem result : W25 m ρ c (dr main_v300) = Cert.ReferenceIdeal.ReadP.val_main_v310 (F := Ideal) 𝐚0 𝐚1 𝐚2 𝐚3 𝐚4 𝐚5 𝐚6 𝐚7 𝐚8 𝐚9 𝐚10 𝐚11 𝐚12 𝐚13 𝐚14 𝐚15 𝐚16 𝐚17 𝐚18 𝐚19 𝐚20 𝐚21 𝐚22 𝐚23 :=
  head_out (W20 m ρ c) 𝐚0 𝐚1 𝐚2 𝐚3 𝐚4 𝐚5 𝐚6 𝐚7 𝐚8 𝐚9 𝐚10 𝐚11 𝐚12 𝐚13 𝐚14 𝐚15 𝐚16 𝐚17 𝐚18 𝐚19 𝐚20 𝐚21 𝐚22 𝐚23 (hidden5 m ρ c) (sources5 m ρ c) (targets5 m ρ c)
    (arg17_at20 m ρ c) (arg3_at20 m ρ c) (arg18_at20 m ρ c) (arg19_at20 m ρ c) (arg20_at20 m ρ c) (arg21_at20 m ρ c)
    (arg22_at20 m ρ c) (arg23_at20 m ρ c)

end Cert.KernelIdeal.Chain

end
-- ==== Proof.lean ====
/-
  The certificate of a graph network's forward pass: a Pallas kernel program against its jnp reference.

  Both programs compute  sigmoid(relu(BN(pool(GCN₅(…)) · W_g1 + b_g1)) · W_g2 + b_g2)  from the same arguments, where each
  graph convolution is  relu(Â (x · W) + b)  with Â the degree-normalised adjacency with self loops. The kernel program
  computes the feature projection and the five dense products x · W in pipelined regions over blocks of rows (operands
  rounded to bf16 on the way into the matrix unit, which at the ideal instance is the identity, the accumulator starting
  from zero); every other operation is the same host operation in both programs. The pass that prints the idealized
  kernel rewrote nothing, so `preserves` is trivial. No operation of either program is reordered across a sum, and no
  algebraic law is used: the two results are one term of the arguments, so the precondition is never opened.

  The three frames are the generated ones (the reference's is its run with the result dropped). The value claim puts the
  idealized kernel's run, whose result buffer ends at the last boundary's contents, beside the reference's run, whose
  result is its last stage; `Chain.result` says the former is the latter's stage of the same arguments.
-/
import proofs.«133553_j23330262351943_2_alg».proof.Defs
import proofs.«133553_j23330262351943_2_alg».proof.Proof.Gen.Kernel
import proofs.«133553_j23330262351943_2_alg».proof.Proof.Gen.Kernel.Skeleton
import proofs.«133553_j23330262351943_2_alg».proof.Proof.Gen.Kernel.Launch
import proofs.«133553_j23330262351943_2_alg».proof.Proof.Gen.Kernel.Points
import proofs.«133553_j23330262351943_2_alg».proof.Proof.Gen.Kernel.Frame
import proofs.«133553_j23330262351943_2_alg».proof.Proof.Gen.KernelIdeal
import proofs.«133553_j23330262351943_2_alg».proof.Proof.Gen.KernelIdeal.Skeleton
import proofs.«133553_j23330262351943_2_alg».proof.Proof.Gen.KernelIdeal.Launch
import proofs.«133553_j23330262351943_2_alg».proof.Proof.Gen.KernelIdeal.Points
import proofs.«133553_j23330262351943_2_alg».proof.Proof.Gen.KernelIdeal.Frame
import proofs.«133553_j23330262351943_2_alg».proof.Proof.Gen.ReferenceIdeal
import proofs.«133553_j23330262351943_2_alg».proof.Proof.Gen.Pre_finite_inputs
import proofs.«133553_j23330262351943_2_alg».proof.Proof.RunValueP
import proofs.«133553_j23330262351943_2_alg».proof.Proof.RefRunP
import proofs.«133553_j23330262351943_2_alg».proof.Proof.RefReadP
import proofs.«133553_j23330262351943_2_alg».proof.Proof.RefResult
import proofs.«133553_j23330262351943_2_alg».proof.Proof.Chain
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run with the result dropped
    exact fun m ρ _ => (θ_run Cert.ReferenceIdeal.defs _ _).mono (fun _ h c => (h c).2) (Cert.ReferenceIdeal.ValueP.run (F := Ideal) m ρ)
  · -- the two runs side by side, both results the reference's last stage of the kernel's launch arguments
    intro m ρ m' ρ' _ hagree
    refine ⟨fun c => Cert.ReferenceIdeal.ReadP.val_main_v310 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)), ?_, ?_⟩
    · exact (θ_run Cert.KernelIdeal.defs _ _).mono (fun _ h c => ⟨(h c).1.trans (Cert.KernelIdeal.Chain.result m ρ c), (h c).2⟩)
        (Cert.KernelIdeal.GenP.run_value (F := Ideal) m ρ)
    · refine (θ_run Cert.ReferenceIdeal.defs _ _).mono (fun _ h c => ⟨(h c).1.trans ?_, (h c).2⟩) (Cert.ReferenceIdeal.ValueP.run (F := Ideal) m' ρ')
      obtain ⟨h0, h1, h2, h3, h4, h5, h6, h7, h8, h9, h10, h11, h12, h13, h14, h15, h16, h17, h18, h19, h20, h21, h22, h23⟩ := hagree c
      rw [Cert.ReferenceIdeal.RefResult.last_stage m' c, h0, h1, h2, h3, h4, h5, h6, h7, h8, h9, h10, h11, h12, h13, h14, h15, h16, h17, h18, h19, h20, h21, h22, h23]⟩

end Cert.Proof

end
